-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S32 .f32) (main_arg5 : IVec S800000 32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_c_8 : IVec S_ 32 := constantI S_ 32 0#32
  let main_v24 : IVec S800000 32 := broadcastInDim S800000 ![] bcast_S_S800000 main_c_8
  let main_v25 : IVec S800000 1 := cmpi .sge main_arg5 main_v24
  let main_c_9 : IVec S_ 32 := constantI S_ 32 50000#32
  let main_v26 : IVec S800000 32 := broadcastInDim S800000 ![] bcast_S_S800000 main_c_9
  let main_v27 : IVec S800000 1 := cmpi .slt main_arg5 main_v26
  let main_v28 : IVec S800000 1 := andi main_v25 main_v27
  let main_c_10 : IVec S_ 1 := constantI S_ 1 1#1
  let main_v29 : IVec S_ 1 := (fun x v => Host.reduce IntOp.andi x v reducesTo_S800000_S_d0 h_S_) main_v28 main_c_10
  let main_v30 : IVec S_ 1 := andi main_v23 main_v29
  main_v30

def fn {F : FTy → Type} [FloatOps F] (main_arg0 : FVec F S50000x64 .f32) (main_arg1 : FVec F S64x64 .f32) (main_arg2 : FVec F S64 .f32) (main_arg3 : FVec F S64x32 .f32) (main_arg4 : FVec F S32 .f32) (main_arg5 : IVec S800000 32) (main_arg6 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_v13 main_v16
-- ==== Kernel.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S800000 : Shape := ⟨1, ![800000]⟩
abbrev S_ : Shape := ⟨0, ![]⟩
abbrev S50000 : Shape := ⟨1, ![50000]⟩
abbrev S800000x1 : Shape := ⟨2, ![800000, 1]⟩
abbrev S768 : Shape := ⟨1, ![768]⟩
abbrev S800768 : Shape := ⟨1, ![800768]⟩
abbrev S800768x1 : Shape := ⟨2, ![800768, 1]⟩
abbrev S50000x1 : Shape := ⟨2, ![50000, 1]⟩
abbrev S176x64 : Shape := ⟨2, ![176, 64]⟩
abbrev S50176x64 : Shape := ⟨2, ![50176, 64]⟩
abbrev S512x64 : Shape := ⟨2, ![512, 64]⟩
abbrev S800768x64 : Shape := ⟨2, ![800768, 64]⟩
abbrev S2048x1 : Shape := ⟨2, ![2048, 1]⟩
abbrev S2048x64 : Shape := ⟨2, ![2048, 64]⟩
abbrev S1x512 : Shape := ⟨2, ![1, 512]⟩
abbrev S2048x512 : Shape := ⟨2, ![2048, 512]⟩
abbrev S1x64 : Shape := ⟨2, ![1, 64]⟩
abbrev S50176x32 : Shape := ⟨2, ![50176, 32]⟩
abbrev S512x32 : Shape := ⟨2, ![512, 32]⟩
abbrev S800768x32 : Shape := ⟨2, ![800768, 32]⟩
abbrev S2048x32 : Shape := ⟨2, ![2048, 32]⟩
abbrev S50000x32 : Shape := ⟨2, ![50000, 32]⟩
abbrev S1x32 : Shape := ⟨2, ![1, 32]⟩

abbrev nBuf : Space → Nat
  | .hbm => 74
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S768, .i32⟩
  | .hbm, ⟨33, _⟩ => ⟨S800768, .i32⟩
  | .hbm, ⟨34, _⟩ => ⟨S_, .i32⟩
  | .hbm, ⟨35, _⟩ => ⟨S768, .i32⟩
  | .hbm, ⟨36, _⟩ => ⟨S800768, .i32⟩
  | .hbm, ⟨37, _⟩ => ⟨S800768x1, .i32⟩
  | .hbm, ⟨38, _⟩ => ⟨S800768x1, .i32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S_, .f32⟩
  | .hbm, ⟨43, _⟩ => ⟨S176x64, .f32⟩
  | .hbm, ⟨44, _⟩ => ⟨S50176x64, .f32⟩
  | .hbm, ⟨45, _⟩ => ⟨S50176x64, .f32⟩
  | .hbm, ⟨46, _⟩ => ⟨S800768x64, .f32⟩
  | .hbm, ⟨47, _⟩ => ⟨S50176x64, .f32⟩
  | .hbm, ⟨48, _⟩ => ⟨S50000x64, .f32⟩
  | .hbm, ⟨49, _⟩ => ⟨S50000x1, .f32⟩
  | .hbm, ⟨50, _⟩ => ⟨S50000x64, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S50000x1, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S176x64, .f32⟩
  | .hbm, ⟨63, _⟩ => ⟨S50176x64, .f32⟩
  | .hbm, ⟨64, _⟩ => ⟨S50176x32, .f32⟩
  | .hbm, ⟨65, _⟩ => ⟨S800768x32, .f32⟩
  | .hbm, ⟨66, _⟩ => ⟨S50176x32, .f32⟩
  | .hbm, ⟨67, _⟩ => ⟨S50000x32, .f32⟩
  | .hbm, ⟨68, _⟩ => ⟨S50000x1, .f32⟩
  | .hbm, ⟨69, _⟩ => ⟨S50000x32, .f32⟩
  | .hbm, ⟨70, _⟩ => ⟨S50000x32, .f32⟩
  | .hbm, ⟨71, _⟩ => ⟨S1x32, .f32⟩
  | .hbm, ⟨72, _⟩ => ⟨S50000x32, .f32⟩
  | .hbm, ⟨73, _⟩ => ⟨S50000x32, .f32⟩
  | .local _ .vmem, ⟨0, _⟩ => ⟨S512x64, .f32⟩
  | .local _ .vmem, ⟨1, _⟩ => ⟨S512x64, .f32⟩
  | .local _ .vmem, ⟨2, _⟩ => ⟨S64x64, .f32⟩
  | .local _ .vmem, ⟨3, _⟩ => ⟨S512x64, .f32⟩
  | .local _ .vmem, ⟨4, _⟩ => ⟨S512x64, .f32⟩
  | .local _ .vmem, ⟨5, _⟩ => ⟨S2048x1, .i32⟩
  | .local _ .vmem, ⟨6, _⟩ => ⟨S2048x1, .i32⟩
  | .local _ .vmem, ⟨7, _⟩ => ⟨S50176x64, .f32⟩
  | .local _ .vmem, ⟨8, _⟩ => ⟨S2048x64, .f32⟩
  | .local _ .vmem, ⟨9, _⟩ => ⟨S2048x64, .f32⟩
  | .local _ .vmem, ⟨10, _⟩ => ⟨S2048x1, .i32⟩
  | .local _ .vmem, ⟨11, _⟩ => ⟨S2048x1, .i32⟩
  | .local _ .vmem, ⟨12, _⟩ => ⟨S2048x64, .f32⟩
  | .local _ .vmem, ⟨13, _⟩ => ⟨S2048x64, .f32⟩
  | .local _ .vmem, ⟨14, _⟩ => ⟨S50176x64, .f32⟩
  | .local _ .vmem, ⟨15, _⟩ => ⟨S512x64, .f32⟩
  | .local _ .vmem, ⟨16, _⟩ => ⟨S512x64, .f32⟩
  | .local _ .vmem, ⟨17, _⟩ => ⟨S64x32, .f32⟩
  | .local _ .vmem, ⟨18, _⟩ => ⟨S512x32, .f32⟩
  | .local _ .vmem, ⟨19, _⟩ => ⟨S512x32, .f32⟩
  | .local _ .vmem, ⟨20, _⟩ => ⟨S2048x1, .i32⟩
  | .local _ .vmem, ⟨21, _⟩ => ⟨S2048x1, .i32⟩
  | .local _ .vmem, ⟨22, _⟩ => ⟨S50176x32, .f32⟩
  | .local _ .vmem, ⟨23, _⟩ => ⟨S2048x32, .f32⟩
  | .local _ .vmem, ⟨24, _⟩ => ⟨S2048x32, .f32⟩
  | .local _ .vmem, ⟨25, _⟩ => ⟨S2048x1, .i32⟩
  | .local _ .vmem, ⟨26, _⟩ => ⟨S2048x1, .i32⟩
  | .local _ .vmem, ⟨27, _⟩ => ⟨S2048x32, .f32⟩
  | .local _ .vmem, ⟨28, _⟩ => ⟨S2048x32, .f32⟩
  | .local _ .vmem, ⟨29, _⟩ => ⟨S50176x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call2_cst : Ref sig .tc := ⟨.hbm, 55, rfl⟩
abbrev main_call2_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![391], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50176x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![391], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S50176x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![98], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![391], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S50176x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![391], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2048x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S50176x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S768 : S_.BroadcastsInDim S768 (![] : Fin 0 → Fin S768.rank)
  concatenates_S800000_S768_S800768_d0 : Shape.Concatenates [S800000, S768] S800768 0
  shapeCasts_S800768_S800768x1 : S800768.ShapeCasts S800768x1
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S176x64 : S_.BroadcastsInDim S176x64 (![] : Fin 0 → Fin S176x64.rank)
  concatenates_S50000x64_S176x64_S50176x64_d0 : Shape.Concatenates [S50000x64, S176x64] S50176x64 0
  inb_S512x64_S512x64_0_0 : ∀ a, (![0, 0] : Fin 2 → Nat) a + S512x64.size a ≤ S512x64.size a
  h_S512x64 : 0 < S512x64.numel
  shapeCasts_S512x64_S512x64 : S512x64.ShapeCasts S512x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x512_d1_w32 : S1x512.Iotas .tc 32 [1]
  broadcasts_S2048x1_S2048x512 : S2048x1.Broadcasts S2048x512
  broadcasts_S1x512_S2048x512 : S1x512.Broadcasts S2048x512
  natLt_1_32 : 1 < 32
  inb_S50176x64_S512x64_0_0 : ∀ a, (![0, 0] : Fin 2 → Nat) a + S512x64.size a ≤ S50176x64.size a
  inb_S50176x64_S512x64_512_0 : ∀ a, (![512, 0] : Fin 2 → Nat) a + S512x64.size a ≤ S50176x64.size a
  inb_S50176x64_S512x64_1024_0 : ∀ a, (![1024, 0] : Fin 2 → Nat) a + S512x64.size a ≤ S50176x64.size a
  inb_S50176x64_S512x64_1536_0 : ∀ a, (![1536, 0] : Fin 2 → Nat) a + S512x64.size a ≤ S50176x64.size a
  inb_S50176x64_S512x64_2048_0 : ∀ a, (![2048, 0] : Fin 2 → Nat) a + S512x64.size a ≤ S50176x64.size a
  inb_S50176x64_S512x64_2560_0 : ∀ a, (![2560, 0] : Fin 2 → Nat) a + S512x64.size a ≤ S50176x64.size a
  inb_S50176x64_S512x64_3072_0 : ∀ a, (![3072, 0] : Fin 2 → Nat) a + S512x64.size a ≤ S50176x64.size a
  inb_S50176x64_S512x64_3584_0 : ∀ a, (![3584, 0] : Fin 2 → Nat) a + S512x64.size a ≤ S50176x64.size a
  inb_S50176x64_S512x64_4096_0 : ∀ a, (![4096, 0] : Fin 2 → Nat) a + S512x64.size a ≤ S50176x64.size a
  inb_S50176x64_S512x64_4608_0 : ∀ a, (![4608, 0] : Fin 2 → Nat) a + S512x64.size a ≤ S50176x64.size a
  inb_S50176x64_S512x64_5120_0 : ∀ a, (![5120, 0] : Fin 2 → Nat) a + S512x64.size a ≤ S50176x64.size a
  inb_S50176x64_S512x64_5632_0 : ∀ a, (![5632, 0] : Fin 2 → Nat) a + S512x64.size a ≤ S50176x64.size a
  inb_S50176x64_S512x64_6144_0 : ∀ a, (![6144, 0] : Fin 2 → Nat) a + S512x64.size a ≤ S50176x64.size a
  inb_S50176x64_S512x64_6656_0 : ∀ a, (![6656, 0] : Fin 2 → Nat) a + S512x64.size a ≤ S50176x64.size a
  inb_S50176x64_S512x64_7168_0 : ∀ a, (![7168, 0] : Fin 2 → Nat) a + S512x64.size a ≤ S50176x64.size a
  inb_S50176x64_S512x64_7680_0 : ∀ a, (![7680, 0] : Fin 2 → Nat) a + S512x64.size a ≤ S50176x64.size a
  inb_S50176x64_S512x64_8192_0 : ∀ a, (![8192, 0] : Fin 2 → Nat) a + S512x64.size a ≤ S50176x64.size a
  inb_S50176x64_S512x64_8704_0 : ∀ a, (![8704, 0] : Fin 2 → Nat) a + S512x64.size a ≤ S50176x64.size a
  inb_S50176x64_S512x64_9216_0 : ∀ a, (![9216, 0] : Fin 2 → Nat) a + S512x64.size a ≤ S50176x64.size a
  inb_S50176x64_S512x64_9728_0 : ∀ a, (![9728, 0] : Fin 2 → Nat) a + S512x64.size a ≤ S50176x64.size a
  inb_S50176x64_S512x64_10240_0 : ∀ a, (![10240, 0] : Fin 2 → Nat) a + S512x64.size a ≤ S50176x64.size a
  inb_S50176x64_S512x64_10752_0 : ∀ a, (![10752, 0] : Fin 2 → Nat) a + S512x64.size a ≤ S50176x64.size a
  inb_S50176x64_S512x64_11264_0 : ∀ a, (![11264, 0] : Fin 2 → Nat) a + S512x64.size a ≤ S50176x64.size a
  inb_S50176x64_S512x64_11776_0 : ∀ a, (![11776, 0] : Fin 2 → Nat) a + S512x64.size a ≤ S50176x64.size a
  inb_S50176x64_S512x64_12288_0 : ∀ a, (![12288, 0] : Fin 2 → Nat) a + S512x64.size a ≤ S50176x64.size a
  inb_S50176x64_S512x64_12800_0 : ∀ a, (![12800, 0] : Fin 2 → Nat) a + S512x64.size a ≤ S50176x64.size a
  inb_S50176x64_S512x64_13312_0 : ∀ a, (![13312, 0] : Fin 2 → Nat) a + S512x64.size a ≤ S50176x64.size a
  inb_S50176x64_S512x64_13824_0 : ∀ a, (![13824, 0] : Fin 2 → Nat) a + S512x64.size a ≤ S50176x64.size a
  inb_S50176x64_S512x64_14336_0 : ∀ a, (![14336, 0] : Fin 2 → Nat) a + S512x64.size a ≤ S50176x64.size a
  inb_S50176x64_S512x64_14848_0 : ∀ a, (![14848, 0] : Fin 2 → Nat) a + S512x64.size a ≤ S50176x64.size a
  inb_S50176x64_S512x64_15360_0 : ∀ a, (![15360, 0] : Fin 2 → Nat) a + S512x64.size a ≤ S50176x64.size a
  inb_S50176x64_S512x64_15872_0 : ∀ a, (![15872, 0] : Fin 2 → Nat) a + S512x64.size a ≤ S50176x64.size a
  inb_S50176x64_S512x64_16384_0 : ∀ a, (![16384, 0] : Fin 2 → Nat) a + S512x64.size a ≤ S50176x64.size a
  inb_S50176x64_S512x64_16896_0 : ∀ a, (![16896, 0] : Fin 2 → Nat) a + S512x64.size a ≤ S50176x64.size a
  inb_S50176x64_S512x64_17408_0 : ∀ a, (![17408, 0] : Fin 2 → Nat) a + S512x64.size a ≤ S50176x64.size a
  inb_S50176x64_S512x64_17920_0 : ∀ a, (![17920, 0] : Fin 2 → Nat) a + S512x64.size a ≤ S50176x64.size a
  inb_S50176x64_S512x64_18432_0 : ∀ a, (![18432, 0] : Fin 2 → Nat) a + S512x64.size a ≤ S50176x64.size a
  inb_S50176x64_S512x64_18944_0 : ∀ a, (![18944, 0] : Fin 2 → Nat) a + S512x64.size a ≤ S50176x64.size a
  inb_S50176x64_S512x64_19456_0 : ∀ a, (![19456, 0] : Fin 2 → Nat) a + S512x64.size a ≤ S50176x64.size a
  inb_S50176x64_S512x64_19968_0 : ∀ a, (![19968, 0] : Fin 2 → Nat) a + S512x64.size a ≤ S50176x64.size a
  inb_S50176x64_S512x64_20480_0 : ∀ a, (![20480, 0] : Fin 2 → Nat) a + S512x64.size a ≤ S50176x64.size a
  inb_S50176x64_S512x64_20992_0 : ∀ a, (![20992, 0] : Fin 2 → Nat) a + S512x64.size a ≤ S50176x64.size a
  inb_S50176x64_S512x64_21504_0 : ∀ a, (![21504, 0] : Fin 2 → Nat) a + S512x64.size a ≤ S50176x64.size a
  inb_S50176x64_S512x64_22016_0 : ∀ a, (![22016, 0] : Fin 2 → Nat) a + S512x64.size a ≤ S50176x64.size a
  inb_S50176x64_S512x64_22528_0 : ∀ a, (![22528, 0] : Fin 2 → Nat) a + S512x64.size a ≤ S50176x64.size a
  inb_S50176x64_S512x64_23040_0 : ∀ a, (![23040, 0] : Fin 2 → Nat) a + S512x64.size a ≤ S50176x64.size a
  inb_S50176x64_S512x64_23552_0 : ∀ a, (![23552, 0] : Fin 2 → Nat) a + S512x64.size a ≤ S50176x64.size a
  inb_S50176x64_S512x64_24064_0 : ∀ a, (![24064, 0] : Fin 2 → Nat) a + S512x64.size a ≤ S50176x64.size a
  inb_S50176x64_S512x64_24576_0 : ∀ a, (![24576, 0] : Fin 2 → Nat) a + S512x64.size a ≤ S50176x64.size a
  inb_S50176x64_S512x64_25088_0 : ∀ a, (![25088, 0] : Fin 2 → Nat) a + S512x64.size a ≤ S50176x64.size a
  inb_S50176x64_S512x64_25600_0 : ∀ a, (![25600, 0] : Fin 2 → Nat) a + S512x64.size a ≤ S50176x64.size a
  inb_S50176x64_S512x64_26112_0 : ∀ a, (![26112, 0] : Fin 2 → Nat) a + S512x64.size a ≤ S50176x64.size a
  inb_S50176x64_S512x64_26624_0 : ∀ a, (![26624, 0] : Fin 2 → Nat) a + S512x64.size a ≤ S50176x64.size a
  inb_S50176x64_S512x64_27136_0 : ∀ a, (![27136, 0] : Fin 2 → Nat) a + S512x64.size a ≤ S50176x64.size a
  inb_S50176x64_S512x64_27648_0 : ∀ a, (![27648, 0] : Fin 2 → Nat) a + S512x64.size a ≤ S50176x64.size a
  inb_S50176x64_S512x64_28160_0 : ∀ a, (![28160, 0] : Fin 2 → Nat) a + S512x64.size a ≤ S50176x64.size a
  inb_S50176x64_S512x64_28672_0 : ∀ a, (![28672, 0] : Fin 2 → Nat) a + S512x64.size a ≤ S50176x64.size a
  inb_S50176x64_S512x64_29184_0 : ∀ a, (![29184, 0] : Fin 2 → Nat) a + S512x64.size a ≤ S50176x64.size a
  inb_S50176x64_S512x64_29696_0 : ∀ a, (![29696, 0] : Fin 2 → Nat) a + S512x64.size a ≤ S50176x64.size a
  inb_S50176x64_S512x64_30208_0 : ∀ a, (![30208, 0] : Fin 2 → Nat) a + S512x64.size a ≤ S50176x64.size a
  inb_S50176x64_S512x64_30720_0 : ∀ a, (![30720, 0] : Fin 2 → Nat) a + S512x64.size a ≤ S50176x64.size a
  inb_S50176x64_S512x64_31232_0 : ∀ a, (![31232, 0] : Fin 2 → Nat) a + S512x64.size a ≤ S50176x64.size a
  inb_S50176x64_S512x64_31744_0 : ∀ a, (![31744, 0] : Fin 2 → Nat) a + S512x64.size a ≤ S50176x64.size a
  inb_S50176x64_S512x64_32256_0 : ∀ a, (![32256, 0] : Fin 2 → Nat) a + S512x64.size a ≤ S50176x64.size a
  inb_S50176x64_S512x64_32768_0 : ∀ a, (![32768, 0] : Fin 2 → Nat) a + S512x64.size a ≤ S50176x64.size a
  inb_S50176x64_S512x64_33280_0 : ∀ a, (![33280, 0] : Fin 2 → Nat) a + S512x64.size a ≤ S50176x64.size a
  inb_S50176x64_S512x64_33792_0 : ∀ a, (![33792, 0] : Fin 2 → Nat) a + S512x64.size a ≤ S50176x64.size a
  inb_S50176x64_S512x64_34304_0 : ∀ a, (![34304, 0] : Fin 2 → Nat) a + S512x64.size a ≤ S50176x64.size a
  inb_S50176x64_S512x64_34816_0 : ∀ a, (![34816, 0] : Fin 2 → Nat) a + S512x64.size a ≤ S50176x64.size a
  inb_S50176x64_S512x64_35328_0 : ∀ a, (![35328, 0] : Fin 2 → Nat) a + S512x64.size a ≤ S50176x64.size a
  inb_S50176x64_S512x64_35840_0 : ∀ a, (![35840, 0] : Fin 2 → Nat) a + S512x64.size a ≤ S50176x64.size a
  inb_S50176x64_S512x64_36352_0 : ∀ a, (![36352, 0] : Fin 2 → Nat) a + S512x64.size a ≤ S50176x64.size a
  inb_S50176x64_S512x64_36864_0 : ∀ a, (![36864, 0] : Fin 2 → Nat) a + S512x64.size a ≤ S50176x64.size a
  inb_S50176x64_S512x64_37376_0 : ∀ a, (![37376, 0] : Fin 2 → Nat) a + S512x64.size a ≤ S50176x64.size a
  inb_S50176x64_S512x64_37888_0 : ∀ a, (![37888, 0] : Fin 2 → Nat) a + S512x64.size a ≤ S50176x64.size a
  inb_S50176x64_S512x64_38400_0 : ∀ a, (![38400, 0] : Fin 2 → Nat) a + S512x64.size a ≤ S50176x64.size a
  inb_S50176x64_S512x64_38912_0 : ∀ a, (![38912, 0] : Fin 2 → Nat) a + S512x64.size a ≤ S50176x64.size a
  inb_S50176x64_S512x64_39424_0 : ∀ a, (![39424, 0] : Fin 2 → Nat) a + S512x64.size a ≤ S50176x64.size a
  inb_S50176x64_S512x64_39936_0 : ∀ a, (![39936, 0] : Fin 2 → Nat) a + S512x64.size a ≤ S50176x64.size a
  inb_S50176x64_S512x64_40448_0 : ∀ a, (![40448, 0] : Fin 2 → Nat) a + S512x64.size a ≤ S50176x64.size a
  inb_S50176x64_S512x64_40960_0 : ∀ a, (![40960, 0] : Fin 2 → Nat) a + S512x64.size a ≤ S50176x64.size a
  inb_S50176x64_S512x64_41472_0 : ∀ a, (![41472, 0] : Fin 2 → Nat) a + S512x64.size a ≤ S50176x64.size a
  inb_S50176x64_S512x64_41984_0 : ∀ a, (![41984, 0] : Fin 2 → Nat) a + S512x64.size a ≤ S50176x64.size a
  inb_S50176x64_S512x64_42496_0 : ∀ a, (![42496, 0] : Fin 2 → Nat) a + S512x64.size a ≤ S50176x64.size a
  inb_S50176x64_S512x64_43008_0 : ∀ a, (![43008, 0] : Fin 2 → Nat) a + S512x64.size a ≤ S50176x64.size a
  inb_S50176x64_S512x64_43520_0 : ∀ a, (![43520, 0] : Fin 2 → Nat) a + S512x64.size a ≤ S50176x64.size a
  inb_S50176x64_S512x64_44032_0 : ∀ a, (![44032, 0] : Fin 2 → Nat) a + S512x64.size a ≤ S50176x64.size a
  inb_S50176x64_S512x64_44544_0 : ∀ a, (![44544, 0] : Fin 2 → Nat) a + S512x64.size a ≤ S50176x64.size a
  inb_S50176x64_S512x64_45056_0 : ∀ a, (![45056, 0] : Fin 2 → Nat) a + S512x64.size a ≤ S50176x64.size a
  inb_S50176x64_S512x64_45568_0 : ∀ a, (![45568, 0] : Fin 2 → Nat) a + S512x64.size a ≤ S50176x64.size a
  inb_S50176x64_S512x64_46080_0 : ∀ a, (![46080, 0] : Fin 2 → Nat) a + S512x64.size a ≤ S50176x64.size a
  inb_S50176x64_S512x64_46592_0 : ∀ a, (![46592, 0] : Fin 2 → Nat) a + S512x64.size a ≤ S50176x64.size a
  inb_S50176x64_S512x64_47104_0 : ∀ a, (![47104, 0] : Fin 2 → Nat) a + S512x64.size a ≤ S50176x64.size a
  inb_S50176x64_S512x64_47616_0 : ∀ a, (![47616, 0] : Fin 2 → Nat) a + S512x64.size a ≤ S50176x64.size a
  inb_S50176x64_S512x64_48128_0 : ∀ a, (![48128, 0] : Fin 2 → Nat) a + S512x64.size a ≤ S50176x64.size a
  inb_S50176x64_S512x64_48640_0 : ∀ a, (![48640, 0] : Fin 2 → Nat) a + S512x64.size a ≤ S50176x64.size a
  inb_S50176x64_S512x64_49152_0 : ∀ a, (![49152, 0] : Fin 2 → Nat) a + S512x64.size a ≤ S50176x64.size a
  inb_S50176x64_S512x64_49664_0 : ∀ a, (![49664, 0] : Fin 2 → Nat) a + S512x64.size a ≤ S50176x64.size a
  inb_S2048x64_S2048x64_0_0 : ∀ a, (![0, 0] : Fin 2 → Nat) a + S2048x64.size a ≤ S2048x64.size a
  h_S2048x64 : 0 < S2048x64.numel
  inb_S50176x64_S50176x64_0_0 : ∀ a, (![0, 0] : Fin 2 → Nat) a + S50176x64.size a ≤ S50176x64.size a
  h_S50176x64 : 0 < S50176x64.numel
  shapeCasts_S2048x64_S2048x64 : S2048x64.ShapeCasts S2048x64
  slices_S50176x64_S50000x64_0_0 : S50176x64.Slices ![0, 0] S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  inb_S64x32_S64x32_0_0 : ∀ a, (![0, 0] : Fin 2 → Nat) a + S64x32.size a ≤ S64x32.size a
  h_S64x32 : 0 < S64x32.numel
  inb_S512x32_S512x32_0_0 : ∀ a, (![0, 0] : Fin 2 → Nat) a + S512x32.size a ≤ S512x32.size a
  h_S512x32 : 0 < S512x32.numel
  inb_S50176x32_S512x32_0_0 : ∀ a, (![0, 0] : Fin 2 → Nat) a + S512x32.size a ≤ S50176x32.size a
  shapeCasts_S512x32_S512x32 : S512x32.ShapeCasts S512x32
  inb_S50176x32_S512x32_512_0 : ∀ a, (![512, 0] : Fin 2 → Nat) a + S512x32.size a ≤ S50176x32.size a
  inb_S50176x32_S512x32_1024_0 : ∀ a, (![1024, 0] : Fin 2 → Nat) a + S512x32.size a ≤ S50176x32.size a
  inb_S50176x32_S512x32_1536_0 : ∀ a, (![1536, 0] : Fin 2 → Nat) a + S512x32.size a ≤ S50176x32.size a
  inb_S50176x32_S512x32_2048_0 : ∀ a, (![2048, 0] : Fin 2 → Nat) a + S512x32.size a ≤ S50176x32.size a
  inb_S50176x32_S512x32_2560_0 : ∀ a, (![2560, 0] : Fin 2 → Nat) a + S512x32.size a ≤ S50176x32.size a
  inb_S50176x32_S512x32_3072_0 : ∀ a, (![3072, 0] : Fin 2 → Nat) a + S512x32.size a ≤ S50176x32.size a
  inb_S50176x32_S512x32_3584_0 : ∀ a, (![3584, 0] : Fin 2 → Nat) a + S512x32.size a ≤ S50176x32.size a
  inb_S50176x32_S512x32_4096_0 : ∀ a, (![4096, 0] : Fin 2 → Nat) a + S512x32.size a ≤ S50176x32.size a
  inb_S50176x32_S512x32_4608_0 : ∀ a, (![4608, 0] : Fin 2 → Nat) a + S512x32.size a ≤ S50176x32.size a
  inb_S50176x32_S512x32_5120_0 : ∀ a, (![5120, 0] : Fin 2 → Nat) a + S512x32.size a ≤ S50176x32.size a
  inb_S50176x32_S512x32_5632_0 : ∀ a, (![5632, 0] : Fin 2 → Nat) a + S512x32.size a ≤ S50176x32.size a
  inb_S50176x32_S512x32_6144_0 : ∀ a, (![6144, 0] : Fin 2 → Nat) a + S512x32.size a ≤ S50176x32.size a
  inb_S50176x32_S512x32_6656_0 : ∀ a, (![6656, 0] : Fin 2 → Nat) a + S512x32.size a ≤ S50176x32.size a
  inb_S50176x32_S512x32_7168_0 : ∀ a, (![7168, 0] : Fin 2 → Nat) a + S512x32.size a ≤ S50176x32.size a
  inb_S50176x32_S512x32_7680_0 : ∀ a, (![7680, 0] : Fin 2 → Nat) a + S512x32.size a ≤ S50176x32.size a
  inb_S50176x32_S512x32_8192_0 : ∀ a, (![8192, 0] : Fin 2 → Nat) a + S512x32.size a ≤ S50176x32.size a
  inb_S50176x32_S512x32_8704_0 : ∀ a, (![8704, 0] : Fin 2 → Nat) a + S512x32.size a ≤ S50176x32.size a
  inb_S50176x32_S512x32_9216_0 : ∀ a, (![9216, 0] : Fin 2 → Nat) a + S512x32.size a ≤ S50176x32.size a
  inb_S50176x32_S512x32_9728_0 : ∀ a, (![9728, 0] : Fin 2 → Nat) a + S512x32.size a ≤ S50176x32.size a
  inb_S50176x32_S512x32_10240_0 : ∀ a, (![10240, 0] : Fin 2 → Nat) a + S512x32.size a ≤ S50176x32.size a
  inb_S50176x32_S512x32_10752_0 : ∀ a, (![10752, 0] : Fin 2 → Nat) a + S512x32.size a ≤ S50176x32.size a
  inb_S50176x32_S512x32_11264_0 : ∀ a, (![11264, 0] : Fin 2 → Nat) a + S512x32.size a ≤ S50176x32.size a
  inb_S50176x32_S512x32_11776_0 : ∀ a, (![11776, 0] : Fin 2 → Nat) a + S512x32.size a ≤ S50176x32.size a
  inb_S50176x32_S512x32_12288_0 : ∀ a, (![12288, 0] : Fin 2 → Nat) a + S512x32.size a ≤ S50176x32.size a
  inb_S50176x32_S512x32_12800_0 : ∀ a, (![12800, 0] : Fin 2 → Nat) a + S512x32.size a ≤ S50176x32.size a
  inb_S50176x32_S512x32_13312_0 : ∀ a, (![13312, 0] : Fin 2 → Nat) a + S512x32.size a ≤ S50176x32.size a
  inb_S50176x32_S512x32_13824_0 : ∀ a, (![13824, 0] : Fin 2 → Nat) a + S512x32.size a ≤ S50176x32.size a
  inb_S50176x32_S512x32_14336_0 : ∀ a, (![14336, 0] : Fin 2 → Nat) a + S512x32.size a ≤ S50176x32.size a
  inb_S50176x32_S512x32_14848_0 : ∀ a, (![14848, 0] : Fin 2 → Nat) a + S512x32.size a ≤ S50176x32.size a
  inb_S50176x32_S512x32_15360_0 : ∀ a, (![15360, 0] : Fin 2 → Nat) a + S512x32.size a ≤ S50176x32.size a
  inb_S50176x32_S512x32_15872_0 : ∀ a, (![15872, 0] : Fin 2 → Nat) a + S512x32.size a ≤ S50176x32.size a
  inb_S50176x32_S512x32_16384_0 : ∀ a, (![16384, 0] : Fin 2 → Nat) a + S512x32.size a ≤ S50176x32.size a
  inb_S50176x32_S512x32_16896_0 : ∀ a, (![16896, 0] : Fin 2 → Nat) a + S512x32.size a ≤ S50176x32.size a
  inb_S50176x32_S512x32_17408_0 : ∀ a, (![17408, 0] : Fin 2 → Nat) a + S512x32.size a ≤ S50176x32.size a
  inb_S50176x32_S512x32_17920_0 : ∀ a, (![17920, 0] : Fin 2 → Nat) a + S512x32.size a ≤ S50176x32.size a
  inb_S50176x32_S512x32_18432_0 : ∀ a, (![18432, 0] : Fin 2 → Nat) a + S512x32.size a ≤ S50176x32.size a
  inb_S50176x32_S512x32_18944_0 : ∀ a, (![18944, 0] : Fin 2 → Nat) a + S512x32.size a ≤ S50176x32.size a
  inb_S50176x32_S512x32_19456_0 : ∀ a, (![19456, 0] : Fin 2 → Nat) a + S512x32.size a ≤ S50176x32.size a
  inb_S50176x32_S512x32_19968_0 : ∀ a, (![19968, 0] : Fin 2 → Nat) a + S512x32.size a ≤ S50176x32.size a
  inb_S50176x32_S512x32_20480_0 : ∀ a, (![20480, 0] : Fin 2 → Nat) a + S512x32.size a ≤ S50176x32.size a
  inb_S50176x32_S512x32_20992_0 : ∀ a, (![20992, 0] : Fin 2 → Nat) a + S512x32.size a ≤ S50176x32.size a
  inb_S50176x32_S512x32_21504_0 : ∀ a, (![21504, 0] : Fin 2 → Nat) a + S512x32.size a ≤ S50176x32.size a
  inb_S50176x32_S512x32_22016_0 : ∀ a, (![22016, 0] : Fin 2 → Nat) a + S512x32.size a ≤ S50176x32.size a
  inb_S50176x32_S512x32_22528_0 : ∀ a, (![22528, 0] : Fin 2 → Nat) a + S512x32.size a ≤ S50176x32.size a
  inb_S50176x32_S512x32_23040_0 : ∀ a, (![23040, 0] : Fin 2 → Nat) a + S512x32.size a ≤ S50176x32.size a
  inb_S50176x32_S512x32_23552_0 : ∀ a, (![23552, 0] : Fin 2 → Nat) a + S512x32.size a ≤ S50176x32.size a
  inb_S50176x32_S512x32_24064_0 : ∀ a, (![24064, 0] : Fin 2 → Nat) a + S512x32.size a ≤ S50176x32.size a
  inb_S50176x32_S512x32_24576_0 : ∀ a, (![24576, 0] : Fin 2 → Nat) a + S512x32.size a ≤ S50176x32.size a
  inb_S50176x32_S512x32_25088_0 : ∀ a, (![25088, 0] : Fin 2 → Nat) a + S512x32.size a ≤ S50176x32.size a
  inb_S50176x32_S512x32_25600_0 : ∀ a, (![25600, 0] : Fin 2 → Nat) a + S512x32.size a ≤ S50176x32.size a
  inb_S50176x32_S512x32_26112_0 : ∀ a, (![26112, 0] : Fin 2 → Nat) a + S512x32.size a ≤ S50176x32.size a
  inb_S50176x32_S512x32_26624_0 : ∀ a, (![26624, 0] : Fin 2 → Nat) a + S512x32.size a ≤ S50176x32.size a
  inb_S50176x32_S512x32_27136_0 : ∀ a, (![27136, 0] : Fin 2 → Nat) a + S512x32.size a ≤ S50176x32.size a
  inb_S50176x32_S512x32_27648_0 : ∀ a, (![27648, 0] : Fin 2 → Nat) a + S512x32.size a ≤ S50176x32.size a
  inb_S50176x32_S512x32_28160_0 : ∀ a, (![28160, 0] : Fin 2 → Nat) a + S512x32.size a ≤ S50176x32.size a
  inb_S50176x32_S512x32_28672_0 : ∀ a, (![28672, 0] : Fin 2 → Nat) a + S512x32.size a ≤ S50176x32.size a
  inb_S50176x32_S512x32_29184_0 : ∀ a, (![29184, 0] : Fin 2 → Nat) a + S512x32.size a ≤ S50176x32.size a
  inb_S50176x32_S512x32_29696_0 : ∀ a, (![29696, 0] : Fin 2 → Nat) a + S512x32.size a ≤ S50176x32.size a
  inb_S50176x32_S512x32_30208_0 : ∀ a, (![30208, 0] : Fin 2 → Nat) a + S512x32.size a ≤ S50176x32.size a
  inb_S50176x32_S512x32_30720_0 : ∀ a, (![30720, 0] : Fin 2 → Nat) a + S512x32.size a ≤ S50176x32.size a
  inb_S50176x32_S512x32_31232_0 : ∀ a, (![31232, 0] : Fin 2 → Nat) a + S512x32.size a ≤ S50176x32.size a
  inb_S50176x32_S512x32_31744_0 : ∀ a, (![31744, 0] : Fin 2 → Nat) a + S512x32.size a ≤ S50176x32.size a
  inb_S50176x32_S512x32_32256_0 : ∀ a, (![32256, 0] : Fin 2 → Nat) a + S512x32.size a ≤ S50176x32.size a
  inb_S50176x32_S512x32_32768_0 : ∀ a, (![32768, 0] : Fin 2 → Nat) a + S512x32.size a ≤ S50176x32.size a
  inb_S50176x32_S512x32_33280_0 : ∀ a, (![33280, 0] : Fin 2 → Nat) a + S512x32.size a ≤ S50176x32.size a
  inb_S50176x32_S512x32_33792_0 : ∀ a, (![33792, 0] : Fin 2 → Nat) a + S512x32.size a ≤ S50176x32.size a
  inb_S50176x32_S512x32_34304_0 : ∀ a, (![34304, 0] : Fin 2 → Nat) a + S512x32.size a ≤ S50176x32.size a
  inb_S50176x32_S512x32_34816_0 : ∀ a, (![34816, 0] : Fin 2 → Nat) a + S512x32.size a ≤ S50176x32.size a
  inb_S50176x32_S512x32_35328_0 : ∀ a, (![35328, 0] : Fin 2 → Nat) a + S512x32.size a ≤ S50176x32.size a
  inb_S50176x32_S512x32_35840_0 : ∀ a, (![35840, 0] : Fin 2 → Nat) a + S512x32.size a ≤ S50176x32.size a
  inb_S50176x32_S512x32_36352_0 : ∀ a, (![36352, 0] : Fin 2 → Nat) a + S512x32.size a ≤ S50176x32.size a
  inb_S50176x32_S512x32_36864_0 : ∀ a, (![36864, 0] : Fin 2 → Nat) a + S512x32.size a ≤ S50176x32.size a
  inb_S50176x32_S512x32_37376_0 : ∀ a, (![37376, 0] : Fin 2 → Nat) a + S512x32.size a ≤ S50176x32.size a
  inb_S50176x32_S512x32_37888_0 : ∀ a, (![37888, 0] : Fin 2 → Nat) a + S512x32.size a ≤ S50176x32.size a
  inb_S50176x32_S512x32_38400_0 : ∀ a, (![38400, 0] : Fin 2 → Nat) a + S512x32.size a ≤ S50176x32.size a
  inb_S50176x32_S512x32_38912_0 : ∀ a, (![38912, 0] : Fin 2 → Nat) a + S512x32.size a ≤ S50176x32.size a
  inb_S50176x32_S512x32_39424_0 : ∀ a, (![39424, 0] : Fin 2 → Nat) a + S512x32.size a ≤ S50176x32.size a
  inb_S50176x32_S512x32_39936_0 : ∀ a, (![39936, 0] : Fin 2 → Nat) a + S512x32.size a ≤ S50176x32.size a
  inb_S50176x32_S512x32_40448_0 : ∀ a, (![40448, 0] : Fin 2 → Nat) a + S512x32.size a ≤ S50176x32.size a
  inb_S50176x32_S512x32_40960_0 : ∀ a, (![40960, 0] : Fin 2 → Nat) a + S512x32.size a ≤ S50176x32.size a
  inb_S50176x32_S512x32_41472_0 : ∀ a, (![41472, 0] : Fin 2 → Nat) a + S512x32.size a ≤ S50176x32.size a
  inb_S50176x32_S512x32_41984_0 : ∀ a, (![41984, 0] : Fin 2 → Nat) a + S512x32.size a ≤ S50176x32.size a
  inb_S50176x32_S512x32_42496_0 : ∀ a, (![42496, 0] : Fin 2 → Nat) a + S512x32.size a ≤ S50176x32.size a
  inb_S50176x32_S512x32_43008_0 : ∀ a, (![43008, 0] : Fin 2 → Nat) a + S512x32.size a ≤ S50176x32.size a
  inb_S50176x32_S512x32_43520_0 : ∀ a, (![43520, 0] : Fin 2 → Nat) a + S512x32.size a ≤ S50176x32.size a
  inb_S50176x32_S512x32_44032_0 : ∀ a, (![44032, 0] : Fin 2 → Nat) a + S512x32.size a ≤ S50176x32.size a
  inb_S50176x32_S512x32_44544_0 : ∀ a, (![44544, 0] : Fin 2 → Nat) a + S512x32.size a ≤ S50176x32.size a
  inb_S50176x32_S512x32_45056_0 : ∀ a, (![45056, 0] : Fin 2 → Nat) a + S512x32.size a ≤ S50176x32.size a
  inb_S50176x32_S512x32_45568_0 : ∀ a, (![45568, 0] : Fin 2 → Nat) a + S512x32.size a ≤ S50176x32.size a
  inb_S50176x32_S512x32_46080_0 : ∀ a, (![46080, 0] : Fin 2 → Nat) a + S512x32.size a ≤ S50176x32.size a
  inb_S50176x32_S512x32_46592_0 : ∀ a, (![46592, 0] : Fin 2 → Nat) a + S512x32.size a ≤ S50176x32.size a
  inb_S50176x32_S512x32_47104_0 : ∀ a, (![47104, 0] : Fin 2 → Nat) a + S512x32.size a ≤ S50176x32.size a
  inb_S50176x32_S512x32_47616_0 : ∀ a, (![47616, 0] : Fin 2 → Nat) a + S512x32.size a ≤ S50176x32.size a
  inb_S50176x32_S512x32_48128_0 : ∀ a, (![48128, 0] : Fin 2 → Nat) a + S512x32.size a ≤ S50176x32.size a
  inb_S50176x32_S512x32_48640_0 : ∀ a, (![48640, 0] : Fin 2 → Nat) a + S512x32.size a ≤ S50176x32.size a
  inb_S50176x32_S512x32_49152_0 : ∀ a, (![49152, 0] : Fin 2 → Nat) a + S512x32.size a ≤ S50176x32.size a
  inb_S50176x32_S512x32_49664_0 : ∀ a, (![49664, 0] : Fin 2 → Nat) a + S512x32.size a ≤ S50176x32.size a
  inb_S2048x32_S2048x32_0_0 : ∀ a, (![0, 0] : Fin 2 → Nat) a + S2048x32.size a ≤ S2048x32.size a
  h_S2048x32 : 0 < S2048x32.numel
  inb_S50176x32_S50176x32_0_0 : ∀ a, (![0, 0] : Fin 2 → Nat) a + S50176x32.size a ≤ S50176x32.size a
  h_S50176x32 : 0 < S50176x32.numel
  shapeCasts_S2048x32_S2048x32 : S2048x32.ShapeCasts S2048x32
  slices_S50176x32_S50000x32_0_0 : S50176x32.Slices ![0, 0] S50000x32
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  dot_S512x64_S64x64_S512x64_1_0_0_1_n_n_wf : DotDims.WF S512x64 S64x64 S512x64 [1] [0] [0] [1] [] []
  dot_S2048x512_S512x64_S2048x64_1_0_0_1_n_n_wf : DotDims.WF S2048x512 S512x64 S2048x64 [1] [0] [0] [1] [] []
  dot_S2048x512_S2048x64_S512x64_0_0_1_1_n_n_wf : DotDims.WF S2048x512 S2048x64 S512x64 [0] [0] [1] [1] [] []
  dot_S512x64_S64x32_S512x32_1_0_0_1_n_n_wf : DotDims.WF S512x64 S64x32 S512x32 [1] [0] [0] [1] [] []
  dot_S2048x512_S512x32_S2048x32_1_0_0_1_n_n_wf : DotDims.WF S2048x512 S512x32 S2048x32 [1] [0] [0] [1] [] []
  dot_S2048x512_S2048x32_S512x32_0_0_1_1_n_n_wf : DotDims.WF S2048x512 S2048x32 S512x32 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S50176x64.size a
  hwx0_0 : ∀ i : grid0.Coords, EltTy.bits .f32 = 32 ∨ (Rect.block (s := S50176x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S50176x64.size a
  hwx0_2 : ∀ i : grid0.Coords, EltTy.bits .f32 = 32 ∨ (Rect.block (s := S50176x64) S512x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S800768x1.size a
  hwx1_0 : ∀ i : grid1.Coords, EltTy.bits .i32 = 32 ∨ (Rect.block (s := S800768x1) S2048x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S50176x64.size a ≤ S50176x64.size a
  hwx1_1 : ∀ i : grid1.Coords, EltTy.bits .f32 = 32 ∨ (Rect.block (s := S50176x64) S50176x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S800768x64.size a
  hwx1_2 : ∀ i : grid1.Coords, EltTy.bits .f32 = 32 ∨ (Rect.block (s := S800768x64) S2048x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1.size a ≤ S800768x1.size a
  hwx2_0 : ∀ i : grid2.Coords, EltTy.bits .i32 = 32 ∨ (Rect.block (s := S800768x1) S2048x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S800768x64.size a
  hwx2_1 : ∀ i : grid2.Coords, EltTy.bits .f32 = 32 ∨ (Rect.block (s := S800768x64) S2048x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50176x64.size a ≤ S50176x64.size a
  hwx2_2 : ∀ i : grid2.Coords, EltTy.bits .f32 = 32 ∨ (Rect.block (s := S50176x64) S50176x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S50176x64.size a
  hwx3_0 : ∀ i : grid3.Coords, EltTy.bits .f32 = 32 ∨ (Rect.block (s := S50176x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x32.size a ≤ S50176x32.size a
  hwx3_2 : ∀ i : grid3.Coords, EltTy.bits .f32 = 32 ∨ (Rect.block (s := S50176x32) S512x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1.size a ≤ S800768x1.size a
  hwx4_0 : ∀ i : grid4.Coords, EltTy.bits .i32 = 32 ∨ (Rect.block (s := S800768x1) S2048x1.size (cc4_transform_0 i) (hinb4_0 i)).WholeWords (EltTy.packing .i32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S50176x32.size a ≤ S50176x32.size a
  hwx4_1 : ∀ i : grid4.Coords, EltTy.bits .f32 = 32 ∨ (Rect.block (s := S50176x32) S50176x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x32.size a ≤ S800768x32.size a
  hwx4_2 : ∀ i : grid4.Coords, EltTy.bits .f32 = 32 ∨ (Rect.block (s := S800768x32) S2048x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x1.size a ≤ S800768x1.size a
  hwx5_0 : ∀ i : grid5.Coords, EltTy.bits .i32 = 32 ∨ (Rect.block (s := S800768x1) S2048x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x32.size a ≤ S800768x32.size a
  hwx5_1 : ∀ i : grid5.Coords, EltTy.bits .f32 = 32 ∨ (Rect.block (s := S800768x32) S2048x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S50176x32.size a ≤ S50176x32.size a
  hwx5_2 : ∀ i : grid5.Coords, EltTy.bits .f32 = 32 ∨ (Rect.block (s := S50176x32) S50176x32.size (cc5_transform_2 i) (hinb5_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x512_S2048x64_S512x64_0_0_1_1_n_n : DotDims S2048x512 S2048x64 S512x64 where
  lhsContracting := [0]
  rhsContracting := [0]
  lhsNonContracting := [1]
  rhsNonContracting := [1]
  lhsBatch := []
  rhsBatch := []
  wf := dot_S2048x512_S2048x64_S512x64_0_0_1_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x512_S2048x32_S512x32_0_0_1_1_n_n : DotDims S2048x512 S2048x32 S512x32 where
  lhsContracting := [0]
  rhsContracting := [0]
  lhsNonContracting := [1]
  rhsNonContracting := [1]
  lhsBatch := []
  rhsBatch := []
  wf := dot_S2048x512_S2048x32_S512x32_0_0_1_1_n_n_wf

abbrev win0_0 : Pipeline.Window sig grid0 :=
  Pipeline.Window.ofSpec (Memref.whole main_v23) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S50176x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S2048x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S50176x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v39) S512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S512x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v17) S2048x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S50176x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41) S2048x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v18) S2048x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S2048x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42) S50176x32.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 104
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S50000x1, .f32⟩
  | .hbm, ⟨49, _⟩ => ⟨S50000x64, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S_, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x64, .f32⟩
  | .hbm, ⟨83, _⟩ => ⟨S50000x64, .f32⟩
  | .hbm, ⟨84, _⟩ => ⟨S50000x32, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x32, .f32⟩
  | .hbm, ⟨94, _⟩ => ⟨S_, .f32⟩
  | .hbm, ⟨95, _⟩ => ⟨S50000x32, .f32⟩
  | .hbm, ⟨96, _⟩ => ⟨S800000x1, .i32⟩
  | .hbm, ⟨97, _⟩ => ⟨S50000x32, .f32⟩
  | .hbm, ⟨98, _⟩ => ⟨S50000x1, .f32⟩
  | .hbm, ⟨99, _⟩ => ⟨S50000x32, .f32⟩
  | .hbm, ⟨100, _⟩ => ⟨S50000x32, .f32⟩
  | .hbm, ⟨101, _⟩ => ⟨S1x32, .f32⟩
  | .hbm, ⟨102, _⟩ => ⟨S50000x32, .f32⟩
  | .hbm, ⟨103, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_cst_13 : Ref sig .tc := ⟨.hbm, 74, rfl⟩
abbrev main_call4_v0 : Ref sig .tc := ⟨.hbm, 75, rfl⟩
abbrev main_call4_v1 : Ref sig .tc := ⟨.hbm, 76, rfl⟩
abbrev main_v44 : Ref sig .tc := ⟨.hbm, 77, rfl⟩
abbrev main_cst_14 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_15 : Ref sig .tc := ⟨.hbm, 85, rfl⟩
abbrev main_v51 : Ref sig .tc := ⟨.hbm, 86, rfl⟩
abbrev main_v52 : Ref sig .tc := ⟨.hbm, 87, rfl⟩
abbrev main_c_16 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.KernelRun.lean ====
/- The idealized kernel program's run with its RESULT named: every weakly fair execution terminates without a
   fault, the result array holds what the last stretch of host operations leaves of the sixth region's output,
   and the seven argument arrays are unchanged. The buffer contents at each boundary between a stretch of host
   operations and a region are the generated fold from the launch memory; only the final reading differs from
   the frame theorem: it also reads the result buffer. -/
import proofs.«126296_j7791070675006_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v49) = W15 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v49 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩)

end Cert.KernelIdeal.RunValue

end
-- ==== Proof.Spec.lean ====
/- The mathematics of one graph-convolution layer, as whole-array functions over the extended reals.
   A layer is three steps on matrices: a dense product `dense A W`; a row selection `pick s H`, which for each
   edge e sums the rows n of H against the indicator of `s e = n` (so it is row `s e` of H when `s e` addresses a
   row, and the zero row otherwise); and an accumulation `accum d M`, which for each node v sums the rows e of M
   against the indicator of `d e = v` (the sum of the messages of the edges arriving at v). Indices are the
   32-bit words the programs carry, compared as words. -/
import Idealize.ShloMosaic.PureOps.Ideal
import Idealize.ShloMosaic.Lib.ValueIdx

noncomputable section

open scoped BigOperators

namespace Cert.Spec

open Idealize.ShloMosaic Idealize.ShloMosaic.ValueIdx

/-- A real matrix of R rows and C columns. -/
abbrev Mat (R C : Nat) := (⟨2, ![R, C]⟩ : Shape).Idx → EReal
/-- A column of R index words. -/
abbrev ICol (R : Nat) := (⟨2, ![R, 1]⟩ : Shape).Idx → BitVec 32

/-- The indicator of two index words being equal, as a number. -/
def ind (a b : BitVec 32) : EReal := if a = b then 1 else 0

/-- The matrix product. -/
def dense {R K C : Nat} (A : Mat R K) (W : Mat K C) : Mat R C :=
  fun i => ∑ k : Fin K, A (ix2 (i 0) k) * W (ix2 k (i 1))

/-- Row selection by indicators: entry (e, c) is the sum over the rows n of H of [s e = n] · H[n, c]. -/
def pick {E N C : Nat} (s : ICol E) (H : Mat N C) : Mat E C :=
  fun i => ∑ n : Fin N, ind (s (ix2 (i 0) (0 : Fin 1))) (BitVec.ofNat 32 n.val) * H (ix2 n (i 1))

/-- Accumulation by indicators: entry (v, c) is the sum over the rows e of M of [d e = v] · M[e, c]. -/
def accum {E N C : Nat} (d : ICol E) (M : Mat E C) : Mat N C :=
  fun i => ∑ e : Fin E, ind (d (ix2 e (0 : Fin 1))) (BitVec.ofNat 32 (i 0).val) * M (ix2 e (i 1))

theorem ind_self (a : BitVec 32) : ind a a = 1 := if_pos rfl
theorem ind_ne {a b : BitVec 32} (h : a ≠ b) : ind a b = 0 := if_neg h

/-- A row selection whose index addresses row n of H is that row. -/
theorem pick_eq_row {E N C : Nat} (s : ICol E) (H : Mat N C) (i : (⟨2, ![E, C]⟩ : Shape).Idx) (n : Fin N) (hN : N ≤ 2 ^ 32)
    (h : s (ix2 (i 0) (0 : Fin 1)) = BitVec.ofNat 32 n.val) : pick s H i = H (ix2 n (i 1)) := by
  unfold pick
  rw [Finset.sum_eq_single n]
  · rw [h, ind_self, one_mul]
  · intro b _ hb
    have : BitVec.ofNat 32 n.val ≠ BitVec.ofNat 32 b.val := by
      intro e
      apply hb
      have e' := congrArg BitVec.toNat e
      simp only [BitVec.toNat_ofNat] at e'
      rw [Nat.mod_eq_of_lt (by omega), Nat.mod_eq_of_lt (by omega)] at e'
      exact Fin.ext e'.symm
    rw [h, ind_ne this, zero_mul]
  · intro hn; exact absurd (Finset.mem_univ n) hn

end Cert.Spec

end
-- ==== Proof.Layer.lean ====
/- One graph-convolution layer and the two-layer network as whole-array functions of the argument arrays.
   `norm idx` is the vector of inverse square roots of the clipped degrees, max(1, #{e : idx e = v})^(-1/2),
   written with the host operations both programs use for it. `layer` scales the rows of X by the out-degree
   norm, pads with zero rows to 50176, multiplies by W, selects row `src e` for each of the 800768 padded edges
   (padding edges point at node 0), accumulates the selected rows at node `dst e` (padding edges at node 50000,
   beyond the kept rows), and on the first 50000 rows scales by the in-degree norm and adds the bias. -/
import proofs.«126296_j7791070675006_1_alg».proof.Proof.Gen.KernelIdeal
import proofs.«126296_j7791070675006_1_alg».proof.Proof.Spec

noncomputable section

open scoped BigOperators

namespace Cert.Layer

open Cert.KernelIdeal Idealize.ShloMosaic Idealize.ShloMosaic.ValueIdx Cert.Spec
open Cert.KernelIdeal.Facts₀ Cert.KernelIdeal.Facts

/-- The degree norm of an index array: ones scattered and added at the indices, clipped below at 1, to the power -1/2. -/
def norm (idx : IVec S800000 32) : FVec Ideal S50000 .f32 :=
  Host.powf
    (maximumf (broadcastInDim S50000 ![] bcast_S_S50000 (constant S_ .f32 0x3F800000#32))
      (Host.scatterAdd scatter_S50000_S800000x1_S800000_n_0_0_1
        (broadcastInDim S50000 ![] bcast_S_S50000 (constant S_ .f32 0x00000000#32))
        (broadcastInDim S800000x1 ![0] bcast_S800000_S800000x1_0 idx)
        (broadcastInDim S800000 ![] bcast_S_S800000 (constant S_ .f32 0x3F800000#32))))
    (broadcastInDim S50000 ![] bcast_S_S50000 (constant S_ .f32 0xBF000000#32))

/-- 50000 rows padded with zero rows to 50176. -/
def padRows {C : Nat} (X : Mat 50000 C) : Mat 50176 C :=
  fun i => if h : (i 0).val < 50000 then X (ix2 ⟨(i 0).val, h⟩ (i 1)) else 0

/-- 800000 index words padded with `fill` to a column of 800768. -/
def padIdx (a : IVec S800000 32) (fill : BitVec 32) : ICol 800768 :=
  fun i => if h : (i 0).val < 800000 then a (ix1 ⟨(i 0).val, h⟩) else fill

/-- The rows of X scaled by a vector. -/
def scaleRows {C : Nat} (X : Mat 50000 C) (s : S50000.Idx → EReal) : Mat 50000 C := fun j => X j * s (ix1 (j 0))

/-- The first 50000 rows of a matrix of 50176. -/
def keepRows {C : Nat} (A : Mat 50176 C) : Mat 50000 C :=
  fun i => A (ix2 ⟨(i 0).val, Nat.lt_of_lt_of_le (idx2_lt0 i) (by decide)⟩ (i 1))

/-- What follows the accumulation: the kept rows scaled by the in-degree norm, plus the bias. -/
def finish {C : Nat} (A : Mat 50176 C) (inn : S50000.Idx → EReal) (b : (⟨1, ![C]⟩ : Shape).Idx → EReal) : Mat 50000 C :=
  fun i => keepRows A i * inn (ix1 (i 0)) + b (ix1 (i 1))

/-- One layer. -/
def layer {C : Nat} (X : Mat 50000 64) (W : Mat 64 C) (b : (⟨1, ![C]⟩ : Shape).Idx → EReal) (on inn : S50000.Idx → EReal)
    (src dst : IVec S800000 32) : Mat 50000 C :=
  finish (accum (N := 50176) (padIdx dst 50000#32) (pick (N := 50176) (padIdx src 0#32) (dense (padRows (scaleRows X on)) W))) inn b

/-- The network: two layers with max(·, 0) between. -/
def net (X : Mat 50000 64) (W1 : Mat 64 64) (b1 : (⟨1, ![64]⟩ : Shape).Idx → EReal) (W2 : Mat 64 32) (b2 : (⟨1, ![32]⟩ : Shape).Idx → EReal)
    (src dst : IVec S800000 32) : Mat 50000 32 :=
  layer (fun j => max (layer X W1 b1 (norm src) (norm dst) src dst j) 0) W2 b2 (norm src) (norm dst) src dst

end Cert.Layer

end
-- ==== Proof.DenseBlock.lean ====
/- The body of a dense region at one entry. The body stores one value: the product of the loaded block of 512 rows
   (64 columns) with the loaded weight matrix (64 rows), accumulated from zero. Over the extended reals the
   narrowing of both operands to bf16 is the identity, so entry (p, q) of the stored block is the sum over
   k : Fin 64 of block (p, k) · weights (k, q). Stated for the 64-column and for the 32-column weight matrix. -/
import proofs.«126296_j7791070675006_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DenseValue

open Cert.KernelIdeal Cert.KernelIdeal.Gen
open Idealize.ShloMosaic Idealize.ShloMosaic.TcCoe Idealize.ShloMosaic.ValueIdx
open Cert.KernelIdeal.Facts₀ Cert.KernelIdeal.Facts

/-- The left operand's index at output entry i and contraction position κ: row (i 0), column κ. -/
theorem blockProd64_lhs0 (i : S512x64.Idx) (κ : dot_S512x64_S64x64_S512x64_1_0_0_1_n_n.contr.Idx) : (dot_S512x64_S64x64_S512x64_1_0_0_1_n_n.lhsIdx i κ 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem blockProd64_lhs1 (i : S512x64.Idx) (κ : dot_S512x64_S64x64_S512x64_1_0_0_1_n_n.contr.Idx) : (dot_S512x64_S64x64_S512x64_1_0_0_1_n_n.lhsIdx i κ 1).val = (κ ⟨0, by decide⟩).val :=
  dot_S512x64_S64x64_S512x64_1_0_0_1_n_n.lhsIdx_val_of_single rfl i κ
/-- The right operand's index: row κ, column (i 1). -/
theorem blockProd64_rhs0 (i : S512x64.Idx) (κ : dot_S512x64_S64x64_S512x64_1_0_0_1_n_n.contr.Idx) : (dot_S512x64_S64x64_S512x64_1_0_0_1_n_n.rhsIdx i κ 0).val = (κ ⟨0, by decide⟩).val :=
  dot_S512x64_S64x64_S512x64_1_0_0_1_n_n.rhsIdx_val_of_single rfl i κ
theorem blockProd64_rhs1 (i : S512x64.Idx) (κ : dot_S512x64_S64x64_S512x64_1_0_0_1_n_n.contr.Idx) : (dot_S512x64_S64x64_S512x64_1_0_0_1_n_n.rhsIdx i κ 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

/-- The body's stored value at entry (p, q): the product of row p of the row block with column q of the weights
    (the narrowing of the operands to bf16 changes nothing over the extended reals, and the accumulator starts at zero). -/
theorem blockProd64_apply (x0 : Vec Ideal S512x64 .f32) (x1 : Vec Ideal S64x64 .f32) (p : Fin 512) (q : Fin 64) :
    k0_pay1 (F := Ideal) x0 x1 (ix2 p q) = ∑ k : Fin 64, x0 (ix2 p k) * x1 (ix2 k q) := by
  unfold k0_pay1
  simp only [matmul]
  rw [Ideal.matmul_constant_zero_apply, ← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 p q) ((contrEquiv1 dot_S512x64_S64x64_S512x64_1_0_0_1_n_n 64 rfl rfl).symm k) = ix2 p k := funext fun a => Fin.ext (by
    match a with
    | ⟨0, _⟩ => exact blockProd64_lhs0 _ _
    | ⟨1, _⟩ => exact (blockProd64_lhs1 _ _).trans hk)
  have er : dot_S512x64_S64x64_S512x64_1_0_0_1_n_n.rhsIdx (ix2 p q) ((contrEquiv1 dot_S512x64_S64x64_S512x64_1_0_0_1_n_n 64 rfl rfl).symm k) = ix2 k q := funext fun a => Fin.ext (by
    match a with
    | ⟨0, _⟩ => exact (blockProd64_rhs0 _ _).trans hk
    | ⟨1, _⟩ => exact blockProd64_rhs1 _ _)
  rw [truncf_apply, truncf_apply, shapeCast_self, el, er]

/-- The left operand's index at output entry i and contraction position κ: row (i 0), column κ. -/
theorem blockProd32_lhs0 (i : S512x32.Idx) (κ : dot_S512x64_S64x32_S512x32_1_0_0_1_n_n.contr.Idx) : (dot_S512x64_S64x32_S512x32_1_0_0_1_n_n.lhsIdx i κ 0).val = (i 0).val := by
  unfold DotDims.lhsIdx
  rw [dif_neg (show ¬(0 : Fin S512x64.rank) ∈ dot_S512x64_S64x32_S512x32_1_0_0_1_n_n.lhsBatch by decide), dif_pos (show (0 : Fin S512x64.rank) ∈ dot_S512x64_S64x32_S512x32_1_0_0_1_n_n.lhsNonContracting by decide)]
  rfl
theorem blockProd32_lhs1 (i : S512x32.Idx) (κ : dot_S512x64_S64x32_S512x32_1_0_0_1_n_n.contr.Idx) : (dot_S512x64_S64x32_S512x32_1_0_0_1_n_n.lhsIdx i κ 1).val = (κ ⟨0, by decide⟩).val :=
  dot_S512x64_S64x32_S512x32_1_0_0_1_n_n.lhsIdx_val_of_single rfl i κ
/-- The right operand's index: row κ, column (i 1). -/
theorem blockProd32_rhs0 (i : S512x32.Idx) (κ : dot_S512x64_S64x32_S512x32_1_0_0_1_n_n.contr.Idx) : (dot_S512x64_S64x32_S512x32_1_0_0_1_n_n.rhsIdx i κ 0).val = (κ ⟨0, by decide⟩).val :=
  dot_S512x64_S64x32_S512x32_1_0_0_1_n_n.rhsIdx_val_of_single rfl i κ
theorem blockProd32_rhs1 (i : S512x32.Idx) (κ : dot_S512x64_S64x32_S512x32_1_0_0_1_n_n.contr.Idx) : (dot_S512x64_S64x32_S512x32_1_0_0_1_n_n.rhsIdx i κ 1).val = (i 1).val := by
  unfold DotDims.rhsIdx
  rw [dif_neg (show ¬(1 : Fin S64x32.rank) ∈ dot_S512x64_S64x32_S512x32_1_0_0_1_n_n.rhsBatch by decide), dif_pos (show (1 : Fin S64x32.rank) ∈ dot_S512x64_S64x32_S512x32_1_0_0_1_n_n.rhsNonContracting by decide)]
  rfl

/-- The body's stored value at entry (p, q): the product of row p of the row block with column q of the weights
    (the narrowing of the operands to bf16 changes nothing over the extended reals, and the accumulator starts at zero). -/
theorem blockProd32_apply (x0 : Vec Ideal S512x64 .f32) (x1 : Vec Ideal S64x32 .f32) (p : Fin 512) (q : Fin 32) :
    k3_pay1 (F := Ideal) x0 x1 (ix2 p q) = ∑ k : Fin 64, x0 (ix2 p k) * x1 (ix2 k q) := by
  unfold k3_pay1
  simp only [matmul]
  rw [Ideal.matmul_constant_zero_apply, ← Equiv.sum_comp (contrEquiv1 dot_S512x64_S64x32_S512x32_1_0_0_1_n_n 64 rfl rfl).symm]
  refine Finset.sum_congr rfl fun k _ => ?_
  have hk := contrEquiv1_symm_val dot_S512x64_S64x32_S512x32_1_0_0_1_n_n 64 rfl rfl k
  have el : dot_S512x64_S64x32_S512x32_1_0_0_1_n_n.lhsIdx (ix2 p q) ((contrEquiv1 dot_S512x64_S64x32_S512x32_1_0_0_1_n_n 64 rfl rfl).symm k) = ix2 p k := funext fun a => Fin.ext (by
    match a with
    | ⟨0, _⟩ => exact blockProd32_lhs0 _ _
    | ⟨1, _⟩ => exact (blockProd32_lhs1 _ _).trans hk)
  have er : dot_S512x64_S64x32_S512x32_1_0_0_1_n_n.rhsIdx (ix2 p q) ((contrEquiv1 dot_S512x64_S64x32_S512x32_1_0_0_1_n_n 64 rfl rfl).symm k) = ix2 k q := funext fun a => Fin.ext (by
    match a with
    | ⟨0, _⟩ => exact (blockProd32_rhs0 _ _).trans hk
    | ⟨1, _⟩ => exact blockProd32_rhs1 _ _)
  rw [truncf_apply, truncf_apply, shapeCast_self, el, er]

/-- The same at any index of the block, through its two coordinates. -/
theorem blockProd64_at (x0 : Vec Ideal S512x64 .f32) (x1 : Vec Ideal S64x64 .f32) (y : S512x64.Idx) :
    k0_pay1 (F := Ideal) x0 x1 y = ∑ k : Fin 64, x0 (ix2 (y 0) k) * x1 (ix2 k (y 1)) := by
  obtain ⟨p, q, rfl⟩ : ∃ (p : Fin 512) (q : Fin 64), y = ix2 p q := ⟨y 0, y 1, eq_ix2 y⟩
  exact blockProd64_apply x0 x1 p q

theorem blockProd32_at (x0 : Vec Ideal S512x64 .f32) (x1 : Vec Ideal S64x32 .f32) (y : S512x32.Idx) :
    k3_pay1 (F := Ideal) x0 x1 y = ∑ k : Fin 64, x0 (ix2 (y 0) k) * x1 (ix2 k (y 1)) := by
  obtain ⟨p, q, rfl⟩ : ∃ (p : Fin 512) (q : Fin 32), y = ix2 p q := ⟨y 0, y 1, eq_ix2 y⟩
  exact blockProd32_apply x0 x1 p q

end Cert.KernelIdeal.DenseValue

end
-- ==== Proof.Dense.lean ====
/- The two dense regions: each grid point multiplies a block of 512 rows by the whole weight matrix, and the
   98 blocks tile the 50176 rows, so the output array is the matrix product of the two input arrays. -/
import proofs.«126296_j7791070675006_1_alg».proof.Proof.Gen.KernelIdeal.Frame
import proofs.«126296_j7791070675006_1_alg».proof.Proof.Layer
import proofs.«126296_j7791070675006_1_alg».proof.Proof.DenseBlock

set_option maxRecDepth 16384

noncomputable section

open scoped BigOperators

namespace Cert.KernelIdeal.DenseValue

open Cert.KernelIdeal Cert.KernelIdeal.Gen Cert.Spec
open Idealize.ShloMosaic Idealize.ShloMosaic.TcCoe Idealize.ShloMosaic.ValueIdx
open Idealize.SL Idealize.SL.Sem
open Cert.KernelIdeal.Facts₀ Cert.KernelIdeal.Facts

variable (V : (c : Dev nD) → (b : Ref sig .tc) → Buf (Elt Ideal) ((c : Thread nD τ).loc b)) (c : Dev nD)

theorem origin_zero : (![0, 0] : Fin 2 → Nat) = fun _ => 0 := funext fun a => by fin_cases a <;> rfl

/-- The block indices at grid point t: the row windows (operand 0 and the output) take row block t, column block 0;
    the weights' window takes block (0, 0), the whole matrix, at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back: block t of the product. Entry (p, q) of the stored block is row p of the
    point's row block times column q of the weights; row p of block t is row 512 t + p of the array, and the
    weights' window is the whole matrix at every point. -/
theorem flushed0 (t : Fin cfg0.N) :
    (dat0 (F := Ideal) V c).flushed 2 t = ((cfg0.win 2).blk t).view.read (Elt Ideal) (dense (V c main_v23 : S50176x64.Idx → EReal) (V c main_arg1 : S64x64.Idx → EReal)) := by
  show (cfg0.win 2).cut (grid0.coords t) ((dat0 V c).after 2 t) = _
  rw [after0_2]
  unfold out0_2
  rw [View.canon_unit_zero origin_zero]
  simp only [View.ld_unit_zero (S := S512x64) origin_zero, View.ld_unit_zero (S := S64x64) origin_zero]
  obtain ⟨e00, e01, e10, e11, e20, e21⟩ := idx0 t
  funext j
  rw [View.read_apply]
  refine (blockProd64_at (iblk0 V c 0 t) (iblk0 V c 1 t) ((win0 2).xinj (grid0.coords t) j)).trans ?_
  unfold dense
  refine Finset.sum_congr rfl fun k _ => ?_
  have hA : iblk0 V c 0 t (ix2 ((win0 2).xinj (grid0.coords t) j 0) k)
      = V c main_v23 (ix2 (((View.whole main_v24).slice ((win0 2).rect t)).emb j 0) k) := by
    unfold iblk0
    rw [View.read_apply]
    show V c main_v23 _ = V c main_v23 _
    congr 1
    funext a; apply Fin.ext
    match a with
    | ⟨0, _⟩ => show win0_0.index t 0 * 512 + 1 * (j 0).val = win0_2.index t 0 * 512 + 1 * (j 0).val; rw [e00, e20]
    | ⟨1, _⟩ => show win0_0.index t 1 * 64 + 1 * k.val = k.val; rw [e01]; omega
  have hW : iblk0 V c 1 t (ix2 k ((win0 2).xinj (grid0.coords t) j 1))
      = V c main_arg1 (ix2 k (((View.whole main_v24).slice ((win0 2).rect t)).emb j 1)) := by
    unfold iblk0
    rw [View.read_apply]
    show V c main_arg1 _ = V c main_arg1 _
    congr 1
    funext a; apply Fin.ext
    match a with
    | ⟨0, _⟩ => show win0_1.index t 0 * 64 + 1 * k.val = k.val; rw [e10]; omega
    | ⟨1, _⟩ => show win0_1.index t 1 * 64 + 1 * (j 1).val = win0_2.index t 1 * 64 + 1 * (j 1).val; rw [e11, e21]
  rw [hA, hW]

/-- An index of the array is in point t's block iff each coordinate is in the block's range on its axis. -/
theorem mem_blk0 (t : Fin cfg0.N) (i : S50176x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v24).slice (win0_2.rect t)).set ↔ _
  rw [View.set_slice_whole, Rect.mem_set_unit]
  exact Iff.rfl

/-- Row r of the array lies in the block of point r / 512, and the 98 blocks of 512 rows tile the 50176 rows. -/
theorem cover0 (i : S50176x64.Idx) : ∃ t : Fin cfg0.N, (cfg0.win 2).flush t = true ∧ i ∈ ((cfg0.win 2).blk t).view.set := by
  have hi0 : (i 0).val < 50176 := (i 0).isLt
  have hi1 : (i 1).val < 64 := (i 1).isLt
  have hN : cfg0.N = 98 := N_0
  have ht : (i 0).val / 512 < cfg0.N := by rw [hN]; omega
  obtain ⟨-, -, -, -, e20, e21⟩ := idx0 ⟨(i 0).val / 512, ht⟩
  refine ⟨⟨(i 0).val / 512, ht⟩, flush0_2 _, ?_⟩
  rw [mem_blk0]
  intro a
  match a with
  | ⟨0, _⟩ =>
    show win0_2.index ⟨(i 0).val / 512, ht⟩ 0 * 512 ≤ (i 0).val ∧ (i 0).val < win0_2.index ⟨(i 0).val / 512, ht⟩ 0 * 512 + 512
    rw [e20]; show (i 0).val / 512 * 512 ≤ (i 0).val ∧ (i 0).val < (i 0).val / 512 * 512 + 512; omega
  | ⟨1, _⟩ =>
    show win0_2.index ⟨(i 0).val / 512, ht⟩ 1 * 64 ≤ (i 1).val ∧ (i 1).val < win0_2.index ⟨(i 0).val / 512, ht⟩ 1 * 64 + 64
    rw [e21]; omega

/-- Region 0: the padded, scaled features times the first weight matrix. -/
theorem arr0 : ((dat0 (F := Ideal) V c).arrAt 2 cfg0.N : S50176x64.Idx → EReal)
    = dense (V c main_v23 : S50176x64.Idx → EReal) (V c main_arg1 : S64x64.Idx → EReal) :=
  (dat0 (F := Ideal) V c).arrAt_eq_of_cover 2 (dense (V c main_v23 : S50176x64.Idx → EReal) (V c main_arg1 : S64x64.Idx → EReal))
    (fun t _ => flushed0 V c t) cover0

/-- What grid point t writes back: block t of the product. Entry (p, q) of the stored block is row p of the
    point's row block times column q of the weights; row p of block t is row 512 t + p of the array, and the
    weights' window is the whole matrix at every point. -/
theorem flushed3 (t : Fin cfg3.N) :
    (dat3 (F := Ideal) V c).flushed 2 t = ((cfg3.win 2).blk t).view.read (Elt Ideal) (dense (V c main_v39 : S50176x64.Idx → EReal) (V c main_arg3 : S64x32.Idx → EReal)) := by
  show (cfg3.win 2).cut (grid3.coords t) ((dat3 V c).after 2 t) = _
  rw [after3_2]
  unfold out3_2
  rw [View.canon_unit_zero origin_zero]
  simp only [View.ld_unit_zero (S := S512x64) origin_zero, View.ld_unit_zero (S := S64x32) origin_zero]
  obtain ⟨e00, e01, e10, e11, e20, e21⟩ := idx3 t
  funext j
  rw [View.read_apply]
  refine (blockProd32_at (iblk3 V c 0 t) (iblk3 V c 1 t) ((win3 2).xinj (grid3.coords t) j)).trans ?_
  unfold dense
  refine Finset.sum_congr rfl fun k _ => ?_
  have hA : iblk3 V c 0 t (ix2 ((win3 2).xinj (grid3.coords t) j 0) k)
      = V c main_v39 (ix2 (((View.whole main_v40).slice ((win3 2).rect t)).emb j 0) k) := by
    unfold iblk3
    rw [View.read_apply]
    show V c main_v39 _ = V c main_v39 _
    congr 1
    funext a; apply Fin.ext
    match a with
    | ⟨0, _⟩ => show win3_0.index t 0 * 512 + 1 * (j 0).val = win3_2.index t 0 * 512 + 1 * (j 0).val; rw [e00, e20]
    | ⟨1, _⟩ => show win3_0.index t 1 * 64 + 1 * k.val = k.val; rw [e01]; omega
  have hW : iblk3 V c 1 t (ix2 k ((win3 2).xinj (grid3.coords t) j 1))
      = V c main_arg3 (ix2 k (((View.whole main_v40).slice ((win3 2).rect t)).emb j 1)) := by
    unfold iblk3
    rw [View.read_apply]
    show V c main_arg3 _ = V c main_arg3 _
    congr 1
    funext a; apply Fin.ext
    match a with
    | ⟨0, _⟩ => show win3_1.index t 0 * 64 + 1 * k.val = k.val; rw [e10]; omega
    | ⟨1, _⟩ => show win3_1.index t 1 * 32 + 1 * (j 1).val = win3_2.index t 1 * 32 + 1 * (j 1).val; rw [e11, e21]
  rw [hA, hW]

/-- An index of the array is in point t's block iff each coordinate is in the block's range on its axis. -/
theorem mem_blk3 (t : Fin cfg3.N) (i : S50176x32.Idx) :
    i ∈ ((cfg3.win 2).blk t).view.set ↔ ∀ a : Fin 2, win3_2.index t a * S512x32.size a ≤ (i a).val ∧ (i a).val < win3_2.index t a * S512x32.size a + S512x32.size a := by
  show i ∈ ((View.whole main_v40).slice (win3_2.rect t)).set ↔ _
  rw [View.set_slice_whole, Rect.mem_set_unit]
  exact Iff.rfl

/-- Row r of the array lies in the block of point r / 512, and the 98 blocks of 512 rows tile the 50176 rows. -/
theorem cover3 (i : S50176x32.Idx) : ∃ t : Fin cfg3.N, (cfg3.win 2).flush t = true ∧ i ∈ ((cfg3.win 2).blk t).view.set := by
  have hi0 : (i 0).val < 50176 := (i 0).isLt
  have hi1 : (i 1).val < 32 := (i 1).isLt
  have hN : cfg3.N = 98 := N_3
  have ht : (i 0).val / 512 < cfg3.N := by rw [hN]; omega
  obtain ⟨-, -, -, -, e20, e21⟩ := idx3 ⟨(i 0).val / 512, ht⟩
  refine ⟨⟨(i 0).val / 512, ht⟩, flush3_2 _, ?_⟩
  rw [mem_blk3]
  intro a
  match a with
  | ⟨0, _⟩ =>
    show win3_2.index ⟨(i 0).val / 512, ht⟩ 0 * 512 ≤ (i 0).val ∧ (i 0).val < win3_2.index ⟨(i 0).val / 512, ht⟩ 0 * 512 + 512
    rw [e20]; show (i 0).val / 512 * 512 ≤ (i 0).val ∧ (i 0).val < (i 0).val / 512 * 512 + 512; omega
  | ⟨1, _⟩ =>
    show win3_2.index ⟨(i 0).val / 512, ht⟩ 1 * 32 ≤ (i 1).val ∧ (i 1).val < win3_2.index ⟨(i 0).val / 512, ht⟩ 1 * 32 + 32
    rw [e21]; omega

/-- Region 3: the same with the second weight matrix (32 columns). -/
theorem arr3 : ((dat3 (F := Ideal) V c).arrAt 2 cfg3.N : S50176x32.Idx → EReal)
    = dense (V c main_v39 : S50176x64.Idx → EReal) (V c main_arg3 : S64x32.Idx → EReal) :=
  (dat3 (F := Ideal) V c).arrAt_eq_of_cover 2 (dense (V c main_v39 : S50176x64.Idx → EReal) (V c main_arg3 : S64x32.Idx → EReal))
    (fun t _ => flushed3 V c t) cover3

end Cert.KernelIdeal.DenseValue

end
-- ==== Proof.GatherOnehot.lean ====
/- The 0/1 matrix of one node tile. For a column s of 2048 index words and a tile number k, entry (e, j) compares
   the word s e with the word 512·k + j: the comparison's one-bit answer, widened and converted to a number, is the
   indicator [s e = 512·k + j]. The sum 512·k + j is taken on 32-bit words; it is the word of the natural number
   512·k + j, whatever k. -/
import proofs.«126296_j7791070675006_1_alg».proof.Proof.Gen.KernelIdeal.Frame
import proofs.«126296_j7791070675006_1_alg».proof.Proof.Layer
import Idealize.ShloMosaic.Lib.Pipeline.Value
import Idealize.ShloMosaic.PureOps.Ideal.Laws

set_option maxRecDepth 16384

noncomputable section

open scoped BigOperators

namespace Cert.KernelIdeal.GatherValue

open Cert.KernelIdeal Cert.KernelIdeal.Gen Cert.Spec
open Idealize.ShloMosaic Idealize.ShloMosaic.TcCoe Idealize.ShloMosaic.ValueIdx
open Idealize.SL Idealize.SL.Sem
open Cert.KernelIdeal.Facts₀ Cert.KernelIdeal.Facts

section Generic
variable {F : FTy → Type} [FloatOps F]

/-- The 0/1 matrix of node tile k: entry (e, j) is 1 when the index word of edge e is the word 512·k + j. -/
def onehot (s : IVec S2048x1 32) (k : Nat) : FVec F S2048x512 .bf16 :=
  truncf .bf16 (sitofp .f32 (extui 32 (cmpi .eq (broadcastTo S2048x512 s Facts₀.broadcasts_S2048x1_S2048x512)
    (broadcastTo S2048x512 (addi (broadcast S1x512 (BitVec.ofNat 32 (512 * k))) (iota .tc S1x512 32 [1] Facts₀.iota_S1x512_d1_w32))
      Facts₀.broadcasts_S1x512_S2048x512)) Facts₀.natLt_1_32)) Facts₀.bitsLt_bf16_f32

end Generic

theorem hz2 : (![0, 0] : Fin 2 → Nat) = fun _ => 0 := by
  funext a; match a with | ⟨0, _⟩ => rfl | ⟨1, _⟩ => rfl

/-- The one-bit answer of an equality test of two words, widened and converted to a number, is the indicator. -/
theorem sitofp_cmpi_eq (a b : BitVec 32) :
    (FloatOps.sitofp (F := Ideal) .f32 ((IntOp.cmpi .eq a b).setWidth 32) : EReal) = ind a b := by
  show (((BitVec.setWidth 32 (BitVec.ofBool (a == b))).toInt : ℝ) : EReal) = ind a b
  by_cases h : a = b
  · subst h
    rw [ind, if_pos rfl, beq_self_eq_true]
    have e : (BitVec.setWidth 32 (BitVec.ofBool true)).toInt = 1 := by decide
    rw [e]; norm_num
  · rw [ind, if_neg h, beq_eq_false_iff_ne.mpr h]
    have e : (BitVec.setWidth 32 (BitVec.ofBool false)).toInt = 0 := by decide
    rw [e]; norm_num

/-- Entry (r, j) of the 0/1 matrix of tile k is the indicator of the index word of row r being 512·k + j. -/
theorem onehot_apply (s : IVec S2048x1 32) (k : Nat) (r : Fin 2048) (j : Fin 512) :
    onehot (F := Ideal) s k (ix2 r j) = ind (s (ix2 r (0 : Fin 1))) (BitVec.ofNat 32 (512 * k + j.val)) := by
  unfold onehot
  rw [truncf_apply, sitofp_apply, extui_apply]
  show FloatOps.sitofp (F := Ideal) .f32 ((IntOp.cmpi .eq _ _).setWidth 32) = _
  rw [sitofp_cmpi_eq]
  congr 1
  · exact broadcastTo_apply s _ (ix2 r j) (ix2 r (0 : Fin 1)) (fun a => by match a with | ⟨0, _⟩ => rfl | ⟨1, _⟩ => rfl)
  · refine (broadcastTo_apply _ _ (ix2 r j) (ix2 (0 : Fin 1) j) (fun a => by match a with | ⟨0, _⟩ => rfl | ⟨1, _⟩ => rfl)).trans ?_
    show IntOp.addi (BitVec.ofNat 32 (512 * k)) (iota .tc S1x512 32 [1] Facts₀.iota_S1x512_d1_w32 (ix2 (0 : Fin 1) j)) = _
    rw [iota_single_apply]
    show BitVec.ofNat 32 (512 * k) + BitVec.ofNat 32 j.val = _
    rw [BitVec.ofNat_add]

end Cert.KernelIdeal.GatherValue

end
-- ==== Proof.GatherTile64.lean ====
/- The body of the first row-selection region as a sum of 98 tile products. For a block of 2048 index words and
   the node array H of 50176 rows and 64 columns, tile k contributes the product of the 0/1 matrix
   [s e = 512·k + j] with rows 512·k … 512·k + 511 of H; the body adds the 98 products onto zero. The body's printed
   term is this sum (by unfolding), and over the extended reals entry (e, c) of the sum of the first k products is
   the sum over the rows n < 512·k of [s e = n] · H[n, c]; at k = 98 that is all 50176 rows. -/
import proofs.«126296_j7791070675006_1_alg».proof.Proof.GatherOnehot

set_option maxRecDepth 16384

noncomputable section

open scoped BigOperators

namespace Cert.KernelIdeal.GatherValue

open Cert.KernelIdeal Cert.KernelIdeal.Gen Cert.Spec
open Idealize.ShloMosaic Idealize.ShloMosaic.TcCoe Idealize.ShloMosaic.ValueIdx
open Idealize.SL Idealize.SL.Sem
open Cert.KernelIdeal.Facts₀ Cert.KernelIdeal.Facts

namespace C64

section Generic
variable {F : FTy → Type} [FloatOps F]

theorem inbTile (k : Nat) (hk : k < 98) : ∀ a, (![512 * k, 0] : Fin 2 → Nat) a + S512x64.size a ≤ S50176x64.size a :=
  Rect.inb₂ (by show 512 * k + 512 ≤ 50176; omega) (by show 0 + 64 ≤ 64; omega)

/-- The product of the 0/1 matrix of node tile k with rows 512·k … 512·k + 511 of the node array. -/
def tile (x0 : Vec F S2048x1 .i32) (x1 : Vec F S50176x64 .f32) (k : Nat) (hk : k < 98) : FVec F S2048x64 .f32 :=
  matmul dot_S2048x512_S512x64_S2048x64_1_0_0_1_n_n none
    (onehot (F := F) (k1_pay1 (View.ld x0 r1_0)) k)
    (truncf .bf16 (shapeCast S512x64 (View.ld x1 (Rect.unit (s := S50176x64) ![512 * k, 0] S512x64.size (inbTile k hk)))
      Facts₀.shapeCasts_S512x64_S512x64) Facts₀.bitsLt_bf16_f32)
    (constant S2048x64 .f32 0x00000000#32)

/-- The sum of the first k tile products, added onto zero in order. -/
def acc (x0 : Vec F S2048x1 .i32) (x1 : Vec F S50176x64 .f32) : (k : Nat) → k ≤ 98 → FVec F S2048x64 .f32
  | 0, _ => broadcast S2048x64 (Scalar.ofBits .f32 0x00000000#32)
  | k + 1, h => addf (acc x0 x1 k (Nat.le_of_succ_le h)) (tile x0 x1 k h)

/-- What the body leaves in the output block is the sum of all 98 tile products: the printed term unfolds to it. -/
theorem out_eq (x0 : Vec F S2048x1 .i32) (x1 : Vec F S50176x64 .f32) :
    out1_2 (F := F) x0 x1 = View.canon [⟨r1_99, acc x0 x1 98 (Nat.le_refl 98)⟩] := rfl

end Generic

theorem lhs_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide),
    dif_pos (show (0 : Fin S2048x512.rank) ∈ dot_S2048x512_S512x64_S2048x64_1_0_0_1_n_n.lhsNonContracting by decide)]
  rfl
theorem lhs_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem rhs_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
theorem rhs_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide),
    dif_pos (show (1 : Fin S512x64.rank) ∈ dot_S2048x512_S512x64_S2048x64_1_0_0_1_n_n.rhsNonContracting by decide)]
  rfl

/-- Entry (r, c) of the product of tile k: the sum over the 512 rows of the tile of [s r = 512·k + j] · H[512·k + j, c]. -/
theorem tile_apply (x0 : Vec Ideal S2048x1 .i32) (x1 : Vec Ideal S50176x64 .f32) (k : Nat) (hk : k < 98)
    (r : Fin 2048) (c : Fin 64) :
    tile (F := Ideal) x0 x1 k hk (ix2 r c)
      = ∑ j : Fin 512, ind (x0 (ix2 r (0 : Fin 1))) (BitVec.ofNat 32 (512 * k + j.val))
          * x1 (ix2 (⟨512 * k + j.val, by have := j.isLt; omega⟩ : Fin 50176) c) := by
  unfold tile
  simp only [matmul]
  rw [Ideal.matmul_constant_zero_apply,
    ← Equiv.sum_comp (contrEquiv1 dot_S2048x512_S512x64_S2048x64_1_0_0_1_n_n 512 rfl rfl).symm]
  refine Finset.sum_congr rfl fun j _ => ?_
  have hj := contrEquiv1_symm_val dot_S2048x512_S512x64_S2048x64_1_0_0_1_n_n 512 rfl rfl j
  have el : dot_S2048x512_S512x64_S2048x64_1_0_0_1_n_n.lhsIdx (ix2 r c)
      ((contrEquiv1 dot_S2048x512_S512x64_S2048x64_1_0_0_1_n_n 512 rfl rfl).symm j) = ix2 r j :=
    funext fun a => Fin.ext (by
      match a with
      | ⟨0, _⟩ => exact lhs_0 _ _
      | ⟨1, _⟩ => exact (lhs_1 _ _).trans hj)
  have er : dot_S2048x512_S512x64_S2048x64_1_0_0_1_n_n.rhsIdx (ix2 r c)
      ((contrEquiv1 dot_S2048x512_S512x64_S2048x64_1_0_0_1_n_n 512 rfl rfl).symm j) = ix2 j c :=
    funext fun a => Fin.ext (by
      match a with
      | ⟨0, _⟩ => exact (rhs_0 _ _).trans hj
      | ⟨1, _⟩ => exact rhs_1 _ _)
  rw [el, er, onehot_apply]
  congr 1
  · unfold k1_pay1
    rw [shapeCast_self, View.ld_unit_zero (S := S2048x1) hz2]
  · rw [truncf_apply]
    have key : ∀ (v : S512x64.Idx → EReal) (h : S512x64.ShapeCasts S512x64), shapeCast S512x64 v h (ix2 j c) = v (ix2 j c) :=
      fun v h => congrFun (shapeCast_self v h) _
    refine (key _ _).trans ?_
    show x1 _ = x1 _
    congr 1
    funext a
    match a with
    | ⟨0, _⟩ => exact Fin.ext (by show 512 * k + 1 * j.val = 512 * k + j.val; omega)
    | ⟨1, _⟩ => exact Fin.ext (by show 0 + 1 * c.val = c.val; omega)

/-- The summand of a row selection at row number n: [s = n] · H[n, c], zero beyond the array. -/
def term (s : BitVec 32) (H : S50176x64.Idx → EReal) (c : Fin 64) (n : Nat) : EReal :=
  if h : n < 50176 then ind s (BitVec.ofNat 32 n) * H (ix2 ⟨n, h⟩ c) else 0

/-- The sum of the first k tile products at (r, c) is the sum of the summands over the first 512·k rows. -/
theorem acc_apply (x0 : Vec Ideal S2048x1 .i32) (x1 : Vec Ideal S50176x64 .f32) (k : Nat) (hk : k ≤ 98)
    (r : Fin 2048) (c : Fin 64) :
    acc (F := Ideal) x0 x1 k hk (ix2 r c) = ∑ n ∈ Finset.range (512 * k), term (x0 (ix2 r (0 : Fin 1))) x1 c n := by
  induction k with
  | zero =>
    rw [Nat.mul_zero, Finset.range_zero, Finset.sum_empty]
    exact Ideal.ofBits_zero_f32
  | succ k ih =>
    show addf (acc x0 x1 k _) (tile x0 x1 k _) (ix2 r c) = _
    rw [addf_apply, ih, tile_apply, Nat.mul_succ, Finset.sum_range_add, Finset.sum_range (fun x => term _ x1 c (512 * k + x))]
    congr 1
    refine Finset.sum_congr rfl fun j _ => ?_
    unfold term
    rw [dif_pos]

/-- All 98 tiles: the row selection's sum over all 50176 rows. -/
theorem acc98_apply (x0 : Vec Ideal S2048x1 .i32) (x1 : Vec Ideal S50176x64 .f32) (r : Fin 2048) (c : Fin 64) :
    acc (F := Ideal) x0 x1 98 (Nat.le_refl 98) (ix2 r c)
      = ∑ n : Fin 50176, ind (x0 (ix2 r (0 : Fin 1))) (BitVec.ofNat 32 n.val) * x1 (ix2 n c) := by
  rw [acc_apply, show 512 * 98 = 50176 from rfl, Finset.sum_range]
  refine Finset.sum_congr rfl fun n _ => ?_
  unfold term
  rw [dif_pos n.isLt]

end C64

end Cert.KernelIdeal.GatherValue

end
-- ==== Proof.GatherTile32.lean ====
/- The body of the second row-selection region as a sum of 98 tile products. For a block of 2048 index words and
   the node array H of 50176 rows and 32 columns, tile k contributes the product of the 0/1 matrix
   [s e = 512·k + j] with rows 512·k … 512·k + 511 of H; the body adds the 98 products onto zero. The body's printed
   term is this sum (by unfolding), and over the extended reals entry (e, c) of the sum of the first k products is
   the sum over the rows n < 512·k of [s e = n] · H[n, c]; at k = 98 that is all 50176 rows. -/
import proofs.«126296_j7791070675006_1_alg».proof.Proof.GatherOnehot

set_option maxRecDepth 16384

noncomputable section

open scoped BigOperators

namespace Cert.KernelIdeal.GatherValue

open Cert.KernelIdeal Cert.KernelIdeal.Gen Cert.Spec
open Idealize.ShloMosaic Idealize.ShloMosaic.TcCoe Idealize.ShloMosaic.ValueIdx
open Idealize.SL Idealize.SL.Sem
open Cert.KernelIdeal.Facts₀ Cert.KernelIdeal.Facts

namespace C32

section Generic
variable {F : FTy → Type} [FloatOps F]

theorem inbTile (k : Nat) (hk : k < 98) : ∀ a, (![512 * k, 0] : Fin 2 → Nat) a + S512x32.size a ≤ S50176x32.size a :=
  Rect.inb₂ (by show 512 * k + 512 ≤ 50176; omega) (by show 0 + 32 ≤ 32; omega)

/-- The product of the 0/1 matrix of node tile k with rows 512·k … 512·k + 511 of the node array. -/
def tile (x0 : Vec F S2048x1 .i32) (x1 : Vec F S50176x32 .f32) (k : Nat) (hk : k < 98) : FVec F S2048x32 .f32 :=
  matmul dot_S2048x512_S512x32_S2048x32_1_0_0_1_n_n none
    (onehot (F := F) (k4_pay1 (View.ld x0 r4_0)) k)
    (truncf .bf16 (shapeCast S512x32 (View.ld x1 (Rect.unit (s := S50176x32) ![512 * k, 0] S512x32.size (inbTile k hk)))
      Facts₀.shapeCasts_S512x32_S512x32) Facts₀.bitsLt_bf16_f32)
    (constant S2048x32 .f32 0x00000000#32)

/-- The sum of the first k tile products, added onto zero in order. -/
def acc (x0 : Vec F S2048x1 .i32) (x1 : Vec F S50176x32 .f32) : (k : Nat) → k ≤ 98 → FVec F S2048x32 .f32
  | 0, _ => broadcast S2048x32 (Scalar.ofBits .f32 0x00000000#32)
  | k + 1, h => addf (acc x0 x1 k (Nat.le_of_succ_le h)) (tile x0 x1 k h)

/-- What the body leaves in the output block is the sum of all 98 tile products: the printed term unfolds to it. -/
theorem out_eq (x0 : Vec F S2048x1 .i32) (x1 : Vec F S50176x32 .f32) :
    out4_2 (F := F) x0 x1 = View.canon [⟨r4_99, acc x0 x1 98 (Nat.le_refl 98)⟩] := rfl

end Generic

theorem lhs_0 (i : S2048x32.Idx) (q : dot_S2048x512_S512x32_S2048x32_1_0_0_1_n_n.contr.Idx) :
    (dot_S2048x512_S512x32_S2048x32_1_0_0_1_n_n.lhsIdx i q 0).val = (i 0).val := by
  unfold DotDims.lhsIdx
  rw [dif_neg (show ¬(0 : Fin S2048x512.rank) ∈ dot_S2048x512_S512x32_S2048x32_1_0_0_1_n_n.lhsBatch by decide),
    dif_pos (show (0 : Fin S2048x512.rank) ∈ dot_S2048x512_S512x32_S2048x32_1_0_0_1_n_n.lhsNonContracting by decide)]
  rfl
theorem lhs_1 (i : S2048x32.Idx) (q : dot_S2048x512_S512x32_S2048x32_1_0_0_1_n_n.contr.Idx) :
    (dot_S2048x512_S512x32_S2048x32_1_0_0_1_n_n.lhsIdx i q 1).val = (q ⟨0, by decide⟩).val :=
  dot_S2048x512_S512x32_S2048x32_1_0_0_1_n_n.lhsIdx_val_of_single rfl i q
theorem rhs_0 (i : S2048x32.Idx) (q : dot_S2048x512_S512x32_S2048x32_1_0_0_1_n_n.contr.Idx) :
    (dot_S2048x512_S512x32_S2048x32_1_0_0_1_n_n.rhsIdx i q 0).val = (q ⟨0, by decide⟩).val :=
  dot_S2048x512_S512x32_S2048x32_1_0_0_1_n_n.rhsIdx_val_of_single rfl i q
theorem rhs_1 (i : S2048x32.Idx) (q : dot_S2048x512_S512x32_S2048x32_1_0_0_1_n_n.contr.Idx) :
    (dot_S2048x512_S512x32_S2048x32_1_0_0_1_n_n.rhsIdx i q 1).val = (i 1).val := by
  unfold DotDims.rhsIdx
  rw [dif_neg (show ¬(1 : Fin S512x32.rank) ∈ dot_S2048x512_S512x32_S2048x32_1_0_0_1_n_n.rhsBatch by decide),
    dif_pos (show (1 : Fin S512x32.rank) ∈ dot_S2048x512_S512x32_S2048x32_1_0_0_1_n_n.rhsNonContracting by decide)]
  rfl

/-- Entry (r, c) of the product of tile k: the sum over the 512 rows of the tile of [s r = 512·k + j] · H[512·k + j, c]. -/
theorem tile_apply (x0 : Vec Ideal S2048x1 .i32) (x1 : Vec Ideal S50176x32 .f32) (k : Nat) (hk : k < 98)
    (r : Fin 2048) (c : Fin 32) :
    tile (F := Ideal) x0 x1 k hk (ix2 r c)
      = ∑ j : Fin 512, ind (x0 (ix2 r (0 : Fin 1))) (BitVec.ofNat 32 (512 * k + j.val))
          * x1 (ix2 (⟨512 * k + j.val, by have := j.isLt; omega⟩ : Fin 50176) c) := by
  unfold tile
  simp only [matmul]
  rw [Ideal.matmul_constant_zero_apply,
    ← Equiv.sum_comp (contrEquiv1 dot_S2048x512_S512x32_S2048x32_1_0_0_1_n_n 512 rfl rfl).symm]
  refine Finset.sum_congr rfl fun j _ => ?_
  have hj := contrEquiv1_symm_val dot_S2048x512_S512x32_S2048x32_1_0_0_1_n_n 512 rfl rfl j
  have el : dot_S2048x512_S512x32_S2048x32_1_0_0_1_n_n.lhsIdx (ix2 r c)
      ((contrEquiv1 dot_S2048x512_S512x32_S2048x32_1_0_0_1_n_n 512 rfl rfl).symm j) = ix2 r j :=
    funext fun a => Fin.ext (by
      match a with
      | ⟨0, _⟩ => exact lhs_0 _ _
      | ⟨1, _⟩ => exact (lhs_1 _ _).trans hj)
  have er : dot_S2048x512_S512x32_S2048x32_1_0_0_1_n_n.rhsIdx (ix2 r c)
      ((contrEquiv1 dot_S2048x512_S512x32_S2048x32_1_0_0_1_n_n 512 rfl rfl).symm j) = ix2 j c :=
    funext fun a => Fin.ext (by
      match a with
      | ⟨0, _⟩ => exact (rhs_0 _ _).trans hj
      | ⟨1, _⟩ => exact rhs_1 _ _)
  rw [el, er, onehot_apply]
  congr 1
  · unfold k4_pay1
    rw [shapeCast_self, View.ld_unit_zero (S := S2048x1) hz2]
  · rw [truncf_apply]
    have key : ∀ (v : S512x32.Idx → EReal) (h : S512x32.ShapeCasts S512x32), shapeCast S512x32 v h (ix2 j c) = v (ix2 j c) :=
      fun v h => congrFun (shapeCast_self v h) _
    refine (key _ _).trans ?_
    show x1 _ = x1 _
    congr 1
    funext a
    match a with
    | ⟨0, _⟩ => exact Fin.ext (by show 512 * k + 1 * j.val = 512 * k + j.val; omega)
    | ⟨1, _⟩ => exact Fin.ext (by show 0 + 1 * c.val = c.val; omega)

/-- The summand of a row selection at row number n: [s = n] · H[n, c], zero beyond the array. -/
def term (s : BitVec 32) (H : S50176x32.Idx → EReal) (c : Fin 32) (n : Nat) : EReal :=
  if h : n < 50176 then ind s (BitVec.ofNat 32 n) * H (ix2 ⟨n, h⟩ c) else 0

/-- The sum of the first k tile products at (r, c) is the sum of the summands over the first 512·k rows. -/
theorem acc_apply (x0 : Vec Ideal S2048x1 .i32) (x1 : Vec Ideal S50176x32 .f32) (k : Nat) (hk : k ≤ 98)
    (r : Fin 2048) (c : Fin 32) :
    acc (F := Ideal) x0 x1 k hk (ix2 r c) = ∑ n ∈ Finset.range (512 * k), term (x0 (ix2 r (0 : Fin 1))) x1 c n := by
  induction k with
  | zero =>
    rw [Nat.mul_zero, Finset.range_zero, Finset.sum_empty]
    exact Ideal.ofBits_zero_f32
  | succ k ih =>
    show addf (acc x0 x1 k _) (tile x0 x1 k _) (ix2 r c) = _
    rw [addf_apply, ih, tile_apply, Nat.mul_succ, Finset.sum_range_add, Finset.sum_range (fun x => term _ x1 c (512 * k + x))]
    congr 1
    refine Finset.sum_congr rfl fun j _ => ?_
    unfold term
    rw [dif_pos]

/-- All 98 tiles: the row selection's sum over all 50176 rows. -/
theorem acc98_apply (x0 : Vec Ideal S2048x1 .i32) (x1 : Vec Ideal S50176x32 .f32) (r : Fin 2048) (c : Fin 32) :
    acc (F := Ideal) x0 x1 98 (Nat.le_refl 98) (ix2 r c)
      = ∑ n : Fin 50176, ind (x0 (ix2 r (0 : Fin 1))) (BitVec.ofNat 32 n.val) * x1 (ix2 n c) := by
  rw [acc_apply, show 512 * 98 = 50176 from rfl, Finset.sum_range]
  refine Finset.sum_congr rfl fun n _ => ?_
  unfold term
  rw [dif_pos n.isLt]

end C32

end Cert.KernelIdeal.GatherValue

end
-- ==== Proof.Gather.lean ====
/- The two row-selection regions: each grid point takes a tile of 2048 edges and, for each of the 98 node tiles,
   adds the product of the 0/1 matrix [src e = 512·t + j] with that tile of H; summed over the tiles this is, for
   each edge, the sum over all 50176 rows n of [src e = n] · H[n, ·]. Point t reads rows 2048·t … 2048·t + 2047 of
   the index column and the whole node array, and writes rows 2048·t … 2048·t + 2047 of the output; row e of the
   output is written by the point e / 2048, so the 391 blocks cover the output array. -/
import proofs.«126296_j7791070675006_1_alg».proof.Proof.GatherTile64
import proofs.«126296_j7791070675006_1_alg».proof.Proof.GatherTile32

set_option maxRecDepth 16384

noncomputable section

open scoped BigOperators

namespace Cert.KernelIdeal.GatherValue

open Cert.KernelIdeal Cert.KernelIdeal.Gen Cert.Spec
open Idealize.ShloMosaic Idealize.ShloMosaic.TcCoe Idealize.ShloMosaic.ValueIdx
open Idealize.SL Idealize.SL.Sem
open Cert.KernelIdeal.Facts₀ Cert.KernelIdeal.Facts

section Region1
variable (V : (c : Dev nD) → (b : Ref sig .tc) → Buf (Elt Ideal) ((c : Thread nD τ).loc b)) (c : Dev nD)

/-- The printed index maps over the grid: the edge column and the output move with the point, the node array stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The edge-index block at point t is rows 2048·t … 2048·t + 2047 of the index column. -/
theorem iblk1_0_apply (t : Fin cfg1.N) (x : S2048x1.Idx) (k : S800768x1.Idx)
    (hk0 : (k 0).val = 2048 * t.val + (x 0).val) (hk1 : (k 1).val = 0) :
    (iblk1 V c 0 t : Vec Ideal S2048x1 .i32) x = (V c main_v17 : S800768x1.Idx → BitVec 32) k := by
  obtain ⟨e0, e1, -⟩ := idx_facts1 t
  have hx1 : (x 1).val < 1 := idx2_lt1 x
  unfold iblk1
  rw [View.read_apply]
  show (V c main_v17 : S800768x1.Idx → BitVec 32) _ = (V c main_v17 : S800768x1.Idx → BitVec 32) _
  refine congrArg (V c main_v17 : S800768x1.Idx → BitVec 32) ?_
  funext a; apply Fin.ext
  match a with
  | ⟨0, _⟩ => show win1_0.index t (0 : Fin 2) * 2048 + 1 * (x 0).val = (k 0).val; rw [e0, hk0]; omega
  | ⟨1, _⟩ => show win1_0.index t (1 : Fin 2) * 1 + 1 * (x 1).val = (k 1).val; rw [e1, hk1]; omega

/-- The node-array block at every point is the whole array. -/
theorem iblk1_1_eq (t : Fin cfg1.N) :
    (iblk1 V c 1 t : Vec Ideal S50176x64 .f32) = (V c main_v24 : S50176x64.Idx → EReal) := by
  obtain ⟨-, -, e2, e3, -⟩ := idx_facts1 t
  funext x
  unfold iblk1
  rw [View.read_apply]
  show (V c main_v24 : S50176x64.Idx → EReal) _ = (V c main_v24 : S50176x64.Idx → EReal) _
  refine congrArg (V c main_v24 : S50176x64.Idx → EReal) ?_
  funext a; apply Fin.ext
  match a with
  | ⟨0, _⟩ => show win1_1.index t (0 : Fin 2) * 50176 + 1 * (x 0).val = (x 0).val; rw [e2]; omega
  | ⟨1, _⟩ => show win1_1.index t (1 : Fin 2) * 64 + 1 * (x 1).val = (x 1).val; rw [e3]; omega

/-- Where an element of the output block at point t sits in the output array. -/
theorem emb1_2_val (t : Fin cfg1.N) (y : S2048x64.Idx) :
    ((((cfg1.win 2).blk t).view.emb y : S800768x64.Idx) 0).val = 2048 * t.val + (y 0).val
      ∧ ((((cfg1.win 2).blk t).view.emb y : S800768x64.Idx) 1).val = (y 1).val := by
  obtain ⟨-, -, -, -, e4, e5⟩ := idx_facts1 t
  constructor
  · show win1_2.index t (0 : Fin 2) * 2048 + 1 * (y 0).val = _; rw [e4]; omega
  · show win1_2.index t (1 : Fin 2) * 64 + 1 * (y 1).val = _; rw [e5]; omega

/-- What point t writes back is block t of the row selection of the whole arrays. -/
theorem flushed1_eq (t : Fin cfg1.N) :
    (dat1 (F := Ideal) V c).flushed 2 t = ((cfg1.win 2).blk t).view.read (Elt Ideal)
      (pick (V c main_v17 : S800768x1.Idx → BitVec 32) (V c main_v24 : S50176x64.Idx → EReal) : S800768x64.Idx → EReal) := by
  show (cfg1.win 2).cut (grid1.coords t) ((dat1 V c).after 2 t) = _
  rw [after1_2, C64.out_eq, View.canon_unit_zero hz2]
  funext y
  obtain ⟨r, q, rfl⟩ : ∃ (r : Fin 2048) (q : Fin 64), y = ix2 r q := ⟨y 0, y 1, eq_ix2 y⟩
  refine (C64.acc98_apply (iblk1 V c 0 t) (iblk1 V c 1 t) r q).trans ?_
  have hread : ∀ G : S800768x64.Idx → EReal,
      ((cfg1.win 2).blk t).view.read (Elt Ideal) G (ix2 r q) = G (((cfg1.win 2).blk t).view.emb (ix2 r q)) := fun G => rfl
  rw [hread]
  unfold pick
  obtain ⟨ev0, ev1⟩ := emb1_2_val t (ix2 r q)
  generalize (((cfg1.win 2).blk t).view.emb (ix2 r q) : S800768x64.Idx) = E at ev0 ev1 ⊢
  have hq : E 1 = q := Fin.ext ev1
  refine Finset.sum_congr rfl fun n _ => ?_
  rw [iblk1_1_eq V c t, iblk1_0_apply V c t (ix2 r (0 : Fin 1)) (ix2 (E 0) (0 : Fin 1)) ev0 rfl, hq]

/-- An index of the output array is in point t's block iff each coordinate is in the block's range. -/
theorem mem_blk1 (t : Fin cfg1.N) (i : S800768x64.Idx) :
    i ∈ ((cfg1.win 2).blk t).view.set ↔ ∀ a : Fin 2, win1_2.index t a * S2048x64.size a ≤ (i a).val
      ∧ (i a).val < win1_2.index t a * S2048x64.size a + S2048x64.size a := by
  show i ∈ ((View.whole main_v25).slice (win1_2.rect t)).set ↔ _
  rw [View.set_slice_whole, Rect.mem_set_unit]
  exact Iff.rfl

/-- Row e of the output is written by the point e / 2048. -/
theorem cover1 (i : S800768x64.Idx) :
    ∃ t : Fin cfg1.N, (cfg1.win 2).flush t = true ∧ i ∈ ((cfg1.win 2).blk t).view.set := by
  have hi0 : (i 0).val < 800768 := idx2_lt0 i
  have hi1 : (i 1).val < 64 := idx2_lt1 i
  have hN : cfg1.N = 391 := N_1
  have ht : (i 0).val / 2048 < cfg1.N := by rw [hN]; omega
  obtain ⟨-, -, -, -, e4, e5⟩ := idx_facts1 ⟨(i 0).val / 2048, ht⟩
  refine ⟨⟨(i 0).val / 2048, ht⟩, flush1_2 _, ?_⟩
  rw [mem_blk1]
  intro a
  match a with
  | ⟨0, _⟩ =>
    show win1_2.index ⟨(i 0).val / 2048, ht⟩ (0 : Fin 2) * 2048 ≤ (i 0).val
      ∧ (i 0).val < win1_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win1_2.index ⟨(i 0).val / 2048, ht⟩ (1 : Fin 2) * 64 ≤ (i 1).val
      ∧ (i 1).val < win1_2.index ⟨(i 0).val / 2048, ht⟩ (1 : Fin 2) * 64 + 64
    rw [e5]; omega

end Region1

section Region4
variable (V : (c : Dev nD) → (b : Ref sig .tc) → Buf (Elt Ideal) ((c : Thread nD τ).loc b)) (c : Dev nD)

/-- The printed index maps over the grid: the edge column and the output move with the point, the node array stays. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The edge-index block at point t is rows 2048·t … 2048·t + 2047 of the index column. -/
theorem iblk4_0_apply (t : Fin cfg4.N) (x : S2048x1.Idx) (k : S800768x1.Idx)
    (hk0 : (k 0).val = 2048 * t.val + (x 0).val) (hk1 : (k 1).val = 0) :
    (iblk4 V c 0 t : Vec Ideal S2048x1 .i32) x = (V c main_v17 : S800768x1.Idx → BitVec 32) k := by
  obtain ⟨e0, e1, -⟩ := idx_facts4 t
  have hx1 : (x 1).val < 1 := idx2_lt1 x
  unfold iblk4
  rw [View.read_apply]
  show (V c main_v17 : S800768x1.Idx → BitVec 32) _ = (V c main_v17 : S800768x1.Idx → BitVec 32) _
  refine congrArg (V c main_v17 : S800768x1.Idx → BitVec 32) ?_
  funext a; apply Fin.ext
  match a with
  | ⟨0, _⟩ => show win4_0.index t (0 : Fin 2) * 2048 + 1 * (x 0).val = (k 0).val; rw [e0, hk0]; omega
  | ⟨1, _⟩ => show win4_0.index t (1 : Fin 2) * 1 + 1 * (x 1).val = (k 1).val; rw [e1, hk1]; omega

/-- The node-array block at every point is the whole array. -/
theorem iblk4_1_eq (t : Fin cfg4.N) :
    (iblk4 V c 1 t : Vec Ideal S50176x32 .f32) = (V c main_v40 : S50176x32.Idx → EReal) := by
  obtain ⟨-, -, e2, e3, -⟩ := idx_facts4 t
  funext x
  unfold iblk4
  rw [View.read_apply]
  show (V c main_v40 : S50176x32.Idx → EReal) _ = (V c main_v40 : S50176x32.Idx → EReal) _
  refine congrArg (V c main_v40 : S50176x32.Idx → EReal) ?_
  funext a; apply Fin.ext
  match a with
  | ⟨0, _⟩ => show win4_1.index t (0 : Fin 2) * 50176 + 1 * (x 0).val = (x 0).val; rw [e2]; omega
  | ⟨1, _⟩ => show win4_1.index t (1 : Fin 2) * 32 + 1 * (x 1).val = (x 1).val; rw [e3]; omega

/-- Where an element of the output block at point t sits in the output array. -/
theorem emb4_2_val (t : Fin cfg4.N) (y : S2048x32.Idx) :
    ((((cfg4.win 2).blk t).view.emb y : S800768x32.Idx) 0).val = 2048 * t.val + (y 0).val
      ∧ ((((cfg4.win 2).blk t).view.emb y : S800768x32.Idx) 1).val = (y 1).val := by
  obtain ⟨-, -, -, -, e4, e5⟩ := idx_facts4 t
  constructor
  · show win4_2.index t (0 : Fin 2) * 2048 + 1 * (y 0).val = _; rw [e4]; omega
  · show win4_2.index t (1 : Fin 2) * 32 + 1 * (y 1).val = _; rw [e5]; omega

/-- What point t writes back is block t of the row selection of the whole arrays. -/
theorem flushed4_eq (t : Fin cfg4.N) :
    (dat4 (F := Ideal) V c).flushed 2 t = ((cfg4.win 2).blk t).view.read (Elt Ideal)
      (pick (V c main_v17 : S800768x1.Idx → BitVec 32) (V c main_v40 : S50176x32.Idx → EReal) : S800768x32.Idx → EReal) := by
  show (cfg4.win 2).cut (grid4.coords t) ((dat4 V c).after 2 t) = _
  rw [after4_2, C32.out_eq, View.canon_unit_zero hz2]
  funext y
  obtain ⟨r, q, rfl⟩ : ∃ (r : Fin 2048) (q : Fin 32), y = ix2 r q := ⟨y 0, y 1, eq_ix2 y⟩
  refine (C32.acc98_apply (iblk4 V c 0 t) (iblk4 V c 1 t) r q).trans ?_
  have hread : ∀ G : S800768x32.Idx → EReal,
      ((cfg4.win 2).blk t).view.read (Elt Ideal) G (ix2 r q) = G (((cfg4.win 2).blk t).view.emb (ix2 r q)) := fun G => rfl
  rw [hread]
  unfold pick
  obtain ⟨ev0, ev1⟩ := emb4_2_val t (ix2 r q)
  generalize (((cfg4.win 2).blk t).view.emb (ix2 r q) : S800768x32.Idx) = E at ev0 ev1 ⊢
  have hq : E 1 = q := Fin.ext ev1
  refine Finset.sum_congr rfl fun n _ => ?_
  rw [iblk4_1_eq V c t, iblk4_0_apply V c t (ix2 r (0 : Fin 1)) (ix2 (E 0) (0 : Fin 1)) ev0 rfl, hq]

/-- An index of the output array is in point t's block iff each coordinate is in the block's range. -/
theorem mem_blk4 (t : Fin cfg4.N) (i : S800768x32.Idx) :
    i ∈ ((cfg4.win 2).blk t).view.set ↔ ∀ a : Fin 2, win4_2.index t a * S2048x32.size a ≤ (i a).val
      ∧ (i a).val < win4_2.index t a * S2048x32.size a + S2048x32.size a := by
  show i ∈ ((View.whole main_v41).slice (win4_2.rect t)).set ↔ _
  rw [View.set_slice_whole, Rect.mem_set_unit]
  exact Iff.rfl

/-- Row e of the output is written by the point e / 2048. -/
theorem cover4 (i : S800768x32.Idx) :
    ∃ t : Fin cfg4.N, (cfg4.win 2).flush t = true ∧ i ∈ ((cfg4.win 2).blk t).view.set := by
  have hi0 : (i 0).val < 800768 := idx2_lt0 i
  have hi1 : (i 1).val < 32 := idx2_lt1 i
  have hN : cfg4.N = 391 := N_4
  have ht : (i 0).val / 2048 < cfg4.N := by rw [hN]; omega
  obtain ⟨-, -, -, -, e4, e5⟩ := idx_facts4 ⟨(i 0).val / 2048, ht⟩
  refine ⟨⟨(i 0).val / 2048, ht⟩, flush4_2 _, ?_⟩
  rw [mem_blk4]
  intro a
  match a with
  | ⟨0, _⟩ =>
    show win4_2.index ⟨(i 0).val / 2048, ht⟩ (0 : Fin 2) * 2048 ≤ (i 0).val
      ∧ (i 0).val < win4_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win4_2.index ⟨(i 0).val / 2048, ht⟩ (1 : Fin 2) * 32 ≤ (i 1).val
      ∧ (i 1).val < win4_2.index ⟨(i 0).val / 2048, ht⟩ (1 : Fin 2) * 32 + 32
    rw [e5]; omega

end Region4

variable (V : (c : Dev nD) → (b : Ref sig .tc) → Buf (Elt Ideal) ((c : Thread nD τ).loc b)) (c : Dev nD)

/-- Region 1: rows of the first dense product selected by the padded source indices. -/
theorem arr1 : ((dat1 (F := Ideal) V c).arrAt 2 cfg1.N : S800768x64.Idx → EReal)
    = pick (V c main_v17 : S800768x1.Idx → BitVec 32) (V c main_v24 : S50176x64.Idx → EReal) :=
  (dat1 (F := Ideal) V c).arrAt_eq_of_cover 2
    (pick (V c main_v17 : S800768x1.Idx → BitVec 32) (V c main_v24 : S50176x64.Idx → EReal) : S800768x64.Idx → EReal)
    (fun t _ => flushed1_eq V c t) cover1

/-- Region 4: the same for the second layer (32 columns). -/
theorem arr4 : ((dat4 (F := Ideal) V c).arrAt 2 cfg4.N : S800768x32.Idx → EReal)
    = pick (V c main_v17 : S800768x1.Idx → BitVec 32) (V c main_v40 : S50176x32.Idx → EReal) :=
  (dat4 (F := Ideal) V c).arrAt_eq_of_cover 2
    (pick (V c main_v17 : S800768x1.Idx → BitVec 32) (V c main_v40 : S50176x32.Idx → EReal) : S800768x32.Idx → EReal)
    (fun t _ => flushed4_eq V c t) cover4

end Cert.KernelIdeal.GatherValue

end
-- ==== Proof.ScatterStep64.lean ====
/- One node tile's update in the accumulation regions (64 feature columns), as a function of the edge tile's
   destination column, its messages and the tile's current rows; and its reading at an index over the extended
   reals: entry (p, q) becomes cur (p, q) + Σ over the 2048 edges r of [dst r = K + p] · msg (r, q). The indicator
   is the 0/1 word of the comparison read as a number; the product with the transposed indicator matrix contracts
   the edge axis of both operands. -/
import proofs.«126296_j7791070675006_1_alg».proof.Proof.Gen.KernelIdeal
import proofs.«126296_j7791070675006_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ScatterStep64

open Cert.KernelIdeal Cert.Spec
open Idealize.ShloMosaic Idealize.ShloMosaic.TcCoe Idealize.ShloMosaic.ValueIdx
open Cert.KernelIdeal.Facts₀ Cert.KernelIdeal.Facts

variable {F : FTy → Type} [FloatOps F]

/-- The 0/1 matrix [dst r = K + j] of an edge tile against a node tile starting at node K, as the body builds it. -/
def onehot (K : BitVec 32) (v3 : Vec F S2048x1 .i32) : FVec F S2048x512 .bf16 :=
  truncf .bf16 (sitofp .f32 (extui 32 (cmpi .eq (broadcastTo S2048x512 (shapeCast S2048x1 v3 shapeCasts_S2048x1_S2048x1) broadcasts_S2048x1_S2048x512)
    (broadcastTo S2048x512 (addi (broadcast S1x512 K) (iota .tc S1x512 32 [1] iota_S1x512_d1_w32)) broadcasts_S1x512_S2048x512)) natLt_1_32)) bitsLt_bf16_f32

/-- One node tile's update: the tile's current rows plus the transposed indicator matrix times the messages. -/
def tileStep (K : BitVec 32) (v3 : Vec F S2048x1 .i32) (v5 : Vec F S2048x64 .f32) (cur : Vec F S512x64 .f32) : FVec F S512x64 .f32 :=
  addf (shapeCast S512x64 cur shapeCasts_S512x64_S512x64)
    (matmul dot_S2048x512_S2048x64_S512x64_0_0_1_1_n_n none (onehot K v3)
      (truncf .bf16 (shapeCast S2048x64 v5 shapeCasts_S2048x64_S2048x64) bitsLt_bf16_f32)
      (constant S512x64 .f32 0x00000000#32))

/-- The comparison's word read as a number is the indicator. -/
theorem sitofp_extui_cmpi (a b : BitVec 32) :
    (FloatOps.sitofp (F := Ideal) .f32 ((IntOp.cmpi .eq a b).setWidth 32) : EReal) = ind a b := by
  unfold ind IntOp.cmpi
  by_cases h : a = b
  · subst h
    simp only [beq_self_eq_true, if_true, BitVec.ofBool_true]
    show (((BitVec.setWidth 32 (1#1 : BitVec 1)).toInt : ℝ) : EReal) = 1
    rw [show (BitVec.setWidth 32 (1#1 : BitVec 1)).toInt = 1 from by decide]
    simp
  · rw [if_neg h]
    have hb : (a == b) = false := by simpa using h
    simp only [hb, BitVec.ofBool_false]
    show (((BitVec.setWidth 32 (0#1 : BitVec 1)).toInt : ℝ) : EReal) = 0
    rw [show (BitVec.setWidth 32 (0#1 : BitVec 1)).toInt = 0 from by decide]
    simp

/-- The indicator matrix at (r, p). -/
theorem onehot_apply (K : BitVec 32) (v3 : Vec Ideal S2048x1 .i32) (r : Fin 2048) (p : Fin 512) :
    onehot (F := Ideal) K v3 (ix2 r p) = ind (v3 (ix2 r (0 : Fin 1))) (K + BitVec.ofNat 32 p.val) := by
  unfold onehot
  rw [truncf_apply, sitofp_apply, extui_apply]
  show FloatOps.sitofp (F := Ideal) .f32 ((IntOp.cmpi .eq _ _).setWidth 32) = _
  rw [sitofp_extui_cmpi]
  congr 1
  · rw [broadcastTo_apply _ _ (ix2 r p) (ix2 r (0 : Fin 1)) (fun a => by
      match a with
      | ⟨0, _⟩ => show r.val = if (2048 : Nat) = 1 then 0 else r.val; rw [if_neg (by decide)]
      | ⟨1, _⟩ => show 0 = if (1 : Nat) = 1 then 0 else p.val; rw [if_pos rfl])]
    rw [shapeCast_self]
  · rw [broadcastTo_apply _ _ (ix2 r p) (ix2 (0 : Fin 1) p) (fun a => by
      match a with
      | ⟨0, _⟩ => show 0 = if (1 : Nat) = 1 then 0 else r.val; rw [if_pos rfl]
      | ⟨1, _⟩ => show p.val = if (512 : Nat) = 1 then 0 else p.val; rw [if_neg (by decide)])]
    show IntOp.addi (broadcast S1x512 K (ix2 (0 : Fin 1) p)) (iota .tc S1x512 32 [1] iota_S1x512_d1_w32 (ix2 (0 : Fin 1) p)) = _
    rw [iota_single_apply]
    rfl

theorem lhsIdx_eq (p : Fin 512) (q : Fin 64) (r : Fin 2048) :
    dot_S2048x512_S2048x64_S512x64_0_0_1_1_n_n.lhsIdx (ix2 p q) ((contrEquiv1 dot_S2048x512_S2048x64_S512x64_0_0_1_1_n_n 2048 rfl rfl).symm r) = ix2 r p := by
  have hk := contrEquiv1_symm_val dot_S2048x512_S2048x64_S512x64_0_0_1_1_n_n 2048 rfl rfl r
  funext a
  apply Fin.ext
  match a with
  | ⟨0, _⟩ => exact (dot_S2048x512_S2048x64_S512x64_0_0_1_1_n_n.lhsIdx_val_of_single rfl _ _).trans hk
  | ⟨1, _⟩ =>
    show (dot_S2048x512_S2048x64_S512x64_0_0_1_1_n_n.lhsIdx (ix2 p q) _ 1).val = p.val
    unfold DotDims.lhsIdx
    rw [dif_neg (show ¬(1 : Fin S2048x512.rank) ∈ dot_S2048x512_S2048x64_S512x64_0_0_1_1_n_n.lhsBatch by decide), dif_pos (show (1 : Fin S2048x512.rank) ∈ dot_S2048x512_S2048x64_S512x64_0_0_1_1_n_n.lhsNonContracting by decide)]
    rfl

theorem rhsIdx_eq (p : Fin 512) (q : Fin 64) (r : Fin 2048) :
    dot_S2048x512_S2048x64_S512x64_0_0_1_1_n_n.rhsIdx (ix2 p q) ((contrEquiv1 dot_S2048x512_S2048x64_S512x64_0_0_1_1_n_n 2048 rfl rfl).symm r) = ix2 r q := by
  have hk := contrEquiv1_symm_val dot_S2048x512_S2048x64_S512x64_0_0_1_1_n_n 2048 rfl rfl r
  funext a
  apply Fin.ext
  match a with
  | ⟨0, _⟩ => exact (dot_S2048x512_S2048x64_S512x64_0_0_1_1_n_n.rhsIdx_val_of_single rfl _ _).trans hk
  | ⟨1, _⟩ =>
    show (dot_S2048x512_S2048x64_S512x64_0_0_1_1_n_n.rhsIdx (ix2 p q) _ 1).val = q.val
    unfold DotDims.rhsIdx
    rw [dif_neg (show ¬(1 : Fin S2048x64.rank) ∈ dot_S2048x512_S2048x64_S512x64_0_0_1_1_n_n.rhsBatch by decide), dif_pos (show (1 : Fin S2048x64.rank) ∈ dot_S2048x512_S2048x64_S512x64_0_0_1_1_n_n.rhsNonContracting by decide)]
    rfl

/-- The update read at (p, q). -/
theorem tileStep_apply (K : BitVec 32) (v3 : Vec Ideal S2048x1 .i32) (v5 : Vec Ideal S2048x64 .f32) (cur : Vec Ideal S512x64 .f32)
    (p : Fin 512) (q : Fin 64) :
    tileStep (F := Ideal) K v3 v5 cur (ix2 p q)
      = cur (ix2 p q) + ∑ r : Fin 2048, ind (v3 (ix2 r (0 : Fin 1))) (K + BitVec.ofNat 32 p.val) * v5 (ix2 r q) := by
  unfold tileStep
  rw [addf_apply, shapeCast_self]
  simp only [matmul]
  rw [Ideal.matmul_constant_zero_apply, ← Equiv.sum_comp (contrEquiv1 dot_S2048x512_S2048x64_S512x64_0_0_1_1_n_n 2048 rfl rfl).symm]
  refine congrArg (cur (ix2 p q) + ·) (Finset.sum_congr rfl fun r _ => ?_)
  rw [lhsIdx_eq, rhsIdx_eq, onehot_apply, truncf_apply, shapeCast_self]

end Cert.KernelIdeal.ScatterStep64

end
-- ==== Proof.ScatterChain64.lean ====
/- The stores of one grid point of the accumulation region (64 feature columns), and what they leave.
   A point rewrites each of the 98 node tiles once with its update (ScatterStep64.tileStep); at the first point the
   whole accumulator is zeroed first and each tile's current rows are read back from the earlier stores, at a
   later point they are read from what the previous point left. Read at an index over the extended reals, a point
   leaves prev (v, q) + Σ over its 2048 edges r of [dst r = v] · msg (r, q), with prev = 0 at the first point. -/
import proofs.«126296_j7791070675006_1_alg».proof.Proof.Gen.KernelIdeal.Frame
import proofs.«126296_j7791070675006_1_alg».proof.Proof.ScatterStep64

set_option maxRecDepth 16384

noncomputable section

open scoped BigOperators

namespace Cert.KernelIdeal.ScatterChain64

open Cert.KernelIdeal Cert.KernelIdeal.Gen Cert.Spec Cert.KernelIdeal.ScatterStep64
open Idealize.ShloMosaic Idealize.ShloMosaic.TcCoe Idealize.ShloMosaic.ValueIdx
open Idealize.SL Idealize.SL.Sem
open Cert.KernelIdeal.Facts₀ Cert.KernelIdeal.Facts

variable {F : FTy → Type} [FloatOps F]

theorem hz2 : (![0, 0] : Fin 2 → Nat) = fun _ => 0 := funext fun a => by fin_cases a <;> rfl

theorem inbT (k : Nat) (h : k < 98) : ∀ a, (![512 * k, 0] : Fin 2 → Nat) a + S512x64.size a ≤ S50176x64.size a := by
  intro a
  match a with
  | ⟨0, _⟩ => show 512 * k + 512 ≤ 50176; omega
  | ⟨1, _⟩ => show 0 + 64 ≤ 64; omega

/-- Node tile k of the accumulator: rows 512k .. 512k + 511, all columns. -/
abbrev rectT (k : Nat) (h : k < 98) : Rect S50176x64 := Rect.unit (s := S50176x64) ![512 * k, 0] S512x64.size (inbT k h)

section Lists

variable (arg1 : Memref sig .tc .vmem S2048x1 .i32) (harg1 : arg1.IsWhole) (arg2 : Memref sig .tc .vmem S2048x64 .f32) (harg2 : arg2.IsWhole)
  (arg3 : Memref sig .tc .vmem S50176x64 .f32) (harg3 : arg3.IsWhole)
  (x0 : Vec F S2048x1 .i32) (x1 : Vec F S2048x64 .f32) (xo2 : Vec F S50176x64 .f32)

/-- The destination column as the body loads it. -/
abbrev ldD : Vec F S2048x1 .i32 :=
  View.readAt (Elt F) arg1.view (Rect.unit (s := S2048x1) ![0, 0] S2048x1.size Facts₀.inb_S2048x1_S2048x1_0_0).toLoadRect (harg1.unread x0)
/-- The messages as the body loads them. -/
abbrev ldM : Vec F S2048x64 .f32 :=
  View.readAt (Elt F) arg2.view (Rect.unit (s := S2048x64) ![0, 0] S2048x64.size Facts₀.inb_S2048x64_S2048x64_0_0).toLoadRect (harg2.unread x1)

/-- The stores of the first point after n tiles, last first: the zero fill, then tile by tile the update of what
    the earlier stores left there. -/
def chainA : Nat → List (View.Piece (Elt F) S50176x64 .f32)
  | 0 => kernelRun2_A.sl.H2_1
  | k + 1 => if h : k < 98 then
      ⟨rectT k h, tileStep (BitVec.ofNat 32 (512 * k)) (ldD arg1 harg1 x0) (ldM arg2 harg2 x1)
        (arg3.view.readCov (chainA k) (rectT k h).toLoadRect)⟩ :: chainA k
    else chainA k

/-- The stores of a later point after n tiles, last first: tile by tile the update of what the previous point left. -/
def chainB : Nat → List (View.Piece (Elt F) S50176x64 .f32)
  | 0 => []
  | k + 1 => if h : k < 98 then
      ⟨rectT k h, tileStep (BitVec.ofNat 32 (512 * k)) (ldD arg1 harg1 x0) (ldM arg2 harg2 x1)
        (View.readAt (Elt F) arg3.view (rectT k h).toLoadRect (harg3.unread xo2))⟩ :: chainB k
    else chainB k

end Lists

/-- The first point's stores are that list. -/
theorem runA_eq (c : Dev nD) (i : grid2.Coords) (arg1 : Memref sig .tc .vmem S2048x1 .i32) (harg1 : arg1.IsWhole) (arg2 : Memref sig .tc .vmem S2048x64 .f32) (harg2 : arg2.IsWhole)
    (arg3 : Memref sig .tc .vmem S50176x64 .f32) (harg3 : arg3.IsWhole) (hc0 : cond2_0 i) (x0 : Vec F S2048x1 .i32) (x1 : Vec F S2048x64 .f32) :
    (kernelRun2_A (F := F) c i arg1 harg1 arg2 harg2 arg3 harg3 hc0 x0 x1).1 = chainA arg1 harg1 arg2 harg2 arg3 x0 x1 98 := rfl

/-- A later point's stores are that list. -/
theorem runB_eq (c : Dev nD) (i : grid2.Coords) (arg1 : Memref sig .tc .vmem S2048x1 .i32) (harg1 : arg1.IsWhole) (arg2 : Memref sig .tc .vmem S2048x64 .f32) (harg2 : arg2.IsWhole)
    (arg3 : Memref sig .tc .vmem S50176x64 .f32) (harg3 : arg3.IsWhole) (hc0 : ¬cond2_0 i) (x0 : Vec F S2048x1 .i32) (x1 : Vec F S2048x64 .f32) (xo2 : Vec F S50176x64 .f32) :
    (kernelRun2_B (F := F) c i arg1 harg1 arg2 harg2 arg3 harg3 hc0 x0 x1 xo2).1 = chainB arg1 harg1 arg2 harg2 arg3 harg3 x0 x1 xo2 98 := rfl

end Cert.KernelIdeal.ScatterChain64

end
-- ==== Proof.ScatterPoint64.lean ====
/- What one grid point of the accumulation region (64 feature columns) leaves in the accumulator, read at an
   index over the extended reals: a later point leaves prev (v, q) + Σ_r [dst r = v] · msg (r, q) over its 2048
   edges; the first point the same with prev = 0. Each node tile is rewritten once, so an index is decided by the
   store of its own tile: the later stores do not touch it, and the earlier ones are what that store read. -/
import proofs.«126296_j7791070675006_1_alg».proof.Proof.ScatterChain64

set_option maxRecDepth 16384

noncomputable section

open scoped BigOperators

namespace Cert.KernelIdeal.ScatterPoint64

open Cert.KernelIdeal Cert.KernelIdeal.Gen Cert.Spec Cert.KernelIdeal.ScatterStep64 Cert.KernelIdeal.ScatterChain64
open Idealize.ShloMosaic Idealize.ShloMosaic.TcCoe Idealize.ShloMosaic.ValueIdx
open Idealize.SL Idealize.SL.Sem
open Cert.KernelIdeal.Facts₀ Cert.KernelIdeal.Facts

/-- One point's contribution to entry (v, q): the sum over its 2048 edges r of [dst r = v] · msg (r, q). -/
def upd (d : S2048x1.Idx → BitVec 32) (M : S2048x64.Idx → EReal) (y : S50176x64.Idx) : EReal :=
  ∑ r : Fin 2048, ind (d (ix2 r (0 : Fin 1))) (BitVec.ofNat 32 (y 0).val) * M (ix2 r (y 1))

variable (arg1 : Memref sig .tc .vmem S2048x1 .i32) (harg1 : arg1.IsWhole) (arg2 : Memref sig .tc .vmem S2048x64 .f32) (harg2 : arg2.IsWhole)
  (arg3 : Memref sig .tc .vmem S50176x64 .f32) (harg3 : arg3.IsWhole)
  (x0 : Vec Ideal S2048x1 .i32) (x1 : Vec Ideal S2048x64 .f32) (xo2 : Vec Ideal S50176x64 .f32)

theorem ldD_eq : ldD (F := Ideal) arg1 harg1 x0 = x0 := by
  show View.readAt (Elt Ideal) arg1.view (Rect.unit (s := S2048x1) ![0, 0] S2048x1.size Facts₀.inb_S2048x1_S2048x1_0_0).toLoadRect (harg1.unread x0) = x0
  rw [View.readAt_eq_ld, harg1.read_unread]
  exact View.ld_unit_zero hz2 _ x0

theorem ldM_eq : ldM (F := Ideal) arg2 harg2 x1 = x1 := by
  show View.readAt (Elt Ideal) arg2.view (Rect.unit (s := S2048x64) ![0, 0] S2048x64.size Facts₀.inb_S2048x64_S2048x64_0_0).toLoadRect (harg2.unread x1) = x1
  rw [View.readAt_eq_ld, harg2.read_unread]
  exact View.ld_unit_zero hz2 _ x1

/-- The coordinates of an index of tile n inside the tile. -/
def loc (n : Nat) (y : S50176x64.Idx) (h1 : 512 * n ≤ (y 0).val) (h2 : (y 0).val < 512 * n + 512) : S512x64.Idx :=
  ix2 ⟨(y 0).val - 512 * n, by omega⟩ ⟨(y 1).val, idx2_lt1 y⟩

theorem emb_loc (n : Nat) (h : n < 98) (y : S50176x64.Idx) (h1 : 512 * n ≤ (y 0).val) (h2 : (y 0).val < 512 * n + 512) :
    (rectT n h).emb (loc n y h1 h2) = y := by
  funext a
  apply Fin.ext
  rw [Rect.emb_apply]
  match a with
  | ⟨0, _⟩ => show 512 * n + 1 * ((y 0).val - 512 * n) = (y 0).val; omega
  | ⟨1, _⟩ => show 0 + 1 * (y 1).val = (y 1).val; omega

theorem not_mem_tile (n : Nat) (h : n < 98) (y : S50176x64.Idx) (hy : ¬(512 * n ≤ (y 0).val ∧ (y 0).val < 512 * n + 512)) :
    y ∉ (rectT n h).set := by
  intro hm
  have := (Rect.mem_set_unit.mp hm) 0
  exact hy ⟨this.1, this.2⟩

/-- A store into tile n does not touch an index outside it. -/
theorem canon_cons_tile_of_not (n : Nat) (h : n < 98) (w : (rectT n h).shape.Idx → Elt Ideal .f32)
    (L : List (View.Piece (Elt Ideal) S50176x64 .f32)) (y : S50176x64.Idx)
    (hy : ¬(512 * n ≤ (y 0).val ∧ (y 0).val < 512 * n + 512)) :
    View.canon ((⟨rectT n h, w⟩ : View.Piece (Elt Ideal) S50176x64 .f32) :: L) y = View.canon L y :=
  View.canon_cons_of_not_mem (⟨rectT n h, w⟩ : View.Piece (Elt Ideal) S50176x64 .f32) L (not_mem_tile n h y hy)

/-- The update of tile n read at an index y of the tile, in the array's coordinates. -/
theorem tile_apply (n : Nat) (y : S50176x64.Idx) (h1 : 512 * n ≤ (y 0).val) (h2 : (y 0).val < 512 * n + 512) (cur : Vec Ideal S512x64 .f32) :
    tileStep (F := Ideal) (BitVec.ofNat 32 (512 * n)) x0 x1 cur (loc n y h1 h2) = cur (loc n y h1 h2) + upd x0 x1 y := by
  unfold loc
  rw [tileStep_apply]
  unfold upd
  refine congrArg (_ + ·) (Finset.sum_congr rfl fun r _ => ?_)
  rw [← BitVec.ofNat_add, show 512 * n + ((y 0).val - 512 * n) = (y 0).val from by omega]
  rfl

/-- A later point: what its stores after n tiles leave at an index of the first n tiles. -/
theorem canonB (n : Nat) (hn : n ≤ 98) (y : S50176x64.Idx) (hy : (y 0).val < 512 * n) :
    View.canon (chainB (F := Ideal) arg1 harg1 arg2 harg2 arg3 harg3 x0 x1 xo2 n) y = xo2 y + upd x0 x1 y := by
  induction n with
  | zero => exact absurd hy (by omega)
  | succ n ih =>
    have h : n < 98 := by omega
    show View.canon (if h : n < 98 then _ else _) y = _
    rw [dif_pos h]
    by_cases hm : 512 * n ≤ (y 0).val
    · have h2 : (y 0).val < 512 * n + 512 := by omega
      have key := View.canon_cons_emb (rectT n h)
        (tileStep (F := Ideal) (BitVec.ofNat 32 (512 * n)) (ldD arg1 harg1 x0) (ldM arg2 harg2 x1)
          (View.readAt (Elt Ideal) arg3.view (rectT n h).toLoadRect (harg3.unread xo2)))
        (chainB (F := Ideal) arg1 harg1 arg2 harg2 arg3 harg3 x0 x1 xo2 n) (loc n y hm h2)
      rw [emb_loc n h y hm h2] at key
      rw [key, ldD_eq, ldM_eq]
      refine (tile_apply x0 x1 n y hm h2 _).trans ?_
      refine congrArg (· + _) ?_
      rw [View.readAt_eq_ld, harg3.read_unread]
      show xo2 ((rectT n h).emb (loc n y hm h2)) = xo2 y
      rw [emb_loc]
    · exact (canon_cons_tile_of_not n h _ _ y (fun hh => hm hh.1)).trans (ih (by omega) (by omega))

/-- The zero fill. -/
theorem zeroFill (y : S50176x64.Idx) : View.canon (kernelRun2_A.sl.H2_1 (F := Ideal)) y = 0 := by
  unfold kernelRun2_A.sl.H2_1
  rw [View.canon_unit_zero hz2]
  unfold k2_pay2
  show Ideal.ofBits .f32 0x00000000#32 = 0
  exact Ideal.ofBits_zero_f32

/-- The first point: what its stores after n tiles leave at any index — the update of zero in the first n tiles,
    the zero fill in the others. -/
theorem canonA (n : Nat) (hn : n ≤ 98) (y : S50176x64.Idx) :
    View.canon (chainA (F := Ideal) arg1 harg1 arg2 harg2 arg3 x0 x1 n) y
      = if (y 0).val < 512 * n then 0 + upd x0 x1 y else 0 := by
  induction n with
  | zero => rw [if_neg (by omega)]; exact zeroFill y
  | succ n ih =>
    have h : n < 98 := by omega
    show View.canon (if h : n < 98 then _ else _) y = _
    rw [dif_pos h]
    by_cases hm : 512 * n ≤ (y 0).val ∧ (y 0).val < 512 * n + 512
    · have key := View.canon_cons_emb (rectT n h)
        (tileStep (F := Ideal) (BitVec.ofNat 32 (512 * n)) (ldD arg1 harg1 x0) (ldM arg2 harg2 x1)
          (arg3.view.readCov (chainA (F := Ideal) arg1 harg1 arg2 harg2 arg3 x0 x1 n) (rectT n h).toLoadRect))
        (chainA (F := Ideal) arg1 harg1 arg2 harg2 arg3 x0 x1 n) (loc n y hm.1 hm.2)
      rw [emb_loc n h y hm.1 hm.2] at key
      rw [key, ldD_eq, ldM_eq, if_pos (by omega)]
      refine (tile_apply x0 x1 n y hm.1 hm.2 _).trans ?_
      refine congrArg (· + _) ?_
      rw [View.readCov_eq_canon']
      show View.canon _ ((rectT n h).emb (loc n y hm.1 hm.2)) = 0
      rw [emb_loc, ih (by omega), if_neg (by omega)]
    · refine (canon_cons_tile_of_not n h _ _ y hm).trans ?_
      rw [ih (by omega)]
      by_cases hlt : (y 0).val < 512 * n
      · rw [if_pos hlt, if_pos (by omega)]
      · rw [if_neg hlt, if_neg (by omega)]

/-- What the first point leaves in the accumulator. -/
theorem out_A (c : Dev nD) (i : grid2.Coords) (hc0 : cond2_0 i) :
    out2_A_2 (F := Ideal) c i arg1 harg1 arg2 harg2 arg3 harg3 hc0 x0 x1 = fun y => 0 + upd x0 x1 y := by
  unfold out2_A_2
  rw [View.read_writes_junk_eq_canon, runA_eq]
  funext y
  rw [canonA arg1 harg1 arg2 harg2 arg3 x0 x1 98 (le_refl _) y, if_pos (by have := idx2_lt0 y; omega)]

/-- What a later point leaves in the accumulator holding xo2. -/
theorem out_B (c : Dev nD) (i : grid2.Coords) (hc0 : ¬cond2_0 i) :
    out2_B_2 (F := Ideal) c i arg1 harg1 arg2 harg2 arg3 harg3 hc0 x0 x1 xo2 = fun y => xo2 y + upd x0 x1 y := by
  unfold out2_B_2
  rw [View.read_writes_junk_eq_canon, runB_eq]
  funext y
  exact canonB arg1 harg1 arg2 harg2 arg3 harg3 x0 x1 xo2 98 (le_refl _) y (by have := idx2_lt0 y; omega)

end Cert.KernelIdeal.ScatterPoint64

end
-- ==== Proof.ScatterStep32.lean ====
/- One node tile's update in the accumulation regions (32 feature columns), as a function of the edge tile's
   destination column, its messages and the tile's current rows; and its reading at an index over the extended
   reals: entry (p, q) becomes cur (p, q) + Σ over the 2048 edges r of [dst r = K + p] · msg (r, q). The indicator
   is the 0/1 word of the comparison read as a number; the product with the transposed indicator matrix contracts
   the edge axis of both operands. -/
import proofs.«126296_j7791070675006_1_alg».proof.Proof.Gen.KernelIdeal
import proofs.«126296_j7791070675006_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ScatterStep32

open Cert.KernelIdeal Cert.Spec
open Idealize.ShloMosaic Idealize.ShloMosaic.TcCoe Idealize.ShloMosaic.ValueIdx
open Cert.KernelIdeal.Facts₀ Cert.KernelIdeal.Facts

variable {F : FTy → Type} [FloatOps F]

/-- The 0/1 matrix [dst r = K + j] of an edge tile against a node tile starting at node K, as the body builds it. -/
def onehot (K : BitVec 32) (v3 : Vec F S2048x1 .i32) : FVec F S2048x512 .bf16 :=
  truncf .bf16 (sitofp .f32 (extui 32 (cmpi .eq (broadcastTo S2048x512 (shapeCast S2048x1 v3 shapeCasts_S2048x1_S2048x1) broadcasts_S2048x1_S2048x512)
    (broadcastTo S2048x512 (addi (broadcast S1x512 K) (iota .tc S1x512 32 [1] iota_S1x512_d1_w32)) broadcasts_S1x512_S2048x512)) natLt_1_32)) bitsLt_bf16_f32

/-- One node tile's update: the tile's current rows plus the transposed indicator matrix times the messages. -/
def tileStep (K : BitVec 32) (v3 : Vec F S2048x1 .i32) (v5 : Vec F S2048x32 .f32) (cur : Vec F S512x32 .f32) : FVec F S512x32 .f32 :=
  addf (shapeCast S512x32 cur shapeCasts_S512x32_S512x32)
    (matmul dot_S2048x512_S2048x32_S512x32_0_0_1_1_n_n none (onehot K v3)
      (truncf .bf16 (shapeCast S2048x32 v5 shapeCasts_S2048x32_S2048x32) bitsLt_bf16_f32)
      (constant S512x32 .f32 0x00000000#32))

/-- The comparison's word read as a number is the indicator. -/
theorem sitofp_extui_cmpi (a b : BitVec 32) :
    (FloatOps.sitofp (F := Ideal) .f32 ((IntOp.cmpi .eq a b).setWidth 32) : EReal) = ind a b := by
  unfold ind IntOp.cmpi
  by_cases h : a = b
  · subst h
    simp only [beq_self_eq_true, if_true, BitVec.ofBool_true]
    show (((BitVec.setWidth 32 (1#1 : BitVec 1)).toInt : ℝ) : EReal) = 1
    rw [show (BitVec.setWidth 32 (1#1 : BitVec 1)).toInt = 1 from by decide]
    simp
  · rw [if_neg h]
    have hb : (a == b) = false := by simpa using h
    simp only [hb, BitVec.ofBool_false]
    show (((BitVec.setWidth 32 (0#1 : BitVec 1)).toInt : ℝ) : EReal) = 0
    rw [show (BitVec.setWidth 32 (0#1 : BitVec 1)).toInt = 0 from by decide]
    simp

/-- The indicator matrix at (r, p). -/
theorem onehot_apply (K : BitVec 32) (v3 : Vec Ideal S2048x1 .i32) (r : Fin 2048) (p : Fin 512) :
    onehot (F := Ideal) K v3 (ix2 r p) = ind (v3 (ix2 r (0 : Fin 1))) (K + BitVec.ofNat 32 p.val) := by
  unfold onehot
  rw [truncf_apply, sitofp_apply, extui_apply]
  show FloatOps.sitofp (F := Ideal) .f32 ((IntOp.cmpi .eq _ _).setWidth 32) = _
  rw [sitofp_extui_cmpi]
  congr 1
  · rw [broadcastTo_apply _ _ (ix2 r p) (ix2 r (0 : Fin 1)) (fun a => by
      match a with
      | ⟨0, _⟩ => show r.val = if (2048 : Nat) = 1 then 0 else r.val; rw [if_neg (by decide)]
      | ⟨1, _⟩ => show 0 = if (1 : Nat) = 1 then 0 else p.val; rw [if_pos rfl])]
    rw [shapeCast_self]
  · rw [broadcastTo_apply _ _ (ix2 r p) (ix2 (0 : Fin 1) p) (fun a => by
      match a with
      | ⟨0, _⟩ => show 0 = if (1 : Nat) = 1 then 0 else r.val; rw [if_pos rfl]
      | ⟨1, _⟩ => show p.val = if (512 : Nat) = 1 then 0 else p.val; rw [if_neg (by decide)])]
    show IntOp.addi (broadcast S1x512 K (ix2 (0 : Fin 1) p)) (iota .tc S1x512 32 [1] iota_S1x512_d1_w32 (ix2 (0 : Fin 1) p)) = _
    rw [iota_single_apply]
    rfl

theorem lhsIdx_eq (p : Fin 512) (q : Fin 32) (r : Fin 2048) :
    dot_S2048x512_S2048x32_S512x32_0_0_1_1_n_n.lhsIdx (ix2 p q) ((contrEquiv1 dot_S2048x512_S2048x32_S512x32_0_0_1_1_n_n 2048 rfl rfl).symm r) = ix2 r p := by
  have hk := contrEquiv1_symm_val dot_S2048x512_S2048x32_S512x32_0_0_1_1_n_n 2048 rfl rfl r
  funext a
  apply Fin.ext
  match a with
  | ⟨0, _⟩ => exact (dot_S2048x512_S2048x32_S512x32_0_0_1_1_n_n.lhsIdx_val_of_single rfl _ _).trans hk
  | ⟨1, _⟩ =>
    show (dot_S2048x512_S2048x32_S512x32_0_0_1_1_n_n.lhsIdx (ix2 p q) _ 1).val = p.val
    unfold DotDims.lhsIdx
    rw [dif_neg (show ¬(1 : Fin S2048x512.rank) ∈ dot_S2048x512_S2048x32_S512x32_0_0_1_1_n_n.lhsBatch by decide), dif_pos (show (1 : Fin S2048x512.rank) ∈ dot_S2048x512_S2048x32_S512x32_0_0_1_1_n_n.lhsNonContracting by decide)]
    rfl

theorem rhsIdx_eq (p : Fin 512) (q : Fin 32) (r : Fin 2048) :
    dot_S2048x512_S2048x32_S512x32_0_0_1_1_n_n.rhsIdx (ix2 p q) ((contrEquiv1 dot_S2048x512_S2048x32_S512x32_0_0_1_1_n_n 2048 rfl rfl).symm r) = ix2 r q := by
  have hk := contrEquiv1_symm_val dot_S2048x512_S2048x32_S512x32_0_0_1_1_n_n 2048 rfl rfl r
  funext a
  apply Fin.ext
  match a with
  | ⟨0, _⟩ => exact (dot_S2048x512_S2048x32_S512x32_0_0_1_1_n_n.rhsIdx_val_of_single rfl _ _).trans hk
  | ⟨1, _⟩ =>
    show (dot_S2048x512_S2048x32_S512x32_0_0_1_1_n_n.rhsIdx (ix2 p q) _ 1).val = q.val
    unfold DotDims.rhsIdx
    rw [dif_neg (show ¬(1 : Fin S2048x32.rank) ∈ dot_S2048x512_S2048x32_S512x32_0_0_1_1_n_n.rhsBatch by decide), dif_pos (show (1 : Fin S2048x32.rank) ∈ dot_S2048x512_S2048x32_S512x32_0_0_1_1_n_n.rhsNonContracting by decide)]
    rfl

/-- The update read at (p, q). -/
theorem tileStep_apply (K : BitVec 32) (v3 : Vec Ideal S2048x1 .i32) (v5 : Vec Ideal S2048x32 .f32) (cur : Vec Ideal S512x32 .f32)
    (p : Fin 512) (q : Fin 32) :
    tileStep (F := Ideal) K v3 v5 cur (ix2 p q)
      = cur (ix2 p q) + ∑ r : Fin 2048, ind (v3 (ix2 r (0 : Fin 1))) (K + BitVec.ofNat 32 p.val) * v5 (ix2 r q) := by
  unfold tileStep
  rw [addf_apply, shapeCast_self]
  simp only [matmul]
  rw [Ideal.matmul_constant_zero_apply, ← Equiv.sum_comp (contrEquiv1 dot_S2048x512_S2048x32_S512x32_0_0_1_1_n_n 2048 rfl rfl).symm]
  refine congrArg (cur (ix2 p q) + ·) (Finset.sum_congr rfl fun r _ => ?_)
  rw [lhsIdx_eq, rhsIdx_eq, onehot_apply, truncf_apply, shapeCast_self]

end Cert.KernelIdeal.ScatterStep32

end
-- ==== Proof.ScatterChain32.lean ====
/- The stores of one grid point of the accumulation region (32 feature columns), and what they leave.
   A point rewrites each of the 98 node tiles once with its update (ScatterStep32.tileStep); at the first point the
   whole accumulator is zeroed first and each tile's current rows are read back from the earlier stores, at a
   later point they are read from what the previous point left. Read at an index over the extended reals, a point
   leaves prev (v, q) + Σ over its 2048 edges r of [dst r = v] · msg (r, q), with prev = 0 at the first point. -/
import proofs.«126296_j7791070675006_1_alg».proof.Proof.Gen.KernelIdeal.Frame
import proofs.«126296_j7791070675006_1_alg».proof.Proof.ScatterStep32

set_option maxRecDepth 16384

noncomputable section

open scoped BigOperators

namespace Cert.KernelIdeal.ScatterChain32

open Cert.KernelIdeal Cert.KernelIdeal.Gen Cert.Spec Cert.KernelIdeal.ScatterStep32
open Idealize.ShloMosaic Idealize.ShloMosaic.TcCoe Idealize.ShloMosaic.ValueIdx
open Idealize.SL Idealize.SL.Sem
open Cert.KernelIdeal.Facts₀ Cert.KernelIdeal.Facts

variable {F : FTy → Type} [FloatOps F]

theorem hz2 : (![0, 0] : Fin 2 → Nat) = fun _ => 0 := funext fun a => by fin_cases a <;> rfl

theorem inbT (k : Nat) (h : k < 98) : ∀ a, (![512 * k, 0] : Fin 2 → Nat) a + S512x32.size a ≤ S50176x32.size a := by
  intro a
  match a with
  | ⟨0, _⟩ => show 512 * k + 512 ≤ 50176; omega
  | ⟨1, _⟩ => show 0 + 32 ≤ 32; omega

/-- Node tile k of the accumulator: rows 512k .. 512k + 511, all columns. -/
abbrev rectT (k : Nat) (h : k < 98) : Rect S50176x32 := Rect.unit (s := S50176x32) ![512 * k, 0] S512x32.size (inbT k h)

section Lists

variable (arg1 : Memref sig .tc .vmem S2048x1 .i32) (harg1 : arg1.IsWhole) (arg2 : Memref sig .tc .vmem S2048x32 .f32) (harg2 : arg2.IsWhole)
  (arg3 : Memref sig .tc .vmem S50176x32 .f32) (harg3 : arg3.IsWhole)
  (x0 : Vec F S2048x1 .i32) (x1 : Vec F S2048x32 .f32) (xo2 : Vec F S50176x32 .f32)

/-- The destination column as the body loads it. -/
abbrev ldD : Vec F S2048x1 .i32 :=
  View.readAt (Elt F) arg1.view (Rect.unit (s := S2048x1) ![0, 0] S2048x1.size Facts₀.inb_S2048x1_S2048x1_0_0).toLoadRect (harg1.unread x0)
/-- The messages as the body loads them. -/
abbrev ldM : Vec F S2048x32 .f32 :=
  View.readAt (Elt F) arg2.view (Rect.unit (s := S2048x32) ![0, 0] S2048x32.size Facts₀.inb_S2048x32_S2048x32_0_0).toLoadRect (harg2.unread x1)

/-- The stores of the first point after n tiles, last first: the zero fill, then tile by tile the update of what
    the earlier stores left there. -/
def chainA : Nat → List (View.Piece (Elt F) S50176x32 .f32)
  | 0 => kernelRun5_A.sl.H2_1
  | k + 1 => if h : k < 98 then
      ⟨rectT k h, tileStep (BitVec.ofNat 32 (512 * k)) (ldD arg1 harg1 x0) (ldM arg2 harg2 x1)
        (arg3.view.readCov (chainA k) (rectT k h).toLoadRect)⟩ :: chainA k
    else chainA k

/-- The stores of a later point after n tiles, last first: tile by tile the update of what the previous point left. -/
def chainB : Nat → List (View.Piece (Elt F) S50176x32 .f32)
  | 0 => []
  | k + 1 => if h : k < 98 then
      ⟨rectT k h, tileStep (BitVec.ofNat 32 (512 * k)) (ldD arg1 harg1 x0) (ldM arg2 harg2 x1)
        (View.readAt (Elt F) arg3.view (rectT k h).toLoadRect (harg3.unread xo2))⟩ :: chainB k
    else chainB k

end Lists

/-- The first point's stores are that list. -/
theorem runA_eq (c : Dev nD) (i : grid5.Coords) (arg1 : Memref sig .tc .vmem S2048x1 .i32) (harg1 : arg1.IsWhole) (arg2 : Memref sig .tc .vmem S2048x32 .f32) (harg2 : arg2.IsWhole)
    (arg3 : Memref sig .tc .vmem S50176x32 .f32) (harg3 : arg3.IsWhole) (hc0 : cond5_0 i) (x0 : Vec F S2048x1 .i32) (x1 : Vec F S2048x32 .f32) :
    (kernelRun5_A (F := F) c i arg1 harg1 arg2 harg2 arg3 harg3 hc0 x0 x1).1 = chainA arg1 harg1 arg2 harg2 arg3 x0 x1 98 := rfl

/-- A later point's stores are that list. -/
theorem runB_eq (c : Dev nD) (i : grid5.Coords) (arg1 : Memref sig .tc .vmem S2048x1 .i32) (harg1 : arg1.IsWhole) (arg2 : Memref sig .tc .vmem S2048x32 .f32) (harg2 : arg2.IsWhole)
    (arg3 : Memref sig .tc .vmem S50176x32 .f32) (harg3 : arg3.IsWhole) (hc0 : ¬cond5_0 i) (x0 : Vec F S2048x1 .i32) (x1 : Vec F S2048x32 .f32) (xo2 : Vec F S50176x32 .f32) :
    (kernelRun5_B (F := F) c i arg1 harg1 arg2 harg2 arg3 harg3 hc0 x0 x1 xo2).1 = chainB arg1 harg1 arg2 harg2 arg3 harg3 x0 x1 xo2 98 := rfl

end Cert.KernelIdeal.ScatterChain32

end
-- ==== Proof.ScatterPoint32.lean ====
/- What one grid point of the accumulation region (32 feature columns) leaves in the accumulator, read at an
   index over the extended reals: a later point leaves prev (v, q) + Σ_r [dst r = v] · msg (r, q) over its 2048
   edges; the first point the same with prev = 0. Each node tile is rewritten once, so an index is decided by the
   store of its own tile: the later stores do not touch it, and the earlier ones are what that store read. -/
import proofs.«126296_j7791070675006_1_alg».proof.Proof.ScatterChain32

set_option maxRecDepth 16384

noncomputable section

open scoped BigOperators

namespace Cert.KernelIdeal.ScatterPoint32

open Cert.KernelIdeal Cert.KernelIdeal.Gen Cert.Spec Cert.KernelIdeal.ScatterStep32 Cert.KernelIdeal.ScatterChain32
open Idealize.ShloMosaic Idealize.ShloMosaic.TcCoe Idealize.ShloMosaic.ValueIdx
open Idealize.SL Idealize.SL.Sem
open Cert.KernelIdeal.Facts₀ Cert.KernelIdeal.Facts

/-- One point's contribution to entry (v, q): the sum over its 2048 edges r of [dst r = v] · msg (r, q). -/
def upd (d : S2048x1.Idx → BitVec 32) (M : S2048x32.Idx → EReal) (y : S50176x32.Idx) : EReal :=
  ∑ r : Fin 2048, ind (d (ix2 r (0 : Fin 1))) (BitVec.ofNat 32 (y 0).val) * M (ix2 r (y 1))

variable (arg1 : Memref sig .tc .vmem S2048x1 .i32) (harg1 : arg1.IsWhole) (arg2 : Memref sig .tc .vmem S2048x32 .f32) (harg2 : arg2.IsWhole)
  (arg3 : Memref sig .tc .vmem S50176x32 .f32) (harg3 : arg3.IsWhole)
  (x0 : Vec Ideal S2048x1 .i32) (x1 : Vec Ideal S2048x32 .f32) (xo2 : Vec Ideal S50176x32 .f32)

theorem ldD_eq : ldD (F := Ideal) arg1 harg1 x0 = x0 := by
  show View.readAt (Elt Ideal) arg1.view (Rect.unit (s := S2048x1) ![0, 0] S2048x1.size Facts₀.inb_S2048x1_S2048x1_0_0).toLoadRect (harg1.unread x0) = x0
  rw [View.readAt_eq_ld, harg1.read_unread]
  exact View.ld_unit_zero hz2 _ x0

theorem ldM_eq : ldM (F := Ideal) arg2 harg2 x1 = x1 := by
  show View.readAt (Elt Ideal) arg2.view (Rect.unit (s := S2048x32) ![0, 0] S2048x32.size Facts₀.inb_S2048x32_S2048x32_0_0).toLoadRect (harg2.unread x1) = x1
  rw [View.readAt_eq_ld, harg2.read_unread]
  exact View.ld_unit_zero hz2 _ x1

/-- The coordinates of an index of tile n inside the tile. -/
def loc (n : Nat) (y : S50176x32.Idx) (h1 : 512 * n ≤ (y 0).val) (h2 : (y 0).val < 512 * n + 512) : S512x32.Idx :=
  ix2 ⟨(y 0).val - 512 * n, by omega⟩ ⟨(y 1).val, idx2_lt1 y⟩

theorem emb_loc (n : Nat) (h : n < 98) (y : S50176x32.Idx) (h1 : 512 * n ≤ (y 0).val) (h2 : (y 0).val < 512 * n + 512) :
    (rectT n h).emb (loc n y h1 h2) = y := by
  funext a
  apply Fin.ext
  rw [Rect.emb_apply]
  match a with
  | ⟨0, _⟩ => show 512 * n + 1 * ((y 0).val - 512 * n) = (y 0).val; omega
  | ⟨1, _⟩ => show 0 + 1 * (y 1).val = (y 1).val; omega

theorem not_mem_tile (n : Nat) (h : n < 98) (y : S50176x32.Idx) (hy : ¬(512 * n ≤ (y 0).val ∧ (y 0).val < 512 * n + 512)) :
    y ∉ (rectT n h).set := by
  intro hm
  have := (Rect.mem_set_unit.mp hm) 0
  exact hy ⟨this.1, this.2⟩

/-- A store into tile n does not touch an index outside it. -/
theorem canon_cons_tile_of_not (n : Nat) (h : n < 98) (w : (rectT n h).shape.Idx → Elt Ideal .f32)
    (L : List (View.Piece (Elt Ideal) S50176x32 .f32)) (y : S50176x32.Idx)
    (hy : ¬(512 * n ≤ (y 0).val ∧ (y 0).val < 512 * n + 512)) :
    View.canon ((⟨rectT n h, w⟩ : View.Piece (Elt Ideal) S50176x32 .f32) :: L) y = View.canon L y :=
  View.canon_cons_of_not_mem (⟨rectT n h, w⟩ : View.Piece (Elt Ideal) S50176x32 .f32) L (not_mem_tile n h y hy)

/-- The update of tile n read at an index y of the tile, in the array's coordinates. -/
theorem tile_apply (n : Nat) (y : S50176x32.Idx) (h1 : 512 * n ≤ (y 0).val) (h2 : (y 0).val < 512 * n + 512) (cur : Vec Ideal S512x32 .f32) :
    tileStep (F := Ideal) (BitVec.ofNat 32 (512 * n)) x0 x1 cur (loc n y h1 h2) = cur (loc n y h1 h2) + upd x0 x1 y := by
  unfold loc
  rw [tileStep_apply]
  unfold upd
  refine congrArg (_ + ·) (Finset.sum_congr rfl fun r _ => ?_)
  rw [← BitVec.ofNat_add, show 512 * n + ((y 0).val - 512 * n) = (y 0).val from by omega]
  rfl

/-- A later point: what its stores after n tiles leave at an index of the first n tiles. -/
theorem canonB (n : Nat) (hn : n ≤ 98) (y : S50176x32.Idx) (hy : (y 0).val < 512 * n) :
    View.canon (chainB (F := Ideal) arg1 harg1 arg2 harg2 arg3 harg3 x0 x1 xo2 n) y = xo2 y + upd x0 x1 y := by
  induction n with
  | zero => exact absurd hy (by omega)
  | succ n ih =>
    have h : n < 98 := by omega
    show View.canon (if h : n < 98 then _ else _) y = _
    rw [dif_pos h]
    by_cases hm : 512 * n ≤ (y 0).val
    · have h2 : (y 0).val < 512 * n + 512 := by omega
      have key := View.canon_cons_emb (rectT n h)
        (tileStep (F := Ideal) (BitVec.ofNat 32 (512 * n)) (ldD arg1 harg1 x0) (ldM arg2 harg2 x1)
          (View.readAt (Elt Ideal) arg3.view (rectT n h).toLoadRect (harg3.unread xo2)))
        (chainB (F := Ideal) arg1 harg1 arg2 harg2 arg3 harg3 x0 x1 xo2 n) (loc n y hm h2)
      rw [emb_loc n h y hm h2] at key
      rw [key, ldD_eq, ldM_eq]
      refine (tile_apply x0 x1 n y hm h2 _).trans ?_
      refine congrArg (· + _) ?_
      rw [View.readAt_eq_ld, harg3.read_unread]
      show xo2 ((rectT n h).emb (loc n y hm h2)) = xo2 y
      rw [emb_loc]
    · exact (canon_cons_tile_of_not n h _ _ y (fun hh => hm hh.1)).trans (ih (by omega) (by omega))

/-- The zero fill. -/
theorem zeroFill (y : S50176x32.Idx) : View.canon (kernelRun5_A.sl.H2_1 (F := Ideal)) y = 0 := by
  unfold kernelRun5_A.sl.H2_1
  rw [View.canon_unit_zero hz2]
  unfold k5_pay2
  show Ideal.ofBits .f32 0x00000000#32 = 0
  exact Ideal.ofBits_zero_f32

/-- The first point: what its stores after n tiles leave at any index — the update of zero in the first n tiles,
    the zero fill in the others. -/
theorem canonA (n : Nat) (hn : n ≤ 98) (y : S50176x32.Idx) :
    View.canon (chainA (F := Ideal) arg1 harg1 arg2 harg2 arg3 x0 x1 n) y
      = if (y 0).val < 512 * n then 0 + upd x0 x1 y else 0 := by
  induction n with
  | zero => rw [if_neg (by omega)]; exact zeroFill y
  | succ n ih =>
    have h : n < 98 := by omega
    show View.canon (if h : n < 98 then _ else _) y = _
    rw [dif_pos h]
    by_cases hm : 512 * n ≤ (y 0).val ∧ (y 0).val < 512 * n + 512
    · have key := View.canon_cons_emb (rectT n h)
        (tileStep (F := Ideal) (BitVec.ofNat 32 (512 * n)) (ldD arg1 harg1 x0) (ldM arg2 harg2 x1)
          (arg3.view.readCov (chainA (F := Ideal) arg1 harg1 arg2 harg2 arg3 x0 x1 n) (rectT n h).toLoadRect))
        (chainA (F := Ideal) arg1 harg1 arg2 harg2 arg3 x0 x1 n) (loc n y hm.1 hm.2)
      rw [emb_loc n h y hm.1 hm.2] at key
      rw [key, ldD_eq, ldM_eq, if_pos (by omega)]
      refine (tile_apply x0 x1 n y hm.1 hm.2 _).trans ?_
      refine congrArg (· + _) ?_
      rw [View.readCov_eq_canon']
      show View.canon _ ((rectT n h).emb (loc n y hm.1 hm.2)) = 0
      rw [emb_loc, ih (by omega), if_neg (by omega)]
    · refine (canon_cons_tile_of_not n h _ _ y hm).trans ?_
      rw [ih (by omega)]
      by_cases hlt : (y 0).val < 512 * n
      · rw [if_pos hlt, if_pos (by omega)]
      · rw [if_neg hlt, if_neg (by omega)]

/-- What the first point leaves in the accumulator. -/
theorem out_A (c : Dev nD) (i : grid5.Coords) (hc0 : cond5_0 i) :
    out5_A_2 (F := Ideal) c i arg1 harg1 arg2 harg2 arg3 harg3 hc0 x0 x1 = fun y => 0 + upd x0 x1 y := by
  unfold out5_A_2
  rw [View.read_writes_junk_eq_canon, runA_eq]
  funext y
  rw [canonA arg1 harg1 arg2 harg2 arg3 x0 x1 98 (le_refl _) y, if_pos (by have := idx2_lt0 y; omega)]

/-- What a later point leaves in the accumulator holding xo2. -/
theorem out_B (c : Dev nD) (i : grid5.Coords) (hc0 : ¬cond5_0 i) :
    out5_B_2 (F := Ideal) c i arg1 harg1 arg2 harg2 arg3 harg3 hc0 x0 x1 xo2 = fun y => xo2 y + upd x0 x1 y := by
  unfold out5_B_2
  rw [View.read_writes_junk_eq_canon, runB_eq]
  funext y
  exact canonB arg1 harg1 arg2 harg2 arg3 harg3 x0 x1 xo2 98 (le_refl _) y (by have := idx2_lt0 y; omega)

end Cert.KernelIdeal.ScatterPoint32

end
-- ==== Proof.Scatter.lean ====
/- The two accumulation regions: the output block is the whole accumulator, zeroed at the first grid point; each
   of the 391 grid points adds, node tile by node tile, the product of the transposed 0/1 matrix [dst e = v] with
   the tile's 2048 messages. After the last point row v holds the sum over all 800768 edges of [dst e = v] · M[e, ·]. -/
import proofs.«126296_j7791070675006_1_alg».proof.Proof.Gen.KernelIdeal.Frame
import proofs.«126296_j7791070675006_1_alg».proof.Proof.Layer
import proofs.«126296_j7791070675006_1_alg».proof.Proof.ScatterPoint64
import proofs.«126296_j7791070675006_1_alg».proof.Proof.ScatterPoint32
import Idealize.ShloMosaic.Lib.Pipeline.Value

set_option maxRecDepth 16384

noncomputable section

open scoped BigOperators

namespace Cert.KernelIdeal.ScatterValue

open Cert.KernelIdeal Cert.KernelIdeal.Gen Cert.Spec
open Idealize.ShloMosaic Idealize.ShloMosaic.TcCoe Idealize.ShloMosaic.ValueIdx
open Idealize.SL Idealize.SL.Sem
open Cert.KernelIdeal.Facts₀ Cert.KernelIdeal.Facts

variable (V : (c : Dev nD) → (b : Ref sig .tc) → Buf (Elt Ideal) ((c : Thread nD τ).loc b)) (c : Dev nD)

/-! ## Region 2 (64 feature columns) -/

section Region2

open Cert.KernelIdeal.ScatterPoint64

/-- The accumulator after point n: the zeroed accumulator plus the contributions of points 0 .. n. -/
def acc2 : (n : ℕ) → n < cfg2.N → S50176x64.Idx → EReal
  | 0, h => fun y => 0 + upd (iblk2 V c 0 ⟨0, h⟩ : Vec Ideal S2048x1 .i32) (iblk2 V c 1 ⟨0, h⟩ : Vec Ideal S2048x64 .f32) y
  | n + 1, h => fun y => acc2 n (Nat.lt_of_succ_lt h) y
      + upd (iblk2 V c 0 ⟨n + 1, h⟩ : Vec Ideal S2048x1 .i32) (iblk2 V c 1 ⟨n + 1, h⟩ : Vec Ideal S2048x64 .f32) y

/-- What the accumulator's staging buffer holds after point n is that running sum (induction on the point). -/
theorem outsAt_eq2 : ∀ (n : ℕ) (h : n < cfg2.N), (outsAt2 (F := Ideal) V c n h : S50176x64.Idx → EReal) = acc2 V c n h
  | 0, h => (outsAt2_A V c ⟨0, h⟩ rfl).trans (out_A ..)
  | n + 1, h => by
    have hN : cfg2.N = 391 := N_2
    have hB : ¬(⟨n + 1, h⟩ : Fin cfg2.N).val % 391 = 0 := by dsimp only; omega
    rw [outsAt2_B V c ⟨n + 1, h⟩ hB, out_B]
    funext y
    show (outsAt2 (F := Ideal) V c n _ : S50176x64.Idx → EReal) y + _ = acc2 V c n _ y + _
    rw [outsAt_eq2 n]

/-- The index maps of the two input windows: block (t, 0). -/
theorem idx2_0 : ∀ t : Fin cfg2.N, win2_0.index t 0 = t.val ∧ win2_0.index t 1 = 0 :=
  (by decide +kernel : ∀ t : Fin grid2.N, _)
theorem idx2_1 : ∀ t : Fin cfg2.N, win2_1.index t 0 = t.val ∧ win2_1.index t 1 = 0 :=
  (by decide +kernel : ∀ t : Fin grid2.N, _)

/-- Edge r of tile t is edge 2048 t + r. -/
theorem edge_lt2 (t : Fin cfg2.N) (r : Fin 2048) : 2048 * t.val + r.val < 800768 := by
  have hN : cfg2.N = 391 := N_2
  have := t.isLt; have := r.isLt; omega

theorem iblk2_0_apply (t : Fin cfg2.N) (r : Fin 2048) :
    (iblk2 V c 0 t : Vec Ideal S2048x1 .i32) (ix2 r (0 : Fin 1))
      = (V c main_v18 : S800768x1.Idx → BitVec 32) (ix2 ⟨2048 * t.val + r.val, edge_lt2 t r⟩ (0 : Fin 1)) := by
  unfold iblk2
  rw [View.read_apply]
  show (V c main_v18 : S800768x1.Idx → BitVec 32) _ = _
  congr 1
  funext a
  apply Fin.ext
  match a with
  | ⟨0, _⟩ => show win2_0.index t 0 * 2048 + 1 * r.val = 2048 * t.val + r.val; rw [(idx2_0 t).1]; omega
  | ⟨1, _⟩ => show win2_0.index t 1 * 1 + 1 * 0 = 0; rw [(idx2_0 t).2]

theorem iblk2_1_apply (t : Fin cfg2.N) (r : Fin 2048) (q : Fin 64) :
    (iblk2 V c 1 t : Vec Ideal S2048x64 .f32) (ix2 r q)
      = (V c main_v25 : S800768x64.Idx → EReal) (ix2 ⟨2048 * t.val + r.val, edge_lt2 t r⟩ q) := by
  unfold iblk2
  rw [View.read_apply]
  show (V c main_v25 : S800768x64.Idx → EReal) _ = _
  congr 1
  funext a
  apply Fin.ext
  match a with
  | ⟨0, _⟩ => show win2_1.index t 0 * 2048 + 1 * r.val = 2048 * t.val + r.val; rw [(idx2_1 t).1]; omega
  | ⟨1, _⟩ => show win2_1.index t 1 * 64 + 1 * q.val = q.val; rw [(idx2_1 t).2]; omega

/-- Edge e's term of entry (v, q), for e below the number of edges (0 beyond). -/
def term2 (y : S50176x64.Idx) (e : ℕ) : EReal :=
  if h : e < 800768 then ind ((V c main_v18 : S800768x1.Idx → BitVec 32) (ix2 ⟨e, h⟩ (0 : Fin 1))) (BitVec.ofNat 32 (y 0).val)
    * (V c main_v25 : S800768x64.Idx → EReal) (ix2 ⟨e, h⟩ (y 1)) else 0

/-- A point's contribution is the sum of its 2048 edges' terms. -/
theorem upd_eq2 (t : Fin cfg2.N) (y : S50176x64.Idx) :
    upd (iblk2 V c 0 t : Vec Ideal S2048x1 .i32) (iblk2 V c 1 t : Vec Ideal S2048x64 .f32) y
      = ∑ r ∈ Finset.range 2048, term2 V c y (2048 * t.val + r) := by
  rw [Finset.sum_range]
  unfold upd
  refine Finset.sum_congr rfl fun r _ => ?_
  unfold term2
  rw [dif_pos (edge_lt2 t r), iblk2_0_apply]
  exact congrArg (_ * ·) (iblk2_1_apply V c t r (y 1))

/-- The running sum after point n is the sum of the first 2048 (n + 1) edges' terms. -/
theorem acc_sum2 : ∀ (n : ℕ) (h : n < cfg2.N) (y : S50176x64.Idx),
    acc2 V c n h y = ∑ e ∈ Finset.range (2048 * (n + 1)), term2 V c y e
  | 0, h, y => by
    show 0 + upd _ _ y = _
    rw [zero_add, upd_eq2 V c ⟨0, h⟩ y]
    refine Finset.sum_congr rfl fun r _ => ?_
    show term2 V c y (2048 * 0 + r) = _
    rw [Nat.mul_zero, Nat.zero_add]
  | n + 1, h, y => by
    show acc2 V c n _ y + upd _ _ y = _
    rw [acc_sum2 n _ y, upd_eq2 V c ⟨n + 1, h⟩ y, show 2048 * (n + 1 + 1) = 2048 * (n + 1) + 2048 from by omega, Finset.sum_range_add]

/-- After the last point the accumulator is the accumulation over all edges. -/
theorem acc_last2 (h : 390 < cfg2.N) :
    acc2 V c 390 h = accum (V c main_v18 : S800768x1.Idx → BitVec 32) (V c main_v25 : S800768x64.Idx → EReal) := by
  funext y
  rw [acc_sum2 V c 390 h y, show 2048 * (390 + 1) = 800768 from by norm_num, Finset.sum_range]
  unfold accum
  refine Finset.sum_congr rfl fun e _ => ?_
  unfold term2
  rw [dif_pos e.isLt]

theorem lt390_2 : 390 < cfg2.N := by have hN : cfg2.N = 391 := N_2; omega

/-- The one write-back, after the last point, writes the running sum: the block is the whole array. -/
theorem flushed_eq2 (t : Fin cfg2.N) (hf : (cfg2.win 2).flush t = true) :
    (dat2 (F := Ideal) V c).flushed 2 t = ((cfg2.win 2).blk t).view.read (Elt Ideal) (acc2 V c 390 lt390_2) := by
  have hN : cfg2.N = 391 := N_2
  have h3 : t.val = 390 := by have := (flush2_2 t).mp hf; have := t.isLt; omega
  obtain rfl : t = ⟨390, lt390_2⟩ := Fin.ext h3
  show (cfg2.win 2).cut (grid2.coords ⟨390, lt390_2⟩) ((dat2 (F := Ideal) V c).after 2 ⟨390, lt390_2⟩) = _
  rw [after2_2, outsAt_eq2]
  have hz' : (fun a => win2_2.index ⟨390, lt390_2⟩ a * main_v26.ty.shape.size a) = fun _ => 0 := funext fun a => by fin_cases a <;> decide +kernel
  exact (Memref.read_access_unit_zero (Elt Ideal) main_v26 hz' (fun a => by rw [congrFun hz' a]; simp) (acc2 V c 390 lt390_2)).symm

end Region2

/-- Region 2: the output array after the region is the accumulation of the messages at the destination indices. -/
theorem arr2 : ((dat2 (F := Ideal) V c).arrAt 2 cfg2.N : S50176x64.Idx → EReal)
    = accum (V c main_v18 : S800768x1.Idx → BitVec 32) (V c main_v25 : S800768x64.Idx → EReal) := by
  rw [← acc_last2 V c lt390_2]
  exact (dat2 (F := Ideal) V c).arrAt_eq_of_cover 2 (acc2 V c 390 lt390_2) (flushed_eq2 V c) fun i =>
    ⟨⟨390, lt390_2⟩, (flush2_2 ⟨390, lt390_2⟩).mpr rfl, by
      show i ∈ ((View.whole main_v26).slice (win2_2.rect ⟨390, lt390_2⟩)).set
      rw [View.set_slice_whole, Rect.mem_set_unit]
      intro a
      have h0 : (i 0 : Nat) < 50176 := (i 0).isLt
      have h1 : (i 1 : Nat) < 64 := (i 1).isLt
      match a with
      | ⟨0, _⟩ =>
        show win2_2.index ⟨390, lt390_2⟩ 0 * win2_2.size 0 ≤ (i 0 : Nat) ∧ (i 0 : Nat) < win2_2.index ⟨390, lt390_2⟩ 0 * win2_2.size 0 + win2_2.xsize (grid2.coords ⟨390, lt390_2⟩) 0
        rw [show win2_2.index ⟨390, lt390_2⟩ 0 * win2_2.size 0 = 0 from by decide +kernel, show win2_2.xsize (grid2.coords ⟨390, lt390_2⟩) 0 = 50176 from by decide +kernel]; omega
      | ⟨1, _⟩ =>
        show win2_2.index ⟨390, lt390_2⟩ 1 * win2_2.size 1 ≤ (i 1 : Nat) ∧ (i 1 : Nat) < win2_2.index ⟨390, lt390_2⟩ 1 * win2_2.size 1 + win2_2.xsize (grid2.coords ⟨390, lt390_2⟩) 1
        rw [show win2_2.index ⟨390, lt390_2⟩ 1 * win2_2.size 1 = 0 from by decide +kernel, show win2_2.xsize (grid2.coords ⟨390, lt390_2⟩) 1 = 64 from by decide +kernel]; omega⟩

/-! ## Region 5 (32 feature columns) -/

section Region5

open Cert.KernelIdeal.ScatterPoint32

/-- The accumulator after point n: the zeroed accumulator plus the contributions of points 0 .. n. -/
def acc5 : (n : ℕ) → n < cfg5.N → S50176x32.Idx → EReal
  | 0, h => fun y => 0 + upd (iblk5 V c 0 ⟨0, h⟩ : Vec Ideal S2048x1 .i32) (iblk5 V c 1 ⟨0, h⟩ : Vec Ideal S2048x32 .f32) y
  | n + 1, h => fun y => acc5 n (Nat.lt_of_succ_lt h) y
      + upd (iblk5 V c 0 ⟨n + 1, h⟩ : Vec Ideal S2048x1 .i32) (iblk5 V c 1 ⟨n + 1, h⟩ : Vec Ideal S2048x32 .f32) y

/-- What the accumulator's staging buffer holds after point n is that running sum (induction on the point). -/
theorem outsAt_eq5 : ∀ (n : ℕ) (h : n < cfg5.N), (outsAt5 (F := Ideal) V c n h : S50176x32.Idx → EReal) = acc5 V c n h
  | 0, h => (outsAt5_A V c ⟨0, h⟩ rfl).trans (out_A ..)
  | n + 1, h => by
    have hN : cfg5.N = 391 := N_5
    have hB : ¬(⟨n + 1, h⟩ : Fin cfg5.N).val % 391 = 0 := by dsimp only; omega
    rw [outsAt5_B V c ⟨n + 1, h⟩ hB, out_B]
    funext y
    show (outsAt5 (F := Ideal) V c n _ : S50176x32.Idx → EReal) y + _ = acc5 V c n _ y + _
    rw [outsAt_eq5 n]

/-- The index maps of the two input windows: block (t, 0). -/
theorem idx5_0 : ∀ t : Fin cfg5.N, win5_0.index t 0 = t.val ∧ win5_0.index t 1 = 0 :=
  (by decide +kernel : ∀ t : Fin grid5.N, _)
theorem idx5_1 : ∀ t : Fin cfg5.N, win5_1.index t 0 = t.val ∧ win5_1.index t 1 = 0 :=
  (by decide +kernel : ∀ t : Fin grid5.N, _)

/-- Edge r of tile t is edge 2048 t + r. -/
theorem edge_lt5 (t : Fin cfg5.N) (r : Fin 2048) : 2048 * t.val + r.val < 800768 := by
  have hN : cfg5.N = 391 := N_5
  have := t.isLt; have := r.isLt; omega

theorem iblk5_0_apply (t : Fin cfg5.N) (r : Fin 2048) :
    (iblk5 V c 0 t : Vec Ideal S2048x1 .i32) (ix2 r (0 : Fin 1))
      = (V c main_v18 : S800768x1.Idx → BitVec 32) (ix2 ⟨2048 * t.val + r.val, edge_lt5 t r⟩ (0 : Fin 1)) := by
  unfold iblk5
  rw [View.read_apply]
  show (V c main_v18 : S800768x1.Idx → BitVec 32) _ = _
  congr 1
  funext a
  apply Fin.ext
  match a with
  | ⟨0, _⟩ => show win5_0.index t 0 * 2048 + 1 * r.val = 2048 * t.val + r.val; rw [(idx5_0 t).1]; omega
  | ⟨1, _⟩ => show win5_0.index t 1 * 1 + 1 * 0 = 0; rw [(idx5_0 t).2]

theorem iblk5_1_apply (t : Fin cfg5.N) (r : Fin 2048) (q : Fin 32) :
    (iblk5 V c 1 t : Vec Ideal S2048x32 .f32) (ix2 r q)
      = (V c main_v41 : S800768x32.Idx → EReal) (ix2 ⟨2048 * t.val + r.val, edge_lt5 t r⟩ q) := by
  unfold iblk5
  rw [View.read_apply]
  show (V c main_v41 : S800768x32.Idx → EReal) _ = _
  congr 1
  funext a
  apply Fin.ext
  match a with
  | ⟨0, _⟩ => show win5_1.index t 0 * 2048 + 1 * r.val = 2048 * t.val + r.val; rw [(idx5_1 t).1]; omega
  | ⟨1, _⟩ => show win5_1.index t 1 * 32 + 1 * q.val = q.val; rw [(idx5_1 t).2]; omega

/-- Edge e's term of entry (v, q), for e below the number of edges (0 beyond). -/
def term5 (y : S50176x32.Idx) (e : ℕ) : EReal :=
  if h : e < 800768 then ind ((V c main_v18 : S800768x1.Idx → BitVec 32) (ix2 ⟨e, h⟩ (0 : Fin 1))) (BitVec.ofNat 32 (y 0).val)
    * (V c main_v41 : S800768x32.Idx → EReal) (ix2 ⟨e, h⟩ (y 1)) else 0

/-- A point's contribution is the sum of its 2048 edges' terms. -/
theorem upd_eq5 (t : Fin cfg5.N) (y : S50176x32.Idx) :
    upd (iblk5 V c 0 t : Vec Ideal S2048x1 .i32) (iblk5 V c 1 t : Vec Ideal S2048x32 .f32) y
      = ∑ r ∈ Finset.range 2048, term5 V c y (2048 * t.val + r) := by
  rw [Finset.sum_range]
  unfold upd
  refine Finset.sum_congr rfl fun r _ => ?_
  unfold term5
  rw [dif_pos (edge_lt5 t r), iblk5_0_apply]
  exact congrArg (_ * ·) (iblk5_1_apply V c t r (y 1))

/-- The running sum after point n is the sum of the first 2048 (n + 1) edges' terms. -/
theorem acc_sum5 : ∀ (n : ℕ) (h : n < cfg5.N) (y : S50176x32.Idx),
    acc5 V c n h y = ∑ e ∈ Finset.range (2048 * (n + 1)), term5 V c y e
  | 0, h, y => by
    show 0 + upd _ _ y = _
    rw [zero_add, upd_eq5 V c ⟨0, h⟩ y]
    refine Finset.sum_congr rfl fun r _ => ?_
    show term5 V c y (2048 * 0 + r) = _
    rw [Nat.mul_zero, Nat.zero_add]
  | n + 1, h, y => by
    show acc5 V c n _ y + upd _ _ y = _
    rw [acc_sum5 n _ y, upd_eq5 V c ⟨n + 1, h⟩ y, show 2048 * (n + 1 + 1) = 2048 * (n + 1) + 2048 from by omega, Finset.sum_range_add]

/-- After the last point the accumulator is the accumulation over all edges. -/
theorem acc_last5 (h : 390 < cfg5.N) :
    acc5 V c 390 h = accum (V c main_v18 : S800768x1.Idx → BitVec 32) (V c main_v41 : S800768x32.Idx → EReal) := by
  funext y
  rw [acc_sum5 V c 390 h y, show 2048 * (390 + 1) = 800768 from by norm_num, Finset.sum_range]
  unfold accum
  refine Finset.sum_congr rfl fun e _ => ?_
  unfold term5
  rw [dif_pos e.isLt]

theorem lt390_5 : 390 < cfg5.N := by have hN : cfg5.N = 391 := N_5; omega

/-- The one write-back, after the last point, writes the running sum: the block is the whole array. -/
theorem flushed_eq5 (t : Fin cfg5.N) (hf : (cfg5.win 2).flush t = true) :
    (dat5 (F := Ideal) V c).flushed 2 t = ((cfg5.win 2).blk t).view.read (Elt Ideal) (acc5 V c 390 lt390_5) := by
  have hN : cfg5.N = 391 := N_5
  have h3 : t.val = 390 := by have := (flush5_2 t).mp hf; have := t.isLt; omega
  obtain rfl : t = ⟨390, lt390_5⟩ := Fin.ext h3
  show (cfg5.win 2).cut (grid5.coords ⟨390, lt390_5⟩) ((dat5 (F := Ideal) V c).after 2 ⟨390, lt390_5⟩) = _
  rw [after5_2, outsAt_eq5]
  have hz' : (fun a => win5_2.index ⟨390, lt390_5⟩ a * main_v42.ty.shape.size a) = fun _ => 0 := funext fun a => by fin_cases a <;> decide +kernel
  exact (Memref.read_access_unit_zero (Elt Ideal) main_v42 hz' (fun a => by rw [congrFun hz' a]; simp) (acc5 V c 390 lt390_5)).symm

end Region5

/-- Region 5: the output array after the region is the accumulation of the messages at the destination indices. -/
theorem arr5 : ((dat5 (F := Ideal) V c).arrAt 2 cfg5.N : S50176x32.Idx → EReal)
    = accum (V c main_v18 : S800768x1.Idx → BitVec 32) (V c main_v41 : S800768x32.Idx → EReal) := by
  rw [← acc_last5 V c lt390_5]
  exact (dat5 (F := Ideal) V c).arrAt_eq_of_cover 2 (acc5 V c 390 lt390_5) (flushed_eq5 V c) fun i =>
    ⟨⟨390, lt390_5⟩, (flush5_2 ⟨390, lt390_5⟩).mpr rfl, by
      show i ∈ ((View.whole main_v42).slice (win5_2.rect ⟨390, lt390_5⟩)).set
      rw [View.set_slice_whole, Rect.mem_set_unit]
      intro a
      have h0 : (i 0 : Nat) < 50176 := (i 0).isLt
      have h1 : (i 1 : Nat) < 32 := (i 1).isLt
      match a with
      | ⟨0, _⟩ =>
        show win5_2.index ⟨390, lt390_5⟩ 0 * win5_2.size 0 ≤ (i 0 : Nat) ∧ (i 0 : Nat) < win5_2.index ⟨390, lt390_5⟩ 0 * win5_2.size 0 + win5_2.xsize (grid5.coords ⟨390, lt390_5⟩) 0
        rw [show win5_2.index ⟨390, lt390_5⟩ 0 * win5_2.size 0 = 0 from by decide +kernel, show win5_2.xsize (grid5.coords ⟨390, lt390_5⟩) 0 = 50176 from by decide +kernel]; omega
      | ⟨1, _⟩ =>
        show win5_2.index ⟨390, lt390_5⟩ 1 * win5_2.size 1 ≤ (i 1 : Nat) ∧ (i 1 : Nat) < win5_2.index ⟨390, lt390_5⟩ 1 * win5_2.size 1 + win5_2.xsize (grid5.coords ⟨390, lt390_5⟩) 1
        rw [show win5_2.index ⟨390, lt390_5⟩ 1 * win5_2.size 1 = 0 from by decide +kernel, show win5_2.xsize (grid5.coords ⟨390, lt390_5⟩) 1 = 32 from by decide +kernel]; omega⟩

end Cert.KernelIdeal.ScatterValue

end
-- ==== Proof.KernelValueCarry.lean ====
/- Buffers that no region and no stretch of host operations writes keep their contents from one boundary of the
   program to the next: the index columns, the degree norms and the arguments are carried unchanged to the regions
   and host operations that read them. -/
import proofs.«126296_j7791070675006_1_alg».proof.Proof.Gen.KernelIdeal.Frame
import proofs.«126296_j7791070675006_1_alg».proof.Proof.Layer

set_option maxRecDepth 16384

noncomputable section

open scoped BigOperators

namespace Cert.KernelIdeal.KernelValue

open Cert.KernelIdeal Cert.KernelIdeal.Gen Cert.Spec
open Idealize.ShloMosaic Idealize.ShloMosaic.TcCoe Idealize.ShloMosaic.ValueIdx
open Idealize.SL Idealize.SL.Sem
open Cert.KernelIdeal.Facts₀ Cert.KernelIdeal.Facts

variable (m : (ℓ : Loc nD τ sig) → Buf (Elt Ideal) ℓ) (ρ : Dev nD → PrngReg) (c : Dev nD)

/-- A stretch of host operations leaves a buffer none of its operations writes as it found it. -/
local macro "unwritten " ops:ident " at " b:term : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The padded source column, built before the first region, is what the first row selection finds. -/
theorem carry_v17_6 : W6 (F := Ideal) m ρ c (Proc.devRef .tc main_v17) = W5 m ρ c (Proc.devRef .tc main_v17) :=
  calc W6 (F := Ideal) m ρ c (Proc.devRef .tc main_v17)
    _ = W5 m ρ c (Proc.devRef .tc main_v17) := W6_of_ne m ρ c main_v17 (by decide)

/-- The same column is what the second row selection finds: the first row selection only reads it. -/
theorem carry_v17_12 : W12 (F := Ideal) m ρ c (Proc.devRef .tc main_v17) = W5 m ρ c (Proc.devRef .tc main_v17) :=
  calc W12 (F := Ideal) m ρ c (Proc.devRef .tc main_v17)
    _ = W11 m ρ c (Proc.devRef .tc main_v17) := W12_of_ne m ρ c main_v17 (by decide)
    _ = W10 m ρ c (Proc.devRef .tc main_v17) := by unwritten hostOps3_2 at main_v17
    _ = W9 m ρ c (Proc.devRef .tc main_v17) := by unwritten hostOps3_1 at main_v17
    _ = W8 m ρ c (Proc.devRef .tc main_v17) := by unwritten hostOps3 at main_v17
    _ = W7 m ρ c (Proc.devRef .tc main_v17) := W8_of_ne m ρ c main_v17 (by decide)
    _ = W6 m ρ c (Proc.devRef .tc main_v17) := (W7_arr m ρ c 0).trans (((dat1 (V6 m ρ) c).arrAt_in 0 rfl _).trans (A_eq1 (V6 m ρ) c 0))
    _ = W5 m ρ c (Proc.devRef .tc main_v17) := W6_of_ne m ρ c main_v17 (by decide)

/-- The padded destination column is what the first accumulation finds. -/
theorem carry_v18_7 : W7 (F := Ideal) m ρ c (Proc.devRef .tc main_v18) = W5 m ρ c (Proc.devRef .tc main_v18) :=
  calc W7 (F := Ideal) m ρ c (Proc.devRef .tc main_v18)
    _ = W6 m ρ c (Proc.devRef .tc main_v18) := W7_of_ne m ρ c main_v18 (by decide)
    _ = W5 m ρ c (Proc.devRef .tc main_v18) := W6_of_ne m ρ c main_v18 (by decide)

/-- The same column is what the second accumulation finds: the first accumulation only reads it. -/
theorem carry_v18_13 : W13 (F := Ideal) m ρ c (Proc.devRef .tc main_v18) = W5 m ρ c (Proc.devRef .tc main_v18) :=
  calc W13 (F := Ideal) m ρ c (Proc.devRef .tc main_v18)
    _ = W12 m ρ c (Proc.devRef .tc main_v18) := W13_of_ne m ρ c main_v18 (by decide)
    _ = W11 m ρ c (Proc.devRef .tc main_v18) := W12_of_ne m ρ c main_v18 (by decide)
    _ = W10 m ρ c (Proc.devRef .tc main_v18) := by unwritten hostOps3_2 at main_v18
    _ = W9 m ρ c (Proc.devRef .tc main_v18) := by unwritten hostOps3_1 at main_v18
    _ = W8 m ρ c (Proc.devRef .tc main_v18) := by unwritten hostOps3 at main_v18
    _ = W7 m ρ c (Proc.devRef .tc main_v18) := (W8_arr m ρ c 0).trans (((dat2 (V7 m ρ) c).arrAt_in 0 rfl _).trans (A_eq2 (V7 m ρ) c 0))
    _ = W6 m ρ c (Proc.devRef .tc main_v18) := W7_of_ne m ρ c main_v18 (by decide)
    _ = W5 m ρ c (Proc.devRef .tc main_v18) := W6_of_ne m ρ c main_v18 (by decide)

/-- The in-degree norm is what the host operations after the first accumulation find. -/
theorem carry_v12_8 : W8 (F := Ideal) m ρ c (Proc.devRef .tc main_v12) = W5 m ρ c (Proc.devRef .tc main_v12) :=
  calc W8 (F := Ideal) m ρ c (Proc.devRef .tc main_v12)
    _ = W7 m ρ c (Proc.devRef .tc main_v12) := W8_of_ne m ρ c main_v12 (by decide)
    _ = W6 m ρ c (Proc.devRef .tc main_v12) := W7_of_ne m ρ c main_v12 (by decide)
    _ = W5 m ρ c (Proc.devRef .tc main_v12) := W6_of_ne m ρ c main_v12 (by decide)

/-- The same vector is what the host operations after the second accumulation find. -/
theorem carry_v12_14 : W14 (F := Ideal) m ρ c (Proc.devRef .tc main_v12) = W5 m ρ c (Proc.devRef .tc main_v12) :=
  calc W14 (F := Ideal) m ρ c (Proc.devRef .tc main_v12)
    _ = W13 m ρ c (Proc.devRef .tc main_v12) := W14_of_ne m ρ c main_v12 (by decide)
    _ = W12 m ρ c (Proc.devRef .tc main_v12) := W13_of_ne m ρ c main_v12 (by decide)
    _ = W11 m ρ c (Proc.devRef .tc main_v12) := W12_of_ne m ρ c main_v12 (by decide)
    _ = W10 m ρ c (Proc.devRef .tc main_v12) := by unwritten hostOps3_2 at main_v12
    _ = W9 m ρ c (Proc.devRef .tc main_v12) := by unwritten hostOps3_1 at main_v12
    _ = W8 m ρ c (Proc.devRef .tc main_v12) := by unwritten hostOps3 at main_v12
    _ = W7 m ρ c (Proc.devRef .tc main_v12) := W8_of_ne m ρ c main_v12 (by decide)
    _ = W6 m ρ c (Proc.devRef .tc main_v12) := W7_of_ne m ρ c main_v12 (by decide)
    _ = W5 m ρ c (Proc.devRef .tc main_v12) := W6_of_ne m ρ c main_v12 (by decide)

/-- The out-degree norm is what the scaling between the layers finds. -/
theorem carry_v9_10 : W10 (F := Ideal) m ρ c (Proc.devRef .tc main_v9) = W5 m ρ c (Proc.devRef .tc main_v9) :=
  calc W10 (F := Ideal) m ρ c (Proc.devRef .tc main_v9)
    _ = W9 m ρ c (Proc.devRef .tc main_v9) := by unwritten hostOps3_1 at main_v9
    _ = W8 m ρ c (Proc.devRef .tc main_v9) := by unwritten hostOps3 at main_v9
    _ = W7 m ρ c (Proc.devRef .tc main_v9) := W8_of_ne m ρ c main_v9 (by decide)
    _ = W6 m ρ c (Proc.devRef .tc main_v9) := W7_of_ne m ρ c main_v9 (by decide)
    _ = W5 m ρ c (Proc.devRef .tc main_v9) := W6_of_ne m ρ c main_v9 (by decide)

/-- The first weight matrix reaches the first dense region as launched. -/
theorem carry_arg1_5 : W5 (F := Ideal) m ρ c (Proc.devRef .tc main_arg1) = m ((c.tc : Thread nD τ).loc main_arg1) :=
  calc W5 (F := Ideal) m ρ c (Proc.devRef .tc main_arg1)
    _ = W4 m ρ c (Proc.devRef .tc main_arg1) := by unwritten hostOps0_4 at main_arg1
    _ = W3 m ρ c (Proc.devRef .tc main_arg1) := by unwritten hostOps0_3 at main_arg1
    _ = W2 m ρ c (Proc.devRef .tc main_arg1) := by unwritten hostOps0_2 at main_arg1
    _ = W1 m ρ c (Proc.devRef .tc main_arg1) := by unwritten hostOps0_1 at main_arg1
    _ = W0 m ρ c (Proc.devRef .tc main_arg1) := by unwritten hostOps0 at main_arg1
    _ = m ((c.tc : Thread nD τ).loc main_arg1) := rfl

/-- The first bias reaches the host operations after the first accumulation as launched. -/
theorem carry_arg2_8 : W8 (F := Ideal) m ρ c (Proc.devRef .tc main_arg2) = m ((c.tc : Thread nD τ).loc main_arg2) :=
  calc W8 (F := Ideal) m ρ c (Proc.devRef .tc main_arg2)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by unwritten hostOps0_4 at main_arg2
    _ = W3 m ρ c (Proc.devRef .tc main_arg2) := by unwritten hostOps0_3 at main_arg2
    _ = W2 m ρ c (Proc.devRef .tc main_arg2) := by unwritten hostOps0_2 at main_arg2
    _ = W1 m ρ c (Proc.devRef .tc main_arg2) := by unwritten hostOps0_1 at main_arg2
    _ = W0 m ρ c (Proc.devRef .tc main_arg2) := by unwritten hostOps0 at main_arg2
    _ = m ((c.tc : Thread nD τ).loc main_arg2) := rfl

/-- The second weight matrix reaches the second dense region as launched. -/
theorem carry_arg3_11 : W11 (F := Ideal) m ρ c (Proc.devRef .tc main_arg3) = m ((c.tc : Thread nD τ).loc main_arg3) :=
  calc W11 (F := Ideal) m ρ c (Proc.devRef .tc main_arg3)
    _ = W10 m ρ c (Proc.devRef .tc main_arg3) := by unwritten hostOps3_2 at main_arg3
    _ = W9 m ρ c (Proc.devRef .tc main_arg3) := by unwritten hostOps3_1 at main_arg3
    _ = W8 m ρ c (Proc.devRef .tc main_arg3) := by unwritten hostOps3 at main_arg3
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := by unwritten hostOps0_4 at main_arg3
    _ = W3 m ρ c (Proc.devRef .tc main_arg3) := by unwritten hostOps0_3 at main_arg3
    _ = W2 m ρ c (Proc.devRef .tc main_arg3) := by unwritten hostOps0_2 at main_arg3
    _ = W1 m ρ c (Proc.devRef .tc main_arg3) := by unwritten hostOps0_1 at main_arg3
    _ = W0 m ρ c (Proc.devRef .tc main_arg3) := by unwritten hostOps0 at main_arg3
    _ = m ((c.tc : Thread nD τ).loc main_arg3) := rfl

/-- The second bias reaches the host operations after the second accumulation as launched. -/
theorem carry_arg4_14 : W14 (F := Ideal) m ρ c (Proc.devRef .tc main_arg4) = m ((c.tc : Thread nD τ).loc main_arg4) :=
  calc W14 (F := Ideal) m ρ c (Proc.devRef .tc main_arg4)
    _ = W13 m ρ c (Proc.devRef .tc main_arg4) := W14_of_ne m ρ c main_arg4 (by decide)
    _ = W12 m ρ c (Proc.devRef .tc main_arg4) := W13_of_ne m ρ c main_arg4 (by decide)
    _ = W11 m ρ c (Proc.devRef .tc main_arg4) := W12_of_ne m ρ c main_arg4 (by decide)
    _ = W10 m ρ c (Proc.devRef .tc main_arg4) := by unwritten hostOps3_2 at main_arg4
    _ = W9 m ρ c (Proc.devRef .tc main_arg4) := by unwritten hostOps3_1 at main_arg4
    _ = W8 m ρ c (Proc.devRef .tc main_arg4) := by unwritten hostOps3 at main_arg4
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := by unwritten hostOps0_4 at main_arg4
    _ = W3 m ρ c (Proc.devRef .tc main_arg4) := by unwritten hostOps0_3 at main_arg4
    _ = W2 m ρ c (Proc.devRef .tc main_arg4) := by unwritten hostOps0_2 at main_arg4
    _ = W1 m ρ c (Proc.devRef .tc main_arg4) := by unwritten hostOps0_1 at main_arg4
    _ = W0 m ρ c (Proc.devRef .tc main_arg4) := by unwritten hostOps0 at main_arg4
    _ = m ((c.tc : Thread nD τ).loc main_arg4) := rfl

/-- The out-degree norm is unchanged through the first layer's three regions. -/
theorem carry_v9_8 : W8 (F := Ideal) m ρ c (Proc.devRef .tc main_v9) = W5 m ρ c (Proc.devRef .tc main_v9) :=
  calc W8 (F := Ideal) m ρ c (Proc.devRef .tc main_v9)
    _ = W7 m ρ c (Proc.devRef .tc main_v9) := W8_of_ne m ρ c main_v9 (by decide)
    _ = W6 m ρ c (Proc.devRef .tc main_v9) := W7_of_ne m ρ c main_v9 (by decide)
    _ = W5 m ρ c (Proc.devRef .tc main_v9) := W6_of_ne m ρ c main_v9 (by decide)

end Cert.KernelIdeal.KernelValue

end
-- ==== Proof.KernelValueHost.lean ====
/- The host operations between the regions, read index by index: a column vector broadcast along the rows is a
   row scaling; a bias broadcast along the columns is added to every row; a concatenation with a constant block is
   a padding; a slice from the origin keeps the leading rows. Each lemma is stated over variables of the literal
   shapes and identifies the operations' term with one of the layer's whole-array functions. -/
import proofs.«126296_j7791070675006_1_alg».proof.Proof.Layer
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KernelValue

open Cert.KernelIdeal Cert.Spec Cert.Layer
open Idealize.ShloMosaic Idealize.ShloMosaic.ValueIdx
open Cert.KernelIdeal.Facts₀ Cert.KernelIdeal.Facts

/-- A vector of 50000 numbers broadcast to a column and then along C columns, read at an index, is the entry of its row. -/
theorem rowBroadcast_apply {C : Nat} (n : S50000.Idx → EReal)
    (h1 : S50000.BroadcastsInDim S50000x1 (![0] : Fin 1 → Fin S50000x1.rank))
    (h2 : S50000x1.BroadcastsInDim (⟨2, ![50000, C]⟩ : Shape) (![0, 1] : Fin 2 → Fin 2))
    (j : (⟨2, ![50000, C]⟩ : Shape).Idx) :
    broadcastInDim (⟨2, ![50000, C]⟩ : Shape) ![0, 1] h2 (broadcastInDim S50000x1 ![0] h1 n) j = n (ix1 (j 0)) := by
  refine (broadcastInDim_apply _ h2 _ j (ix2 (j 0) (0 : Fin 1)) fun a => ?_).trans
    (broadcastInDim_apply _ h1 _ _ (ix1 (j 0)) fun a => ?_)
  · match a with
    | ⟨0, _⟩ => show (j 0).val = if (50000 : Nat) = 1 then 0 else (j 0).val; rw [if_neg (by decide)]
    | ⟨1, _⟩ => show (0 : Nat) = if (1 : Nat) = 1 then 0 else _; rw [if_pos rfl]
  · match a with
    | ⟨0, _⟩ => show (j 0).val = if (50000 : Nat) = 1 then 0 else (j 0).val; rw [if_neg (by decide)]

/-- A vector of C numbers broadcast to a row and then along 50000 rows, read at an index, is the entry of its column. -/
theorem colBroadcast_apply {C : Nat} (hC : 1 < C) (b : (⟨1, ![C]⟩ : Shape).Idx → EReal)
    (h1 : (⟨1, ![C]⟩ : Shape).BroadcastsInDim (⟨2, ![1, C]⟩ : Shape) (![1] : Fin 1 → Fin 2))
    (h2 : (⟨2, ![1, C]⟩ : Shape).BroadcastsInDim (⟨2, ![50000, C]⟩ : Shape) (![0, 1] : Fin 2 → Fin 2))
    (j : (⟨2, ![50000, C]⟩ : Shape).Idx) :
    broadcastInDim (⟨2, ![50000, C]⟩ : Shape) ![0, 1] h2 (broadcastInDim (⟨2, ![1, C]⟩ : Shape) ![1] h1 b) j = b (ix1 (j 1)) := by
  refine (broadcastInDim_apply _ h2 _ j (ix2 (0 : Fin 1) (j 1)) fun a => ?_).trans
    (broadcastInDim_apply _ h1 _ _ (ix1 (j 1)) fun a => ?_)
  · match a with
    | ⟨0, _⟩ => show (0 : Nat) = if (1 : Nat) = 1 then 0 else _; rw [if_pos rfl]
    | ⟨1, _⟩ => show (j 1).val = if C = 1 then 0 else (j 1).val; rw [if_neg (by omega)]
  · match a with
    | ⟨0, _⟩ => show (j 1).val = if C = 1 then 0 else (j 1).val; rw [if_neg (by omega)]

/-- Slice of the leading 50000 rows, scaled row by row, plus a bias on every row: what follows an accumulation. -/
theorem finish_read {C : Nat} (hC : 1 < C) (A : Mat 50176 C) (n : S50000.Idx → EReal) (b : (⟨1, ![C]⟩ : Shape).Idx → EReal)
    (hs : (⟨2, ![50176, C]⟩ : Shape).Slices ![0, 0] (⟨2, ![50000, C]⟩ : Shape))
    (h1 : S50000.BroadcastsInDim S50000x1 (![0] : Fin 1 → Fin S50000x1.rank))
    (h2 : S50000x1.BroadcastsInDim (⟨2, ![50000, C]⟩ : Shape) (![0, 1] : Fin 2 → Fin 2))
    (h3 : (⟨1, ![C]⟩ : Shape).BroadcastsInDim (⟨2, ![1, C]⟩ : Shape) (![1] : Fin 1 → Fin 2))
    (h4 : (⟨2, ![1, C]⟩ : Shape).BroadcastsInDim (⟨2, ![50000, C]⟩ : Shape) (![0, 1] : Fin 2 → Fin 2)) :
    (addf (F := Ideal) (φ := .f32)
        (mulf (extractStridedSlice (⟨2, ![50000, C]⟩ : Shape) ![0, 0] A hs)
          (broadcastInDim (⟨2, ![50000, C]⟩ : Shape) ![0, 1] h2 (broadcastInDim S50000x1 ![0] h1 n)))
        (broadcastInDim (⟨2, ![50000, C]⟩ : Shape) ![0, 1] h4 (broadcastInDim (⟨2, ![1, C]⟩ : Shape) ![1] h3 b))
      : (⟨2, ![50000, C]⟩ : Shape).Idx → EReal)
    = finish A n b := by
  funext i
  rw [addf_apply, mulf_apply, rowBroadcast_apply, colBroadcast_apply hC]
  unfold finish keepRows
  congr 2
  refine extractStridedSlice_apply _ _ hs i _ fun a => ?_
  match a with
  | ⟨0, _⟩ => show (i 0).val = 0 + (i 0).val; omega
  | ⟨1, _⟩ => show (i 1).val = 0 + (i 1).val; omega

/-- Clipping below at zero (the maximum with the broadcast zero word), then scaling row by row. -/
theorem clipScale_read (Y : Mat 50000 64) (n : S50000.Idx → EReal)
    (h0 : S_.BroadcastsInDim S50000x64 (![] : Fin 0 → Fin S50000x64.rank))
    (h1 : S50000.BroadcastsInDim S50000x1 (![0] : Fin 1 → Fin S50000x1.rank))
    (h2 : S50000x1.BroadcastsInDim S50000x64 (![0, 1] : Fin 2 → Fin 2)) :
    (mulf (F := Ideal) (φ := .f32)
        (maximumf Y (broadcastInDim S50000x64 ![] h0 (constant (F := Ideal) S_ .f32 0x00000000#32)))
        (broadcastInDim S50000x64 ![0, 1] h2 (broadcastInDim S50000x1 ![0] h1 n))
      : S50000x64.Idx → EReal)
    = scaleRows (fun j => max (Y j) 0) n := by
  funext i
  rw [mulf_apply, maximumf_apply, rowBroadcast_apply]
  unfold scaleRows
  congr 2
  exact Ideal.ofBits_zero_f32

/-- Scaling row by row alone. -/
theorem scale_read (X : Mat 50000 64) (n : S50000.Idx → EReal)
    (h1 : S50000.BroadcastsInDim S50000x1 (![0] : Fin 1 → Fin S50000x1.rank))
    (h2 : S50000x1.BroadcastsInDim S50000x64 (![0, 1] : Fin 2 → Fin 2)) :
    (mulf (F := Ideal) (φ := .f32) X (broadcastInDim S50000x64 ![0, 1] h2 (broadcastInDim S50000x1 ![0] h1 n))
      : S50000x64.Idx → EReal)
    = scaleRows X n := by
  funext i
  rw [mulf_apply, rowBroadcast_apply]
  rfl

/-- A matrix of 50000 rows concatenated with 176 rows of the broadcast zero word is the matrix padded with zero rows. -/
theorem padRows_read (X : Mat 50000 64)
    (h0 : S_.BroadcastsInDim S176x64 (![] : Fin 0 → Fin S176x64.rank))
    (hc : Shape.Concatenates [S50000x64, S176x64] S50176x64 0) :
    (concatenate S50176x64 0 [⟨S50000x64, X⟩,
        ⟨S176x64, broadcastInDim S176x64 ![] h0 (constant (F := Ideal) S_ .f32 0x00000000#32)⟩] hc
      : S50176x64.Idx → EReal)
    = padRows X := by
  funext i
  unfold padRows
  by_cases h : (i 0).val < 50000
  · rw [dif_pos h]
    refine concatenate_pair_apply_left 0 X _ hc i rfl (ix2 ⟨(i 0).val, h⟩ (i 1)) fun b => ?_
    match b with
    | ⟨0, _⟩ => rfl
    | ⟨1, _⟩ => rfl
  · rw [dif_neg h]
    have h' : (i 0).val - 50000 < 176 := by have := idx2_lt0 i; omega
    refine (concatenate_pair_apply_right 0 X _ hc i rfl rfl (ix2 ⟨(i 0).val - 50000, h'⟩ (i 1)) (fun b hb => ?_) ?_).trans
      Ideal.ofBits_zero_f32
    ·
      have hb1 : b = 1 := by
        rcases b with ⟨v, hv⟩
        have hv2 : v < 2 := hv
        have hv0 : v ≠ 0 := fun e => hb (Fin.ext e)
        exact Fin.ext (by show v = 1; omega)
      subst hb1; rfl
    · show (i 0).val - 50000 + 50000 = (i 0).val; omega

/-- 800000 index words concatenated with 768 copies of a fill word and reshaped to a column are the padded column. -/
theorem padIdx_read (a : IVec S800000 32) (fill : BitVec 32)
    (h0 : S_.BroadcastsInDim S768 (![] : Fin 0 → Fin S768.rank))
    (hc : Shape.Concatenates [S800000, S768] S800768 0)
    (hs : S800768.ShapeCasts S800768x1) :
    (shapeCast S800768x1
        (concatenate S800768 0 [⟨S800000, a⟩, ⟨S768, broadcastInDim S768 ![] h0 (constantI S_ 32 fill)⟩] hc) hs
      : S800768x1.Idx → BitVec 32)
    = padIdx a fill := by
  funext i
  unfold padIdx
  have hi : (i 0).val < 800768 := idx2_lt0 i
  have hi1 : (i 1).val = 0 := by have := idx2_lt1 i; omega
  refine (shapeCast_apply _ hs i (ix1 ⟨(i 0).val, hi⟩) ?_).trans ?_
  · rw [Shape.rowMajor_val_one, Shape.rowMajor_val_two]
    show (i 0).val = (i 0).val * 1 + (i 1).val
    omega
  by_cases h : (i 0).val < 800000
  · rw [dif_pos h]
    refine concatenate_pair_apply_left 0 a _ hc _ rfl (ix1 ⟨(i 0).val, h⟩) fun b => ?_
    match b with
    | ⟨0, _⟩ => rfl
  · rw [dif_neg h]
    have h' : (i 0).val - 800000 < 768 := by omega
    refine concatenate_pair_apply_right 0 a _ hc _ rfl rfl (ix1 ⟨(i 0).val - 800000, h'⟩) (fun b hb => ?_) ?_
    ·
      exact (hb (Fin.ext (by have hv : b.val < 1 := b.isLt; show b.val = 0; omega))).elim
    · show (i 0).val - 800000 + 800000 = (i 0).val; omega

end Cert.KernelIdeal.KernelValue

end
-- ==== Proof.KernelValueMid.lean ====
/- The host operations after each accumulation, read as the layer's whole-array functions. After the second
   accumulation: the leading 50000 rows, scaled by the in-degree norm, plus the bias. After the first: the same,
   then clipped below at zero, scaled by the out-degree norm and padded with zero rows to 50176, which is the
   left factor of the second dense region. -/
import proofs.«126296_j7791070675006_1_alg».proof.Proof.Gen.KernelIdeal.Frame
import proofs.«126296_j7791070675006_1_alg».proof.Proof.Layer
import proofs.«126296_j7791070675006_1_alg».proof.Proof.KernelValueHost

set_option maxRecDepth 16384

noncomputable section

open scoped BigOperators

namespace Cert.KernelIdeal.KernelValue

open Cert.KernelIdeal Cert.KernelIdeal.Gen Cert.Spec
open Idealize.ShloMosaic Idealize.ShloMosaic.TcCoe Idealize.ShloMosaic.ValueIdx
open Idealize.SL Idealize.SL.Sem
open Cert.KernelIdeal.Facts₀ Cert.KernelIdeal.Facts

variable (m : (ℓ : Loc nD τ sig) → Buf (Elt Ideal) ℓ) (ρ : Dev nD → PrngReg) (c : Dev nD)

/-- After the second accumulation: the kept rows scaled by the in-degree norm, plus the second bias. -/
theorem tail_v49 : (W15 (F := Ideal) m ρ c (Proc.devRef .tc main_v49) : S50000x32.Idx → EReal)
    = Cert.Layer.finish (W14 m ρ c (Proc.devRef .tc main_v42) : S50176x32.Idx → EReal) (W14 m ρ c (Proc.devRef .tc main_v12) : S50000.Idx → EReal) (W14 m ρ c (Proc.devRef .tc main_arg4) : S32.Idx → EReal) := by
  show StableHlo.after hostOps6 (W14 m ρ c) (Proc.devRef .tc main_v49) = _
  after_results
  exact finish_read (by decide) _ _ _ _ _ _ _ _

section Casts
/-- Contents carried to a buffer whose type is the value's own, and back, are the contents. -/
theorem toBuf_v34 (h1 h2 h3) (v : S50000x64.Idx → EReal) :
    ((StableHlo.TRef.of (sig := sig) (T := ⟨S50000x64, .f32⟩) main_v34 h1 h2 h3).toBuf (Val := Elt Ideal) v : S50000x64.Idx → EReal) = v := rfl
theorem ofBuf_v33 (h1 h2 h3) (v : S50000x64.Idx → EReal) :
    ((StableHlo.TRef.of (sig := sig) (T := ⟨S50000x64, .f32⟩) main_v33 h1 h2 h3).ofBuf (Val := Elt Ideal) v : S50000x64.Idx → EReal) = v := rfl
theorem ofBuf_call2_v0 (h1 h2 h3) (v : S50000x64.Idx → EReal) :
    ((StableHlo.TRef.of (sig := sig) (T := ⟨S50000x64, .f32⟩) main_call2_v0 h1 h2 h3).ofBuf (Val := Elt Ideal) v : S50000x64.Idx → EReal) = v := rfl
theorem toBuf_call2_v0 (h1 h2 h3) (v : S50000x64.Idx → EReal) :
    ((StableHlo.TRef.of (sig := sig) (T := ⟨S50000x64, .f32⟩) main_call2_v0 h1 h2 h3).toBuf (Val := Elt Ideal) v : S50000x64.Idx → EReal) = v := rfl
theorem ofBuf_call2_cst (h1 h2 h3) (v : S_.Idx → EReal) :
    ((StableHlo.TRef.of (sig := sig) (T := ⟨S_, .f32⟩) main_call2_cst h1 h2 h3).ofBuf (Val := Elt Ideal) v : S_.Idx → EReal) = v := rfl
theorem toBuf_call2_cst (h1 h2 h3) (v : S_.Idx → EReal) :
    ((StableHlo.TRef.of (sig := sig) (T := ⟨S_, .f32⟩) main_call2_cst h1 h2 h3).toBuf (Val := Elt Ideal) v : S_.Idx → EReal) = v := rfl
end Casts

/-- After the first accumulation: the kept rows scaled by the in-degree norm plus the first bias, clipped below at zero,
    scaled by the out-degree norm and padded with zero rows: the left factor of the second dense region. -/
theorem mid_v39 : (W11 (F := Ideal) m ρ c (Proc.devRef .tc main_v39) : S50176x64.Idx → EReal)
    = Cert.Layer.padRows (Cert.Layer.scaleRows
        (fun j => max (Cert.Layer.finish (W8 m ρ c (Proc.devRef .tc main_v26) : S50176x64.Idx → EReal) (W8 m ρ c (Proc.devRef .tc main_v12) : S50000.Idx → EReal) (W8 m ρ c (Proc.devRef .tc main_arg2) : S64.Idx → EReal) j) 0)
        (W8 m ρ c (Proc.devRef .tc main_v9) : S50000.Idx → EReal)) := by
  show StableHlo.after hostOps3_2 (StableHlo.after hostOps3_1 (StableHlo.after hostOps3 (W8 m ρ c))) (Proc.devRef .tc main_v39) = _
  after_results
  rw [toBuf_v34, ofBuf_v33, ofBuf_call2_v0, toBuf_call2_v0, ofBuf_call2_cst, toBuf_call2_cst]
  rw [finish_read (by decide), clipScale_read, padRows_read]

end Cert.KernelIdeal.KernelValue

end
-- ==== Proof.KernelValueFront.lean ====
/- What the host operations before the first region leave in the buffers the regions read: the two degree norms, the
   two index columns padded to 800768 edges (sources with node 0, destinations with node 50000), and the features
   scaled row by row by the out-degree norm and padded with zero rows to 50176. Each buffer's contents are the
   operations' term over the launch contents of the arguments; a clip called as a function carries its operands
   and result at their buffers' own types, which is the identity; the term is then one of the layer's whole-array
   functions. -/
import proofs.«126296_j7791070675006_1_alg».proof.Proof.Gen.KernelIdeal.Frame
import proofs.«126296_j7791070675006_1_alg».proof.Proof.Layer
import proofs.«126296_j7791070675006_1_alg».proof.Proof.KernelValueHost

set_option maxRecDepth 16384

noncomputable section

open scoped BigOperators

namespace Cert.KernelIdeal.KernelValue

open Cert.KernelIdeal Cert.KernelIdeal.Gen Cert.Spec
open Idealize.ShloMosaic Idealize.ShloMosaic.TcCoe Idealize.ShloMosaic.ValueIdx
open Idealize.SL Idealize.SL.Sem
open Cert.KernelIdeal.Facts₀ Cert.KernelIdeal.Facts

variable (m : (ℓ : Loc nD τ sig) → Buf (Elt Ideal) ℓ) (ρ : Dev nD → PrngReg) (c : Dev nD)

/-- The clip of the out-degrees, its operands and result carried at their buffers' own types: the carrying is the identity. -/
theorem clip0_strip (k : (⟨S_, .f32⟩ : BufTy).Contents (Elt Ideal)) (S : (⟨S50000, .f32⟩ : BufTy).Contents (Elt Ideal)) :
    (StableHlo.TRef.of main_v7 : StableHlo.TRef sig ⟨S50000, .f32⟩).toBuf (Val := Elt Ideal)
      (maximumf (F := Ideal) (φ := .f32)
        ((StableHlo.TRef.of main_call0_v1 : StableHlo.TRef sig ⟨S50000, .f32⟩).ofBuf (Val := Elt Ideal)
          ((StableHlo.TRef.of main_call0_v1 : StableHlo.TRef sig ⟨S50000, .f32⟩).toBuf (Val := Elt Ideal)
            (broadcastInDim S50000 ![] Gen.bcast_S_S50000
              ((StableHlo.TRef.of main_call0_v0 : StableHlo.TRef sig ⟨S_, .f32⟩).ofBuf (Val := Elt Ideal)
                ((StableHlo.TRef.of main_call0_v0 : StableHlo.TRef sig ⟨S_, .f32⟩).toBuf (Val := Elt Ideal)
                  (id ((StableHlo.TRef.of main_cst_2 : StableHlo.TRef sig ⟨S_, .f32⟩).ofBuf (Val := Elt Ideal) k)))))))
        ((StableHlo.TRef.of main_v3 : StableHlo.TRef sig ⟨S50000, .f32⟩).ofBuf (Val := Elt Ideal) S))
    = maximumf (F := Ideal) (φ := .f32) (broadcastInDim S50000 ![] Gen.bcast_S_S50000 k) S := rfl

/-- The same for the clip of the in-degrees. -/
theorem clip1_strip (k : (⟨S_, .f32⟩ : BufTy).Contents (Elt Ideal)) (S : (⟨S50000, .f32⟩ : BufTy).Contents (Elt Ideal)) :
    (StableHlo.TRef.of main_v10 : StableHlo.TRef sig ⟨S50000, .f32⟩).toBuf (Val := Elt Ideal)
      (maximumf (F := Ideal) (φ := .f32)
        ((StableHlo.TRef.of main_call1_v1 : StableHlo.TRef sig ⟨S50000, .f32⟩).ofBuf (Val := Elt Ideal)
          ((StableHlo.TRef.of main_call1_v1 : StableHlo.TRef sig ⟨S50000, .f32⟩).toBuf (Val := Elt Ideal)
            (broadcastInDim S50000 ![] Gen.bcast_S_S50000
              ((StableHlo.TRef.of main_call1_v0 : StableHlo.TRef sig ⟨S_, .f32⟩).ofBuf (Val := Elt Ideal)
                ((StableHlo.TRef.of main_call1_v0 : StableHlo.TRef sig ⟨S_, .f32⟩).toBuf (Val := Elt Ideal)
                  (id ((StableHlo.TRef.of main_cst_4 : StableHlo.TRef sig ⟨S_, .f32⟩).ofBuf (Val := Elt Ideal) k)))))))
        ((StableHlo.TRef.of main_v6 : StableHlo.TRef sig ⟨S50000, .f32⟩).ofBuf (Val := Elt Ideal) S))
    = maximumf (F := Ideal) (φ := .f32) (broadcastInDim S50000 ![] Gen.bcast_S_S50000 k) S := rfl

/-- The launch contents of the three arguments the front reads. -/
theorem W0_arg0 : W0 (F := Ideal) m ρ c (Proc.devRef .tc main_arg0) = m ((c.tc : Thread nD τ).loc main_arg0) := rfl
theorem W0_arg5 : W0 (F := Ideal) m ρ c (Proc.devRef .tc main_arg5) = m ((c.tc : Thread nD τ).loc main_arg5) := rfl
theorem W0_arg6 : W0 (F := Ideal) m ρ c (Proc.devRef .tc main_arg6) = m ((c.tc : Thread nD τ).loc main_arg6) := rfl

/-- Before the first region the out-degree norm's buffer holds the degree norm of the sources … -/
theorem front_v9 : (W5 (F := Ideal) m ρ c (Proc.devRef .tc main_v9) : S50000.Idx → EReal)
    = Cert.Layer.norm (m ((c.tc : Thread nD τ).loc main_arg5) : S800000.Idx → BitVec 32) := by
  show StableHlo.after hostOps0_4 (StableHlo.after hostOps0_3 (StableHlo.after hostOps0_2 (StableHlo.after hostOps0_1 (StableHlo.after hostOps0 (W0 m ρ c))))) (Proc.devRef .tc main_v9) = _
  after_results
  rw [clip0_strip, W0_arg5]
  rfl

/-- … the in-degree norm's buffer the degree norm of the destinations … -/
theorem front_v12 : (W5 (F := Ideal) m ρ c (Proc.devRef .tc main_v12) : S50000.Idx → EReal)
    = Cert.Layer.norm (m ((c.tc : Thread nD τ).loc main_arg6) : S800000.Idx → BitVec 32) := by
  show StableHlo.after hostOps0_4 (StableHlo.after hostOps0_3 (StableHlo.after hostOps0_2 (StableHlo.after hostOps0_1 (StableHlo.after hostOps0 (W0 m ρ c))))) (Proc.devRef .tc main_v12) = _
  after_results
  rw [clip1_strip, W0_arg6]
  rfl

/-- … the padded source column the sources padded with node 0 … -/
theorem front_v17 : (W5 (F := Ideal) m ρ c (Proc.devRef .tc main_v17) : S800768x1.Idx → BitVec 32)
    = Cert.Layer.padIdx (m ((c.tc : Thread nD τ).loc main_arg5) : S800000.Idx → BitVec 32) 0#32 := by
  show StableHlo.after hostOps0_4 (StableHlo.after hostOps0_3 (StableHlo.after hostOps0_2 (StableHlo.after hostOps0_1 (StableHlo.after hostOps0 (W0 m ρ c))))) (Proc.devRef .tc main_v17) = _
  after_results
  rw [W0_arg5]
  exact padIdx_read _ _ _ _ _

/-- … the padded destination column the destinations padded with node 50000 … -/
theorem front_v18 : (W5 (F := Ideal) m ρ c (Proc.devRef .tc main_v18) : S800768x1.Idx → BitVec 32)
    = Cert.Layer.padIdx (m ((c.tc : Thread nD τ).loc main_arg6) : S800000.Idx → BitVec 32) 50000#32 := by
  show StableHlo.after hostOps0_4 (StableHlo.after hostOps0_3 (StableHlo.after hostOps0_2 (StableHlo.after hostOps0_1 (StableHlo.after hostOps0 (W0 m ρ c))))) (Proc.devRef .tc main_v18) = _
  after_results
  rw [W0_arg6]
  exact padIdx_read _ _ _ _ _

set_option maxHeartbeats 2000000 in
/-- … and the padded features the rows scaled by the out-degree norm, padded with zero rows. -/
theorem front_v23 : (W5 (F := Ideal) m ρ c (Proc.devRef .tc main_v23) : S50176x64.Idx → EReal)
    = Cert.Layer.padRows (Cert.Layer.scaleRows (m ((c.tc : Thread nD τ).loc main_arg0) : S50000x64.Idx → EReal)
        (Cert.Layer.norm (m ((c.tc : Thread nD τ).loc main_arg5) : S800000.Idx → BitVec 32))) := by
  show StableHlo.after hostOps0_4 (StableHlo.after hostOps0_3 (StableHlo.after hostOps0_2 (StableHlo.after hostOps0_1 (StableHlo.after hostOps0 (W0 m ρ c))))) (Proc.devRef .tc main_v23) = _
  after_results
  rw [clip0_strip, W0_arg5, W0_arg0]
  refine (padRows_read _ _ _).trans (congrArg Cert.Layer.padRows ?_)
  exact scale_read _ (Cert.Layer.norm _) _ _

end Cert.KernelIdeal.KernelValue

end
-- ==== Proof.KernelValue.lean ====
/- The idealized kernel program's result array as the network function of its argument arrays: the host
   operations before the first region build the scaled, padded features and the padded index columns; each of
   the six regions is one step of a layer (product, row selection, accumulation); the host operations between and
   after them slice, scale, add the bias and clip at zero. -/
import proofs.«126296_j7791070675006_1_alg».proof.Proof.Gen.KernelIdeal.Frame
import proofs.«126296_j7791070675006_1_alg».proof.Proof.Layer
import proofs.«126296_j7791070675006_1_alg».proof.Proof.Dense
import proofs.«126296_j7791070675006_1_alg».proof.Proof.Gather
import proofs.«126296_j7791070675006_1_alg».proof.Proof.Scatter
import proofs.«126296_j7791070675006_1_alg».proof.Proof.KernelValueCarry
import proofs.«126296_j7791070675006_1_alg».proof.Proof.KernelValueMid
import proofs.«126296_j7791070675006_1_alg».proof.Proof.KernelValueFront

set_option maxRecDepth 16384

noncomputable section

open scoped BigOperators

namespace Cert.KernelIdeal.KernelValue

open Cert.KernelIdeal Cert.KernelIdeal.Gen Cert.Spec
open Idealize.ShloMosaic Idealize.ShloMosaic.TcCoe Idealize.ShloMosaic.ValueIdx
open Idealize.SL Idealize.SL.Sem
open Cert.KernelIdeal.Facts₀ Cert.KernelIdeal.Facts

variable (m : (ℓ : Loc nD τ sig) → Buf (Elt Ideal) ℓ) (ρ : Dev nD → PrngReg) (c : Dev nD)

/-! ## The launch contents of the arguments -/

/-- The node features. -/
abbrev aX : Mat 50000 64 := (m ((c.tc : Thread nD τ).loc main_arg0) : S50000x64.Idx → EReal)
/-- The first layer's weights and bias. -/
abbrev aW1 : Mat 64 64 := (m ((c.tc : Thread nD τ).loc main_arg1) : S64x64.Idx → EReal)
abbrev ab1 : S64.Idx → EReal := (m ((c.tc : Thread nD τ).loc main_arg2) : S64.Idx → EReal)
/-- The second layer's weights and bias. -/
abbrev aW2 : Mat 64 32 := (m ((c.tc : Thread nD τ).loc main_arg3) : S64x32.Idx → EReal)
abbrev ab2 : S32.Idx → EReal := (m ((c.tc : Thread nD τ).loc main_arg4) : S32.Idx → EReal)
/-- The edges' source and destination nodes. -/
abbrev aSrc : IVec S800000 32 := (m ((c.tc : Thread nD τ).loc main_arg5) : S800000.Idx → BitVec 32)
abbrev aDst : IVec S800000 32 := (m ((c.tc : Thread nD τ).loc main_arg6) : S800000.Idx → BitVec 32)

/-- The padded source column, the padded destination column, and the two degree norms. -/
abbrev sCol : ICol 800768 := Cert.Layer.padIdx (aSrc m c) 0#32
abbrev dCol : ICol 800768 := Cert.Layer.padIdx (aDst m c) 50000#32
abbrev onorm : S50000.Idx → EReal := Cert.Layer.norm (aSrc m c)
abbrev inorm : S50000.Idx → EReal := Cert.Layer.norm (aDst m c)

/-! ## The first layer: regions 0, 1, 2 -/

/-- The first layer's input: the features scaled by the out-degree norm and padded. -/
abbrev P1 : Mat 50176 64 := Cert.Layer.padRows (Cert.Layer.scaleRows (aX m c) (onorm m c))

/-- After region 0 its output array is the dense product. -/
theorem v24 : (W6 (F := Ideal) m ρ c (Proc.devRef .tc main_v24) : S50176x64.Idx → EReal) = dense (P1 m c) (aW1 m c) :=
  ((W6_arr m ρ c 2).trans (DenseValue.arr0 (V5 m ρ) c)).trans
    (congrArg₂ (dense (R := 50176) (K := 64) (C := 64)) (front_v23 m ρ c) (carry_arg1_5 m ρ c))

/-- After region 1 its output array is the rows selected by the padded source column. -/
theorem v25 : (W7 (F := Ideal) m ρ c (Proc.devRef .tc main_v25) : S800768x64.Idx → EReal)
    = pick (sCol m c) (dense (P1 m c) (aW1 m c)) :=
  ((W7_arr m ρ c 2).trans (GatherValue.arr1 (V6 m ρ) c)).trans
    (congrArg₂ (pick (E := 800768) (N := 50176) (C := 64)) ((carry_v17_6 m ρ c).trans (front_v17 m ρ c)) (v24 m ρ c))

/-- After region 2 its output array is the accumulation at the padded destination column. -/
theorem v26 : (W8 (F := Ideal) m ρ c (Proc.devRef .tc main_v26) : S50176x64.Idx → EReal)
    = accum (dCol m c) (pick (sCol m c) (dense (P1 m c) (aW1 m c))) :=
  ((W8_arr m ρ c 2).trans (ScatterValue.arr2 (V7 m ρ) c)).trans
    (congrArg₂ (accum (E := 800768) (N := 50176) (C := 64)) ((carry_v18_7 m ρ c).trans (front_v18 m ρ c)) (v25 m ρ c))

/-! ## Between the layers -/

/-- The first layer's result, clipped below at zero: the second layer's features. -/
abbrev X2 : Mat 50000 64 :=
  fun j => max (Cert.Layer.layer (aX m c) (aW1 m c) (ab1 m c) (onorm m c) (inorm m c) (aSrc m c) (aDst m c) j) 0

/-- The second layer's input. -/
abbrev P2 : Mat 50176 64 := Cert.Layer.padRows (Cert.Layer.scaleRows (X2 m c) (onorm m c))

/-- At region 3's entry its input array is the clipped first layer, scaled and padded. -/
theorem v39 : (W11 (F := Ideal) m ρ c (Proc.devRef .tc main_v39) : S50176x64.Idx → EReal) = P2 m c := by
  rw [mid_v39 m ρ c, v26 m ρ c, carry_v12_8 m ρ c, front_v12 m ρ c, carry_arg2_8 m ρ c, carry_v9_8 m ρ c, front_v9 m ρ c]
  rfl

/-! ## The second layer: regions 3, 4, 5 -/

theorem v40 : (W12 (F := Ideal) m ρ c (Proc.devRef .tc main_v40) : S50176x32.Idx → EReal) = dense (P2 m c) (aW2 m c) :=
  ((W12_arr m ρ c 2).trans (DenseValue.arr3 (V11 m ρ) c)).trans
    (congrArg₂ (dense (R := 50176) (K := 64) (C := 32)) (v39 m ρ c) (carry_arg3_11 m ρ c))

theorem v41 : (W13 (F := Ideal) m ρ c (Proc.devRef .tc main_v41) : S800768x32.Idx → EReal)
    = pick (sCol m c) (dense (P2 m c) (aW2 m c)) :=
  ((W13_arr m ρ c 2).trans (GatherValue.arr4 (V12 m ρ) c)).trans
    (congrArg₂ (pick (E := 800768) (N := 50176) (C := 32)) ((carry_v17_12 m ρ c).trans (front_v17 m ρ c)) (v40 m ρ c))

theorem v42 : (W14 (F := Ideal) m ρ c (Proc.devRef .tc main_v42) : S50176x32.Idx → EReal)
    = accum (dCol m c) (pick (sCol m c) (dense (P2 m c) (aW2 m c))) :=
  ((W14_arr m ρ c 2).trans (ScatterValue.arr5 (V13 m ρ) c)).trans
    (congrArg₂ (accum (E := 800768) (N := 50176) (C := 32)) ((carry_v18_13 m ρ c).trans (front_v18 m ρ c)) (v41 m ρ c))

/-- The last boundary's contents at the result buffer are the network of the launch contents of the arguments. -/
theorem result : (W15 (F := Ideal) m ρ c (Proc.devRef .tc main_v49) : S50000x32.Idx → EReal)
    = Cert.Layer.net (m ((c.tc : Thread nD τ).loc main_arg0) : S50000x64.Idx → EReal) (m ((c.tc : Thread nD τ).loc main_arg1) : S64x64.Idx → EReal)
        (m ((c.tc : Thread nD τ).loc main_arg2) : S64.Idx → EReal) (m ((c.tc : Thread nD τ).loc main_arg3) : S64x32.Idx → EReal)
        (m ((c.tc : Thread nD τ).loc main_arg4) : S32.Idx → EReal) (m ((c.tc : Thread nD τ).loc main_arg5) : S800000.Idx → BitVec 32)
        (m ((c.tc : Thread nD τ).loc main_arg6) : S800000.Idx → BitVec 32) := by
  rw [tail_v49 m ρ c, v42 m ρ c, carry_v12_14 m ρ c, front_v12 m ρ c, carry_arg4_14 m ρ c]
  rfl

end Cert.KernelIdeal.KernelValue

end
-- ==== Proof.RefValue.lean ====
/- The idealized reference program's result as the same network function of its argument arrays, when every source
   index addresses a node: its gather then reads row `src e` (no wrap of a negative index, no clamp), which is the
   indicator-weighted sum of the rows; its scatter-add sums the messages of the edges whose destination is the node,
   which is the indicator-weighted sum over the edges — the padding edges point at node 50000 and add nothing to the
   kept rows, and the padded rows of the product are not selected by an index below 50000. -/
import proofs.«126296_j7791070675006_1_alg».proof.Proof.Gen.ReferenceIdeal.Read
import proofs.«126296_j7791070675006_1_alg».proof.Proof.Layer

set_option maxRecDepth 16384

noncomputable section

open scoped BigOperators

namespace Cert.ReferenceIdeal.RefValue

open Cert.ReferenceIdeal Cert.Spec Cert.ReferenceIdeal.Read
open Idealize.ShloMosaic Idealize.ShloMosaic.TcCoe Idealize.ShloMosaic.ValueIdx
open Idealize.SL Idealize.SL.Sem

/-- What one layer leaves at a kept row: the edges arriving at the node, each carrying the row of the product its source
    names, summed, scaled by the in-degree norm, plus the bias. -/
def layerSum {C : Nat} (X : Mat 50000 64) (W : Mat 64 C) (b : (⟨1, ![C]⟩ : Shape).Idx → EReal) (on inn : S50000.Idx → EReal)
    (src dst : S800000.Idx → BitVec 32) (hsrc : ∀ e : S800000.Idx, (src e).toNat < 50000) : Mat 50000 C :=
  fun i => (∑ e : Fin 800000, ind (dst (ix1 e)) (BitVec.ofNat 32 (i 0).val)
      * ∑ k : Fin 64, (X (ix2 ⟨(src (ix1 e)).toNat, hsrc (ix1 e)⟩ k) * on (ix1 ⟨(src (ix1 e)).toNat, hsrc (ix1 e)⟩)) * W (ix2 k (i 1)))
    * inn (ix1 (i 0)) + b (ix1 (i 1))

/-- The padded index column at one of the 800000 edges is the edge's index word … -/
theorem padIdx_lt (a : S800000.Idx → BitVec 32) (fill : BitVec 32) (e : Fin 800000) :
    Cert.Layer.padIdx a fill (ix2 (Fin.castAdd 768 e) (0 : Fin 1)) = a (ix1 e) := by
  unfold Cert.Layer.padIdx
  rw [dif_pos (show ((ix2 (Fin.castAdd 768 e) (0 : Fin 1) : (⟨2, ![800768, 1]⟩ : Shape).Idx) 0).val < 800000 from e.isLt)]
  rfl

/-- … and at one of the 768 padding edges it is the fill word. -/
theorem padIdx_ge (a : S800000.Idx → BitVec 32) (fill : BitVec 32) (e : Fin 768) :
    Cert.Layer.padIdx a fill (ix2 (Fin.natAdd 800000 e) (0 : Fin 1)) = fill := by
  unfold Cert.Layer.padIdx
  rw [dif_neg (show ¬ ((ix2 (Fin.natAdd 800000 e) (0 : Fin 1) : (⟨2, ![800768, 1]⟩ : Shape).Idx) 0).val < 800000 from by
    show ¬ (800000 + e.val < 800000); omega)]

/-- The accumulation over the padded edges at a kept node is the sum over the 800000 edges: a padding edge points
    at node 50000. -/
theorem accum_pad {C : Nat} (dst : S800000.Idx → BitVec 32) (M : Mat 800768 C) (v : Fin 50176) (hv : v.val < 50000) (c : Fin C) :
    accum (N := 50176) (Cert.Layer.padIdx dst 50000#32) M (ix2 v c)
      = ∑ e : Fin 800000, ind (dst (ix1 e)) (BitVec.ofNat 32 v.val) * M (ix2 (Fin.castAdd 768 e) c) := by
  unfold accum
  show ∑ e : Fin (800000 + 768), ind (Cert.Layer.padIdx dst 50000#32 (ix2 e (0 : Fin 1))) (BitVec.ofNat 32 v.val) * M (ix2 e c) = _
  rw [Fin.sum_univ_add]
  have h2 : ∑ e : Fin 768, ind (Cert.Layer.padIdx dst 50000#32 (ix2 (Fin.natAdd 800000 e) (0 : Fin 1))) (BitVec.ofNat 32 v.val)
      * M (ix2 (Fin.natAdd 800000 e) c) = 0 := Finset.sum_eq_zero fun e _ => by
    rw [padIdx_ge, ind_ne, zero_mul]
    intro h
    have h' := congrArg BitVec.toNat h
    simp only [BitVec.toNat_ofNat] at h'
    omega
  rw [h2, add_zero]
  refine Finset.sum_congr rfl fun e _ => ?_
  rw [padIdx_lt]

/-- The selection at an edge whose source addresses a node is that node's row. -/
theorem pick_pad {C : Nat} (src : S800000.Idx → BitVec 32) (hsrc : ∀ e : S800000.Idx, (src e).toNat < 50000) (H : Mat 50176 C)
    (e : Fin 800000) (c : Fin C) :
    pick (N := 50176) (Cert.Layer.padIdx src 0#32) H (ix2 (Fin.castAdd 768 e) c)
      = H (ix2 ⟨(src (ix1 e)).toNat, Nat.lt_trans (hsrc (ix1 e)) (by decide)⟩ c) := by
  refine pick_eq_row (Cert.Layer.padIdx src 0#32) H (ix2 (Fin.castAdd 768 e) c) ⟨(src (ix1 e)).toNat, Nat.lt_trans (hsrc (ix1 e)) (by decide)⟩ (by decide) ?_
  show Cert.Layer.padIdx src 0#32 (ix2 (Fin.castAdd 768 e) (0 : Fin 1)) = _
  rw [padIdx_lt]
  apply BitVec.eq_of_toNat_eq
  rw [BitVec.toNat_ofNat, Nat.mod_eq_of_lt (by have := hsrc (ix1 e); show (src (ix1 e)).toNat < 2 ^ 32; omega)]

/-- A kept row of the product of the padded, scaled features is the product of the scaled row. -/
theorem dense_pad {C : Nat} (X : Mat 50000 64) (W : Mat 64 C) (on : S50000.Idx → EReal) (n : Fin 50176) (hn : n.val < 50000) (c : Fin C) :
    dense (Cert.Layer.padRows (Cert.Layer.scaleRows X on)) W (ix2 n c)
      = ∑ k : Fin 64, (X (ix2 ⟨n.val, hn⟩ k) * on (ix1 ⟨n.val, hn⟩)) * W (ix2 k c) := by
  unfold dense
  refine Finset.sum_congr rfl fun k _ => ?_
  congr 1
  unfold Cert.Layer.padRows
  rw [dif_pos (show ((ix2 ((ix2 n c : (⟨2, ![50176, C]⟩ : Shape).Idx) 0) k : (⟨2, ![50176, 64]⟩ : Shape).Idx) 0).val < 50000 from hn)]
  rfl

/-- One layer at a kept row is that edge sum: the padding edges add nothing, each selected row is the product's row at the
    edge's source, and that row of the padded product is the product of the scaled row. -/
theorem layer_eq_layerSum {C : Nat} (X : Mat 50000 64) (W : Mat 64 C) (b : (⟨1, ![C]⟩ : Shape).Idx → EReal) (on inn : S50000.Idx → EReal)
    (src dst : S800000.Idx → BitVec 32) (hsrc : ∀ e : S800000.Idx, (src e).toNat < 50000) :
    Cert.Layer.layer X W b on inn src dst = layerSum X W b on inn src dst hsrc := by
  funext i
  unfold Cert.Layer.layer Cert.Layer.finish Cert.Layer.keepRows layerSum
  refine congrArg (· + b (ix1 (i 1))) (congrArg (· * inn (ix1 (i 0))) ?_)
  refine (accum_pad dst _ ⟨(i 0).val, Nat.lt_of_lt_of_le (idx2_lt0 i) (by decide)⟩ (idx2_lt0 i) (i 1)).trans ?_
  refine Finset.sum_congr rfl fun e _ => ?_
  refine congrArg (ind (dst (ix1 e)) (BitVec.ofNat 32 (i 0).val) * ·) ?_
  refine (pick_pad src hsrc _ e (i 1)).trans ?_
  exact dense_pad X W on _ (hsrc (ix1 e)) (i 1)

section Rows
variable {α : Type}

/-- The dimension numbers of a row gather: an operand of 50000 rows of C, one start index per edge, a result of
    800000 rows of C; their conditions are decided on a program's literal shapes. -/
abbrev rowGather (C : Nat) (wf : GatherDims.WF ⟨2, ![50000, C]⟩ ⟨2, ![800000, 1]⟩ ⟨2, ![800000, C]⟩ [1] [0] [] [0] [] 1 ![1, C]) :
    GatherDims ⟨2, ![50000, C]⟩ ⟨2, ![800000, 1]⟩ ⟨2, ![800000, C]⟩ where
  offsetDims := [1]
  collapsedSliceDims := [0]
  operandBatchingDims := []
  startIndicesBatchingDims := []
  startIndexMap := [0]
  indexVectorDim := 1
  sliceSizes := ![1, C]
  wf := wf

/-- The row gather at (e, c): the operand at row `idx[e, 0]`, read signed and clamped into [0, 49999], column c. -/
theorem rowGather_apply {C : Nat} (wf : GatherDims.WF ⟨2, ![50000, C]⟩ ⟨2, ![800000, 1]⟩ ⟨2, ![800000, C]⟩ [1] [0] [] [0] [] 1 ![1, C])
    (H : (⟨2, ![50000, C]⟩ : Shape).Idx → α) (idx : IVec ⟨2, ![800000, 1]⟩ 32) (e : Fin 800000) (c : Fin C) :
    Host.gather (rowGather C wf) H idx (ix2 e c)
      = H (ix2 ⟨min (idx (ix2 e (0 : Fin 1))).toInt.toNat (50000 - 1), by omega⟩ c) := by
  unfold Host.gather
  congr 1
  funext a
  refine Fin.ext ?_
  match a with
  | ⟨0, _⟩ =>
    show (rowGather C wf).start (ix2 e c) idx 0 + (rowGather C wf).batchCoord (ix2 e c) 0 + (rowGather C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather C wf).startIndexMap from List.mem_singleton.mpr rfl)]
    have hsi : (rowGather C wf).siIdx (ix2 e c) ⟨List.idxOf (0 : Fin 2) (rowGather C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather C wf).start (ix2 e c) idx 1 + (rowGather C wf).batchCoord (ix2 e c) 1 + (rowGather C wf).offCoord (ix2 e c) 1 = c.val
    rw [GatherDims.batchCoord_eq_zero _ _ _ List.not_mem_nil]
    have hs : (rowGather C wf).start (ix2 e c) idx 1 = 0 := by
      unfold GatherDims.start
      rw [dif_neg (show ¬ (1 : Fin 2) ∈ (rowGather C wf).startIndexMap from (by decide : ¬ (1 : Fin 2) ∈ [(0 : Fin 2)]))]
    have ho : (rowGather C wf).offCoord (ix2 e c) 1 = c.val := by
      unfold GatherDims.offCoord
      rw [dif_pos (show (1 : Fin 2) ∈ (rowGather C wf).sKept from (GatherDims.mem_sKept _ _).mpr ⟨(by decide : ¬ (1 : Fin 2) ∈ [(0 : Fin 2)]), List.not_mem_nil⟩)]
      rfl
    rw [hs, ho]
    omega

end Rows

section RowsScatter

/-- The dimension numbers of a row scatter: an operand of 50000 rows of C, one scatter index per edge, updates of
    800000 rows of C. -/
abbrev rowScatter (C : Nat) (wf : ScatterDims.WF ⟨2, ![50000, C]⟩ ⟨2, ![800000, 1]⟩ ⟨2, ![800000, C]⟩ [1] [0] [0] 1) :
    ScatterDims ⟨2, ![50000, C]⟩ ⟨2, ![800000, 1]⟩ ⟨2, ![800000, C]⟩ where
  updateWindowDims := [1]
  insertedWindowDims := [0]
  scatterDimsToOperandDims := [0]
  indexVectorDim := 1
  wf := wf

variable {C : Nat} (wf : ScatterDims.WF ⟨2, ![50000, C]⟩ ⟨2, ![800000, 1]⟩ ⟨2, ![800000, C]⟩ [1] [0] [0] 1)
  (idx : IVec ⟨2, ![800000, 1]⟩ 32) (e : Fin 800000) (c : Fin C)

/-- Update (e, c) starts at row `idx[e, 0]`, read signed … -/
theorem rowScatter_start0 : (rowScatter C wf).start (ix2 e c) idx 0 = (idx (ix2 e (0 : Fin 1))).toInt := by
  unfold ScatterDims.start
  rw [dif_pos (show (0 : Fin 2) ∈ (rowScatter C wf).scatterDimsToOperandDims from List.mem_singleton.mpr rfl)]
  have hsi : (rowScatter C wf).siIdx (ix2 e c) ⟨List.idxOf (0 : Fin 2) (rowScatter C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
/-- … and at column 0 … -/
theorem rowScatter_start1 : (rowScatter C wf).start (ix2 e c) idx 1 = 0 := by
  unfold ScatterDims.start
  rw [dif_neg (show ¬ (1 : Fin 2) ∈ (rowScatter C wf).scatterDimsToOperandDims from (by decide : ¬ (1 : Fin 2) ∈ [(0 : Fin 2)]))]
/-- … its window coordinate is 0 on the rows … -/
theorem rowScatter_window0 : (rowScatter C wf).window (ix2 e c) 0 = 0 := by
  unfold ScatterDims.window
  rw [dif_neg]
  show ¬ (0 : Fin 2) ∈ (⟨2, ![50000, C]⟩ : Shape).kept [(0 : Fin 2)]
  simp [Shape.kept]
/-- … and c on the columns. -/
theorem rowScatter_window1 : (rowScatter C wf).window (ix2 e c) 1 = c.val := by
  unfold ScatterDims.window
  rw [dif_pos (show (1 : Fin 2) ∈ (⟨2, ![50000, C]⟩ : Shape).kept [(0 : Fin 2)] by simp [Shape.kept])]
  rfl

end RowsScatter

section RowsScatter2

variable {C : Nat} (wf : ScatterDims.WF ⟨2, ![50000, C]⟩ ⟨2, ![800000, 1]⟩ ⟨2, ![800000, C]⟩ [1] [0] [0] 1)
  (idx : IVec ⟨2, ![800000, 1]⟩ 32) (e : Fin 800000) (c : Fin C)

/-- A word read signed is a number below 50000 exactly when it is that number's word. -/
theorem toInt_eq_iff (x : BitVec 32) (n : Nat) (hn : n < 50000) : x.toInt = (n : Int) ↔ x = BitVec.ofNat 32 n := by
  constructor
  · intro h
    apply BitVec.eq_of_toNat_eq
    rw [BitVec.toNat_ofNat, Nat.mod_eq_of_lt (by omega)]
    rw [BitVec.toInt_eq_toNat_cond] at h
    have := x.isLt
    split at h <;> omega
  · rintro rfl
    rw [BitVec.toInt_eq_toNat_cond, BitVec.toNat_ofNat, Nat.mod_eq_of_lt (by omega)]
    rw [if_pos (by omega)]

/-- Update (e, c) lands on (v, c') exactly when the edge's index word is v's and c = c'. -/
theorem rowScatter_resultIdx (v : Fin 50000) (c' : Fin C) :
    (rowScatter C wf).resultIdx? (ix2 e c) idx = some (ix2 v c') ↔ (idx (ix2 e (0 : Fin 1)) = BitVec.ofNat 32 v.val ∧ c = c') := by
  have s0 : (rowScatter C wf).start (ix2 e c) idx 0 + ((rowScatter C wf).window (ix2 e c) 0 : Int) = (idx (ix2 e (0 : Fin 1))).toInt := by
    rw [rowScatter_start0, rowScatter_window0]; simp
  have s1 : (rowScatter C wf).start (ix2 e c) idx 1 + ((rowScatter C wf).window (ix2 e c) 1 : Int) = (c.val : Int) := by
    rw [rowScatter_start1, rowScatter_window1]; simp
  have hi0 : v.val < 50000 := v.isLt
  have hc : (c.val : Int) < (C : Int) := by have := c.isLt; omega
  unfold ScatterDims.resultIdx?
  constructor
  · intro hh
    split at hh
    · rename_i h
      have hi := Option.some.inj hh
      have h0 : ((rowScatter C wf).start (ix2 e c) idx 0 + ((rowScatter C wf).window (ix2 e c) 0 : Int)).toNat = v.val :=
        congrArg (fun f => (f 0).val) hi
      have h1 : ((rowScatter C wf).start (ix2 e c) idx 1 + ((rowScatter C wf).window (ix2 e c) 1 : Int)).toNat = c'.val :=
        congrArg (fun f => (f 1).val) hi
      have hb := (h 0).1
      rw [s0] at h0 hb
      rw [s1] at h1
      refine ⟨(toInt_eq_iff _ _ hi0).mp (by omega), Fin.ext (by omega)⟩
    · exact absurd hh (by simp)
  · rintro ⟨hidx, rfl⟩
    have ht : (idx (ix2 e (0 : Fin 1))).toInt = (v.val : Int) := (toInt_eq_iff _ _ hi0).mpr hidx
    rw [dif_pos (fun a => by
      match a with
      | ⟨0, _⟩ =>
        show 0 ≤ (rowScatter C wf).start (ix2 e c) idx 0 + ((rowScatter C wf).window (ix2 e c) 0 : Int)
          ∧ (rowScatter C wf).start (ix2 e c) idx 0 + ((rowScatter C wf).window (ix2 e c) 0 : Int) < ((50000 : Nat) : Int)
        rw [s0, ht]; omega
      | ⟨1, _⟩ =>
        show 0 ≤ (rowScatter C wf).start (ix2 e c) idx 1 + ((rowScatter C wf).window (ix2 e c) 1 : Int)
          ∧ (rowScatter C wf).start (ix2 e c) idx 1 + ((rowScatter C wf).window (ix2 e c) 1 : Int) < ((C : Nat) : Int)
        rw [s1]; omega)]
    refine congrArg some (funext fun a => Fin.ext ?_)
    match a with
    | ⟨0, _⟩ =>
      show ((rowScatter C wf).start (ix2 e c) idx 0 + ((rowScatter C wf).window (ix2 e c) 0 : Int)).toNat = v.val
      rw [s0, ht]; omega
    | ⟨1, _⟩ =>
      show ((rowScatter C wf).start (ix2 e c) idx 1 + ((rowScatter C wf).window (ix2 e c) 1 : Int)).toNat = c.val
      rw [s1]; omega

end RowsScatter2

section RowsScatter3

variable {C : Nat} (wf : ScatterDims.WF ⟨2, ![50000, C]⟩ ⟨2, ![800000, 1]⟩ ⟨2, ![800000, C]⟩ [1] [0] [0] 1)
  (idx : IVec ⟨2, ![800000, 1]⟩ 32)

/-- The row scatter-add at (v, c): the operand's element plus the updates (e, c) of the edges whose index word is v's,
    written as the indicator-weighted sum over the edges. -/
theorem rowScatter_apply (x : (⟨2, ![50000, C]⟩ : Shape).Idx → EReal) (upd : (⟨2, ![800000, C]⟩ : Shape).Idx → EReal)
    (v : Fin 50000) (c : Fin C) :
    (Host.scatterAdd (F := Ideal) (φ := .f32) (rowScatter C wf) x idx upd : (⟨2, ![50000, C]⟩ : Shape).Idx → EReal) (ix2 v c)
      = x (ix2 v c) + ∑ e : Fin 800000, ind (idx (ix2 e (0 : Fin 1))) (BitVec.ofNat 32 v.val) * upd (ix2 e c) := by
  show Ideal.hostScatterAdd (rowScatter C wf) x idx upd (ix2 v c) = _
  unfold Ideal.hostScatterAdd
  refine congrArg (x (ix2 v c) + ·) ?_
  rw [Finset.sum_filter, sum_idx2]
  refine Finset.sum_congr rfl fun e _ => ?_
  simp only [rowScatter_resultIdx]
  by_cases h : idx (ix2 e (0 : Fin 1)) = BitVec.ofNat 32 v.val
  · rw [ind, if_pos h, one_mul]
    simp only [h, true_and]
    rw [Finset.sum_ite_eq']
    simp
  · rw [ind_ne h, zero_mul]
    simp [h]

end RowsScatter3

/-- An index word whose value is below 50000 is not negative: the wrap of negative indices leaves it alone. -/
theorem wrap_id (s : BitVec 32) (h : s.toNat < 50000) :
    Scalar.select (IntOp.cmpi .slt s 0#32) (IntOp.addi s 50000#32) s = s := by
  have h1 : s.toInt = (s.toNat : Int) := by rw [BitVec.toInt_eq_toNat_cond, if_pos (by omega)]
  have h0 : (0#32 : BitVec 32).toInt = 0 := by decide
  have hs : s.slt 0#32 = false := by
    unfold BitVec.slt
    rw [h1, h0]
    exact decide_eq_false (by omega)
  have hc : IntOp.cmpi .slt s 0#32 = 0#1 := by
    show BitVec.ofBool (s.slt 0#32) = 0#1
    rw [hs]; rfl
  rw [hc, select_zero]

/-- Read signed and clamped into [0, 49999], such a word is its value. -/
theorem clamp_id (s : BitVec 32) (h : s.toNat < 50000) : min s.toInt.toNat (50000 - 1) = s.toNat := by
  have h1 : s.toInt = (s.toNat : Int) := by rw [BitVec.toInt_eq_toNat_cond, if_pos (by omega)]
  rw [h1]; omega

/-- The reference's first layer, read operation by operation down to the edge sum: the scatter-add from zero is the
    indicator-weighted sum over the edges, the gather at an in-range source reads that row of the product, and the product's
    element is the sum over the 64 features of the scaled row times the weights. -/
theorem ref_layer1 (x0 : S50000x64.Idx → EReal) (x1 : S64x64.Idx → EReal) (x2 : S64.Idx → EReal) (x5 x6 : S800000.Idx → BitVec 32)
    (hsrc : ∀ e : S800000.Idx, (x5 e).toNat < 50000) :
    (val_main_v32 (F := Ideal) x0 x1 x2 x5 x6 : S50000x64.Idx → EReal)
      = layerSum x0 x1 x2 (Cert.Layer.norm x5) (Cert.Layer.norm x6) x5 x6 hsrc := by
  funext i
  obtain ⟨v, c, rfl⟩ : ∃ (v : Fin 50000) (c : Fin 64), i = ix2 v c := ⟨i 0, i 1, eq_ix2 i⟩
  rw [val_main_v32_apply, val_main_v29_apply, val_main_v31_apply, val_main_v30_apply, val_main_v28_apply, val_main_v27_apply]
  have e1 : idx_main_v27 (idx_main_v28 (ix2 v c)) = ix1 v := funext fun a => Fin.ext (by match a with | ⟨0, _⟩ => rfl)
  have e2 : idx_main_v30 (idx_main_v31 (ix2 v c)) = ix1 c := funext fun a => Fin.ext (by match a with | ⟨0, _⟩ => rfl)
  rw [e1, e2]
  show (val_main_v26 (F := Ideal) x0 x1 x5 x6 (ix2 v c) : EReal) * (Cert.Layer.norm x6 (ix1 v)) + x2 (ix1 c) = _
  unfold layerSum
  refine congrArg (· + x2 (ix1 c)) (congrArg (· * Cert.Layer.norm x6 (ix1 v)) ?_)
  unfold val_main_v26
  refine (rowScatter_apply _ (val_main_v25 (F := Ideal) x6) (val_main_v24 (F := Ideal)) (val_main_v23 (F := Ideal) x0 x1 x5) v c).trans ?_
  rw [val_main_v24_apply, val_main_cst_7_apply]
  show Ideal.ofBits .f32 0x00000000#32 + _ = _
  rw [Ideal.ofBits_zero_f32, zero_add]
  refine Finset.sum_congr rfl fun e _ => ?_
  have e3 : val_main_v25 (F := Ideal) x6 (ix2 e (0 : Fin 1)) = x6 (ix1 e) := by
    rw [val_main_v25_apply]
    exact congrArg x6 (funext fun a => Fin.ext (by match a with | ⟨0, _⟩ => rfl))
  rw [e3]
  refine congrArg (ind (x6 (ix1 e)) (BitVec.ofNat 32 v.val) * ·) ?_
  unfold val_main_v23
  refine (rowGather_apply _ (val_main_v16 (F := Ideal) x0 x1 x5) (val_main_v22 (F := Ideal) x5) e c).trans ?_
  have e4 : val_main_v22 (F := Ideal) x5 (ix2 e (0 : Fin 1)) = x5 (ix1 e) := by
    rw [val_main_v22_apply, val_main_v21_apply, val_main_v18_apply, val_main_v20_apply, val_main_v17_apply, val_main_v19_apply,
      val_main_c_apply, val_main_c_6_apply]
    have : idx_main_v22 (ix2 e (0 : Fin 1)) = ix1 e := funext fun a => Fin.ext (by match a with | ⟨0, _⟩ => rfl)
    rw [this]
    exact wrap_id _ (hsrc (ix1 e))
  have e5 : (ix2 (⟨min (val_main_v22 (F := Ideal) x5 (ix2 e (0 : Fin 1))).toInt.toNat (50000 - 1), by omega⟩ : Fin 50000) c : S50000x64.Idx)
      = ix2 ⟨(x5 (ix1 e)).toNat, hsrc (ix1 e)⟩ c := by
    refine congrArg (fun n : Fin 50000 => (ix2 n c : S50000x64.Idx)) (Fin.ext ?_)
    show min _ _ = _
    rw [e4]; exact clamp_id _ (hsrc (ix1 e))
  rw [e5, val_main_v16_apply]
  refine Finset.sum_congr rfl fun k _ => ?_
  rw [val_main_v15_apply, val_main_v14_apply, val_main_v13_apply]
  have e6 : lidx_main_v16 (ix2 (⟨(x5 (ix1 e)).toNat, hsrc (ix1 e)⟩ : Fin 50000) c) k = ix2 ⟨(x5 (ix1 e)).toNat, hsrc (ix1 e)⟩ k :=
    funext fun a => Fin.ext (by match a with | ⟨0, _⟩ => rfl | ⟨1, _⟩ => rfl)
  have e7 : ridx_main_v16 (ix2 (⟨(x5 (ix1 e)).toNat, hsrc (ix1 e)⟩ : Fin 50000) c) k = ix2 k c :=
    funext fun a => Fin.ext (by match a with | ⟨0, _⟩ => rfl | ⟨1, _⟩ => rfl)
  have e8 : idx_main_v13 (idx_main_v14 (ix2 (⟨(x5 (ix1 e)).toNat, hsrc (ix1 e)⟩ : Fin 50000) k)) = ix1 ⟨(x5 (ix1 e)).toNat, hsrc (ix1 e)⟩ :=
    funext fun a => Fin.ext (by match a with | ⟨0, _⟩ => rfl)
  rw [e6, e7, e8]
  rfl

/-- The reference's second layer, the same reading with the clipped first layer as its features. -/
theorem ref_layer2 (x0 : S50000x64.Idx → EReal) (x1 : S64x64.Idx → EReal) (x2 : S64.Idx → EReal) (x3 : S64x32.Idx → EReal) (x4 : S32.Idx → EReal)
    (x5 x6 : S800000.Idx → BitVec 32) (hsrc : ∀ e : S800000.Idx, (x5 e).toNat < 50000) :
    (val_main_v66 (F := Ideal) x0 x1 x2 x3 x4 x5 x6 : S50000x32.Idx → EReal)
      = layerSum (val_main_v33 (F := Ideal) x0 x1 x2 x5 x6) x3 x4 (Cert.Layer.norm x5) (Cert.Layer.norm x6) x5 x6 hsrc := by
  funext i
  obtain ⟨v, c, rfl⟩ : ∃ (v : Fin 50000) (c : Fin 32), i = ix2 v c := ⟨i 0, i 1, eq_ix2 i⟩
  rw [val_main_v66_apply, val_main_v63_apply, val_main_v65_apply, val_main_v64_apply, val_main_v62_apply, val_main_v61_apply]
  have e1 : idx_main_v61 (idx_main_v62 (ix2 v c)) = ix1 v := funext fun a => Fin.ext (by match a with | ⟨0, _⟩ => rfl)
  have e2 : idx_main_v64 (idx_main_v65 (ix2 v c)) = ix1 c := funext fun a => Fin.ext (by match a with | ⟨0, _⟩ => rfl)
  rw [e1, e2]
  show (val_main_v60 (F := Ideal) x0 x1 x2 x3 x5 x6 (ix2 v c) : EReal) * (Cert.Layer.norm x6 (ix1 v)) + x4 (ix1 c) = _
  unfold layerSum
  refine congrArg (· + x4 (ix1 c)) (congrArg (· * Cert.Layer.norm x6 (ix1 v)) ?_)
  unfold val_main_v60
  refine (rowScatter_apply _ (val_main_v59 (F := Ideal) x6) (val_main_v58 (F := Ideal)) (val_main_v57 (F := Ideal) x0 x1 x2 x3 x5 x6) v c).trans ?_
  rw [val_main_v58_apply, val_main_cst_17_apply]
  show Ideal.ofBits .f32 0x00000000#32 + _ = _
  rw [Ideal.ofBits_zero_f32, zero_add]
  refine Finset.sum_congr rfl fun e _ => ?_
  have e3 : val_main_v59 (F := Ideal) x6 (ix2 e (0 : Fin 1)) = x6 (ix1 e) := by
    rw [val_main_v59_apply]
    exact congrArg x6 (funext fun a => Fin.ext (by match a with | ⟨0, _⟩ => rfl))
  rw [e3]
  refine congrArg (ind (x6 (ix1 e)) (BitVec.ofNat 32 v.val) * ·) ?_
  unfold val_main_v57
  refine (rowGather_apply _ (val_main_v50 (F := Ideal) x0 x1 x2 x3 x5 x6) (val_main_v56 (F := Ideal) x5) e c).trans ?_
  have e4 : val_main_v56 (F := Ideal) x5 (ix2 e (0 : Fin 1)) = x5 (ix1 e) := by
    rw [val_main_v56_apply, val_main_v55_apply, val_main_v52_apply, val_main_v54_apply, val_main_v51_apply, val_main_v53_apply,
      val_main_c_15_apply, val_main_c_16_apply]
    have : idx_main_v56 (ix2 e (0 : Fin 1)) = ix1 e := funext fun a => Fin.ext (by match a with | ⟨0, _⟩ => rfl)
    rw [this]
    exact wrap_id _ (hsrc (ix1 e))
  have e5 : (ix2 (⟨min (val_main_v56 (F := Ideal) x5 (ix2 e (0 : Fin 1))).toInt.toNat (50000 - 1), by omega⟩ : Fin 50000) c : S50000x32.Idx)
      = ix2 ⟨(x5 (ix1 e)).toNat, hsrc (ix1 e)⟩ c := by
    refine congrArg (fun n : Fin 50000 => (ix2 n c : S50000x32.Idx)) (Fin.ext ?_)
    show min _ _ = _
    rw [e4]; exact clamp_id _ (hsrc (ix1 e))
  rw [e5, val_main_v50_apply]
  refine Finset.sum_congr rfl fun k _ => ?_
  rw [val_main_v49_apply, val_main_v48_apply, val_main_v47_apply]
  have e6 : lidx_main_v50 (ix2 (⟨(x5 (ix1 e)).toNat, hsrc (ix1 e)⟩ : Fin 50000) c) k = ix2 ⟨(x5 (ix1 e)).toNat, hsrc (ix1 e)⟩ k :=
    funext fun a => Fin.ext (by match a with | ⟨0, _⟩ => rfl | ⟨1, _⟩ => rfl)
  have e7 : ridx_main_v50 (ix2 (⟨(x5 (ix1 e)).toNat, hsrc (ix1 e)⟩ : Fin 50000) c) k = ix2 k c :=
    funext fun a => Fin.ext (by match a with | ⟨0, _⟩ => rfl | ⟨1, _⟩ => rfl)
  have e8 : idx_main_v47 (idx_main_v48 (ix2 (⟨(x5 (ix1 e)).toNat, hsrc (ix1 e)⟩ : Fin 50000) k)) = ix1 ⟨(x5 (ix1 e)).toNat, hsrc (ix1 e)⟩ :=
    funext fun a => Fin.ext (by match a with | ⟨0, _⟩ => rfl)
  rw [e6, e7, e8]
  rfl

/-- Between the layers the reference takes the maximum with the zero word, which is 0. -/
theorem relu_eq (x0 : S50000x64.Idx → EReal) (x1 : S64x64.Idx → EReal) (x2 : S64.Idx → EReal) (x5 x6 : S800000.Idx → BitVec 32) :
    (val_main_v33 (F := Ideal) x0 x1 x2 x5 x6 : S50000x64.Idx → EReal)
      = fun j => max ((val_main_v32 (F := Ideal) x0 x1 x2 x5 x6 : S50000x64.Idx → EReal) j) 0 := by
  funext j
  rw [val_main_v33_apply, val_main_call2_v0_apply, val_main_call2_cst_apply]
  show max _ (Ideal.ofBits .f32 0x00000000#32) = _
  rw [Ideal.ofBits_zero_f32]

variable (m : (ℓ : Loc nD τ sig) → Buf (Elt Ideal) ℓ) (c : Dev nD)

/-- The reference's result term is the network of its arguments' launch contents, for sources in range. -/
theorem result (hsrc : ∀ e : S800000.Idx, ((m ((c.tc : Thread nD τ).loc main_arg5) : S800000.Idx → BitVec 32) e).toNat < 50000) :
    (Cert.ReferenceIdeal.Value.res_main_v66 (F := Ideal) m c : S50000x32.Idx → EReal)
    = Cert.Layer.net (m ((c.tc : Thread nD τ).loc main_arg0) : S50000x64.Idx → EReal) (m ((c.tc : Thread nD τ).loc main_arg1) : S64x64.Idx → EReal)
        (m ((c.tc : Thread nD τ).loc main_arg2) : S64.Idx → EReal) (m ((c.tc : Thread nD τ).loc main_arg3) : S64x32.Idx → EReal)
        (m ((c.tc : Thread nD τ).loc main_arg4) : S32.Idx → EReal) (m ((c.tc : Thread nD τ).loc main_arg5) : S800000.Idx → BitVec 32)
        (m ((c.tc : Thread nD τ).loc main_arg6) : S800000.Idx → BitVec 32) := by
  rw [Read.val_main_v66_eq, ref_layer2 _ _ _ _ _ _ _ hsrc, relu_eq, ref_layer1 _ _ _ _ _ hsrc]
  unfold Cert.Layer.net
  rw [layer_eq_layerSum _ _ _ _ _ _ _ hsrc, layer_eq_layerSum _ _ _ _ _ _ _ hsrc]

end Cert.ReferenceIdeal.RefValue

end
-- ==== Proof.PreRange.lean ====
/- The precondition's last conjunct read back: every source index, as an unsigned word, is below 50000
   (it is at least 0 and below 50000 as a signed integer). -/
import proofs.«126296_j7791070675006_1_alg».proof.Defs
import proofs.«126296_j7791070675006_1_alg».proof.Proof.Gen.Pre_finite_inputs
import proofs.«126296_j7791070675006_1_alg».proof.Proof.Gen.KernelIdeal
import Idealize.ShloMosaic.Lib.ReduceAll
import Idealize.ShloMosaic.Lib.ValueIdx
import Idealize.ShloMosaic.Lib.Pipeline.Value

set_option maxRecDepth 16384

noncomputable section

namespace Cert.Proof.PreRange

open Idealize.ShloMosaic Idealize.SL.Sem

/-- The shape of a scalar has one index. -/
local instance : Subsingleton Cert.Pre_finite_inputs.S_.Idx := ⟨fun a b => funext fun d => d.elim0⟩

/-- A word in [0, 50000) as a signed integer is below 50000 as an unsigned one. -/
theorem toNat_lt (w : BitVec 32) (h0 : IntOp.cmpi .sge w 0#32 = 1#1) (h1 : IntOp.cmpi .slt w 50000#32 = 1#1) : w.toNat < 50000 := by
  rw [IntOp.cmpi_sge] at h0
  rw [IntOp.cmpi_slt] at h1
  have z0 : (0#32 : BitVec 32).toInt = 0 := by decide
  have z1 : (50000#32 : BitVec 32).toInt = 50000 := by decide
  rw [z0] at h0
  rw [z1] at h1
  have h32 := w.isLt
  unfold BitVec.toInt at h0 h1
  split at h1 <;> omega

/-- From the precondition: every source index is below 50000. The precondition is a conjunction of scalar words; its last
    conjunct is the conjunction over all 800000 edges of (0 ≤ src e) and (src e < 50000), compared as signed integers. -/
theorem src_lt (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD)
    (e : Cert.KernelIdeal.S800000.Idx) :
    ((m ((c.tc : Thread Cert.KernelIdeal.nD Cert.KernelIdeal.τ).loc Cert.KernelIdeal.main_arg5) : Cert.KernelIdeal.S800000.Idx → BitVec 32) e).toNat < 50000 := by
  have h := congrFun (hpre c) ValueIdx.ix0
  unfold Cert.Pre_finite_inputs.fn Cert.Pre_finite_inputs.fn_part1 at h
  dsimp only at h
  have h2 := (IntOp.andi_eq_one.mp h).2
  have h3 := Host.reduce_andi_all _ _ _ _ _ h2 e
  have h4 := IntOp.andi_eq_one.mp h3
  exact toNat_lt _ h4.1 h4.2

end Cert.Proof.PreRange

end
-- ==== Proof.lean ====
/- The five claims of the certificate for a two-layer graph convolution.
   Each layer computes, for every node v and feature column c,
     out[v, c] = (Σ_{edges e with dst e = v} H[src e, c]) · in_norm[v] + b[c],   H = (X · out_norm) W,
   where out_norm, in_norm are the inverse square roots of the clipped out- and in-degrees.
   The kernel realises the row selection H[src e, ·] and the accumulation over edges by products with
   0/1 indicator matrices, tile by tile; the reference uses an index gather and a scatter-add.
   The two agree when every source index addresses a row of H (0 ≤ src < 50000): an indicator row
   then has exactly one 1, so the product with it selects that row, and the scatter-add of the selected
   rows is the sum over the edges arriving at v. Outside that range the reference's gather clamps the
   index while the indicator row is all zero, which is why the range is part of the precondition.
   The three frame claims are the generated frame theorems (the reference's is its generated run with the
   result dropped); the ledger of idealizing rewrites is empty, so the preservation claim is `True`. -/
import proofs.«126296_j7791070675006_1_alg».proof.Defs
import proofs.«126296_j7791070675006_1_alg».proof.Proof.Gen.Kernel
import proofs.«126296_j7791070675006_1_alg».proof.Proof.Gen.Kernel.Skeleton
import proofs.«126296_j7791070675006_1_alg».proof.Proof.Gen.Kernel.Launch
import proofs.«126296_j7791070675006_1_alg».proof.Proof.Gen.Kernel.Points
import proofs.«126296_j7791070675006_1_alg».proof.Proof.Gen.Kernel.Frame
import proofs.«126296_j7791070675006_1_alg».proof.Proof.Gen.KernelIdeal
import proofs.«126296_j7791070675006_1_alg».proof.Proof.Gen.KernelIdeal.Skeleton
import proofs.«126296_j7791070675006_1_alg».proof.Proof.Gen.KernelIdeal.Launch
import proofs.«126296_j7791070675006_1_alg».proof.Proof.Gen.KernelIdeal.Points
import proofs.«126296_j7791070675006_1_alg».proof.Proof.Gen.KernelIdeal.Frame
import proofs.«126296_j7791070675006_1_alg».proof.Proof.Gen.ReferenceIdeal
import proofs.«126296_j7791070675006_1_alg».proof.Proof.Gen.ReferenceIdeal.Run
import proofs.«126296_j7791070675006_1_alg».proof.Proof.Gen.ReferenceIdeal.Read
import proofs.«126296_j7791070675006_1_alg».proof.Proof.Gen.Pre_finite_inputs
import proofs.«126296_j7791070675006_1_alg».proof.Proof.KernelRun
import proofs.«126296_j7791070675006_1_alg».proof.Proof.KernelValue
import proofs.«126296_j7791070675006_1_alg».proof.Proof.RefValue
import proofs.«126296_j7791070675006_1_alg».proof.Proof.PreRange
import Idealize.ShloMosaic.Adequacy
import Idealize.ShloMosaic.Init

noncomputable section

namespace Cert.Proof

open Idealize.ShloMosaic Idealize.SL.Sem Cert.Kernel

/-- The equation the value claim comes down to: from arguments that agree and sources in range, the kernel
    program's result array — the last stretch of host operations (row slice, scaling by in_norm, bias) applied to
    what the sixth region leaves — is the reference's composed term. Per layer this is: the dense product of the
    first region is the reference's `dot_general`; the indicator-matrix products of the second region select row
    `src e` of it (one 1 per indicator row, as 0 ≤ src e < 50000 ≤ 50176); the accumulation of the third region over
    the 391 edge tiles and 98 node tiles sums the selected rows over the edges with `dst e = v`, padding edges landing
    in row 50000, which the slice drops; that sum is the reference's scatter-add of its gather. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    (Cert.ReferenceIdeal.Value.res_main_v66 (F := Ideal) m' c : Cert.ReferenceIdeal.S50000x32.Idx → EReal)
      = Cert.KernelIdeal.Gen.W15 (F := Ideal) m ρ c (Proc.devRef .tc Cert.KernelIdeal.main_v49) := by
  have hsrc : ∀ e : Cert.ReferenceIdeal.S800000.Idx,
      ((m' ((c.tc : Thread Cert.ReferenceIdeal.nD Cert.ReferenceIdeal.τ).loc Cert.ReferenceIdeal.main_arg5) : Cert.ReferenceIdeal.S800000.Idx → BitVec 32) e).toNat < 50000 := by
    intro e
    rw [(hagree c).2.2.2.2.2.1]
    exact Cert.Proof.PreRange.src_lt m hpre c e
  rw [Cert.ReferenceIdeal.RefValue.result m' c hsrc, (hagree c).1, (hagree c).2.1, (hagree c).2.2.1, (hagree c).2.2.2.1,
    (hagree c).2.2.2.2.1, (hagree c).2.2.2.2.2.1, (hagree c).2.2.2.2.2.2]
  exact (Cert.KernelIdeal.KernelValue.result m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  by
    intro m ρ m' ρ' hpre hagree
    refine ⟨fun c => Cert.KernelIdeal.Gen.W15 (F := Ideal) m ρ c (Proc.devRef .tc Cert.KernelIdeal.main_v49),
      Cert.KernelIdeal.RunValue.run (F := Ideal) m ρ, ?_⟩
    refine (θ_run Cert.ReferenceIdeal.defs _ _).mono (fun _ h c => ⟨(h c).1.trans ?_, (h c).2⟩)
      (Cert.ReferenceIdeal.Value.run (F := Ideal) m' ρ')
    exact result_eq m ρ m' hpre hagree c⟩

end Cert.Proof

end
